-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_2)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_2) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x640 : Shape := ⟨3, ![8, 2048, 640]⟩
abbrev S_ : Shape := ⟨0, ![]⟩

class Facts : Prop where
  bcast_S_S8x2048x640 : S_.BroadcastsInDim S8x2048x640 (![] : Fin 0 → Fin S8x2048x640.rank)
  reducesTo_S8x2048x640_S_d0_1_2 : S8x2048x640.ReducesTo [0, 1, 2] S_
  h_S_ : 0 < S_.numel

variable [Facts]

def fn {F : FTy → Type} [FloatOps F] (main_arg0 : FVec F S8x2048x640 .f32) (main_arg1 : FVec F S8x2048x640 .f32) (main_arg2 : FVec F S8x2048x640 .f32) : IVec S_ 1 :=
  let main_v0 : FVec F S8x2048x640 .f32 := Host.absf main_arg0
  let main_cst : FVec F S_ .f32 := constant S_ .f32 0x7F800000#32
  let main_v1 : FVec F S8x2048x640 .f32 := broadcastInDim S8x2048x640 ![] bcast_S_S8x2048x640 main_cst
  let main_v2 : IVec S8x2048x640 1 := cmpf .olt main_v0 main_v1
  let main_c : IVec S_ 1 := constantI S_ 1 1#1
  let main_v3 : IVec S_ 1 := (fun x v => Host.reduce IntOp.andi x v reducesTo_S8x2048x640_S_d0_1_2 h_S_) main_v2 main_c
  let main_v4 : FVec F S8x2048x640 .f32 := Host.absf main_arg1
  let main_cst_0 : FVec F S_ .f32 := constant S_ .f32 0x7F800000#32
  let main_v5 : FVec F S8x2048x640 .f32 := broadcastInDim S8x2048x640 ![] bcast_S_S8x2048x640 main_cst_0
  let main_v6 : IVec S8x2048x640 1 := cmpf .olt main_v4 main_v5
  let main_c_1 : IVec S_ 1 := constantI S_ 1 1#1
  let main_v7 : IVec S_ 1 := (fun x v => Host.reduce IntOp.andi x v reducesTo_S8x2048x640_S_d0_1_2 h_S_) main_v6 main_c_1
  let main_v8 : IVec S_ 1 := andi main_v3 main_v7
  let main_v9 : FVec F S8x2048x640 .f32 := Host.absf main_arg2
  let main_cst_2 : FVec F S_ .f32 := constant S_ .f32 0x7F800000#32
  let main_v10 : FVec F S8x2048x640 .f32 := broadcastInDim S8x2048x640 ![] bcast_S_S8x2048x640 main_cst_2
  let main_v11 : IVec S8x2048x640 1 := cmpf .olt main_v9 main_v10
  let main_c_3 : IVec S_ 1 := constantI S_ 1 1#1
  let main_v12 : IVec S_ 1 := (fun x v => Host.reduce IntOp.andi x v reducesTo_S8x2048x640_S_d0_1_2 h_S_) main_v11 main_c_3
  let main_v13 : IVec S_ 1 := andi main_v8 main_v12
  main_v13
-- ==== Kernel.lean ====
abbrev S8x2048x640 : Shape := ⟨3, ![8, 2048, 640]⟩
abbrev S_ : Shape := ⟨0, ![]⟩
abbrev S8x2048 : Shape := ⟨2, ![8, 2048]⟩
abbrev S8x512x640 : Shape := ⟨3, ![8, 512, 640]⟩
abbrev S8x256x640 : Shape := ⟨3, ![8, 256, 640]⟩
abbrev S8x512 : Shape := ⟨2, ![8, 512]⟩
abbrev S8x256 : Shape := ⟨2, ![8, 256]⟩
abbrev S8x512x256 : Shape := ⟨3, ![8, 512, 256]⟩
abbrev S8x512x1 : Shape := ⟨3, ![8, 512, 1]⟩
abbrev S8x1x256 : Shape := ⟨3, ![8, 1, 256]⟩
abbrev S8x2048x2048 : Shape := ⟨3, ![8, 2048, 2048]⟩
abbrev S8x128x640 : Shape := ⟨3, ![8, 128, 640]⟩
abbrev S8x128 : Shape := ⟨2, ![8, 128]⟩
abbrev S8x256x128 : Shape := ⟨3, ![8, 256, 128]⟩
abbrev S8x256x1 : Shape := ⟨3, ![8, 256, 1]⟩
abbrev S8x1x128 : Shape := ⟨3, ![8, 1, 128]⟩

abbrev nBuf : Space → Nat
  | .hbm => 16
  | .vmem => 31
  | .smem => 0
  | _ => 0

abbrev bufTy : (tb : Table) → Fin (tcTables nBuf tb) → BufTy
  | .hbm, ⟨0, _⟩ => ⟨S8x2048x640, .f32⟩
  | .hbm, ⟨1, _⟩ => ⟨S8x2048x640, .f32⟩
  | .hbm, ⟨2, _⟩ => ⟨S8x2048x640, .f32⟩
  | .hbm, ⟨3, _⟩ => ⟨S8x2048x640, .bf16⟩
  | .hbm, ⟨4, _⟩ => ⟨S8x2048x640, .bf16⟩
  | .hbm, ⟨5, _⟩ => ⟨S8x2048x640, .bf16⟩
  | .hbm, ⟨6, _⟩ => ⟨S8x2048x640, .f32⟩
  | .hbm, ⟨7, _⟩ => ⟨S_, .f32⟩
  | .hbm, ⟨8, _⟩ => ⟨S8x2048, .f32⟩
  | .hbm, ⟨9, _⟩ => ⟨S8x2048x640, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x2048, .f32⟩
  | .hbm, ⟨14, _⟩ => ⟨S8x2048x2048, .f32⟩
  | .hbm, ⟨15, _⟩ => ⟨S8x2048x640, .f32⟩
  | .local _ .vmem, ⟨0, _⟩ => ⟨S8x512x640, .bf16⟩
  | .local _ .vmem, ⟨1, _⟩ => ⟨S8x512x640, .bf16⟩
  | .local _ .vmem, ⟨2, _⟩ => ⟨S8x256x640, .bf16⟩
  | .local _ .vmem, ⟨3, _⟩ => ⟨S8x256x640, .bf16⟩
  | .local _ .vmem, ⟨4, _⟩ => ⟨S8x512, .f32⟩
  | .local _ .vmem, ⟨5, _⟩ => ⟨S8x512, .f32⟩
  | .local _ .vmem, ⟨6, _⟩ => ⟨S8x256, .f32⟩
  | .local _ .vmem, ⟨7, _⟩ => ⟨S8x256, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x256x640, .bf16⟩
  | .local _ .vmem, ⟨13, _⟩ => ⟨S8x256x640, .bf16⟩
  | .local _ .vmem, ⟨14, _⟩ => ⟨S8x128x640, .bf16⟩
  | .local _ .vmem, ⟨15, _⟩ => ⟨S8x128x640, .bf16⟩
  | .local _ .vmem, ⟨16, _⟩ => ⟨S8x128x640, .bf16⟩
  | .local _ .vmem, ⟨17, _⟩ => ⟨S8x128x640, .bf16⟩
  | .local _ .vmem, ⟨18, _⟩ => ⟨S8x256, .f32⟩
  | .local _ .vmem, ⟨19, _⟩ => ⟨S8x256, .f32⟩
  | .local _ .vmem, ⟨20, _⟩ => ⟨S8x128, .f32⟩
  | .local _ .vmem, ⟨21, _⟩ => ⟨S8x128, .f32⟩
  | .local _ .vmem, ⟨22, _⟩ => ⟨S8x256, .f32⟩
  | .local _ .vmem, ⟨23, _⟩ => ⟨S8x256, .f32⟩
  | .local _ .vmem, ⟨24, _⟩ => ⟨S8x256x128, .f32⟩
  | .local _ .vmem, ⟨25, _⟩ => ⟨S8x256x128, .f32⟩
  | .local _ .vmem, ⟨26, _⟩ => ⟨S8x256x128, .f32⟩
  | .local _ .vmem, ⟨27, _⟩ => ⟨S8x256x128, .f32⟩
  | .local _ .vmem, ⟨28, _⟩ => ⟨S8x256x640, .f32⟩
  | .local _ .vmem, ⟨29, _⟩ => ⟨S8x256x640, .f32⟩
  | .local _ .vmem, ⟨30, _⟩ => ⟨S8x256x640, .f32⟩
  | _, _ => ⟨S8x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_24 : BitVec 32 := 0#32
  let v44 : BitVec 1 := Scalar.cmpi .ne v43 c0_i32_24
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_30 : BitVec 32 := 0#32
  let v41 : BitVec 1 := Scalar.cmpi .ne v40 c0_i32_30
  v41

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x128x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x128x640 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x256x640 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  bitsLt_bf16_f32 : FTy.bits .bf16 < FTy.bits .f32
  reducesTo_S8x2048x640_S8x2048_d2 : S8x2048x640.ReducesTo [2] S8x2048
  h_S_ : 0 < S_.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x640_S8x512x640_0_0_0 : ∀ a, (![0, 0, 0] : Fin 3 → Nat) a + S8x512x640.size a ≤ S8x512x640.size a
  h_S8x512x640 : 0 < S8x512x640.numel
  shapeCasts_S8x512x640_S8x512x640 : S8x512x640.ShapeCasts S8x512x640
  inb_S8x256x640_S8x256x640_0_0_0 : ∀ a, (![0, 0, 0] : Fin 3 → Nat) a + S8x256x640.size a ≤ S8x256x640.size a
  h_S8x256x640 : 0 < S8x256x640.numel
  shapeCasts_S8x256x640_S8x256x640 : S8x256x640.ShapeCasts S8x256x640
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x512_S8x512x1 : S8x512.ShapeCasts S8x512x1
  broadcasts_S8x512x1_S8x512x256 : S8x512x1.Broadcasts S8x512x256
  shapeCasts_S8x256_S8x1x256 : S8x256.ShapeCasts S8x1x256
  broadcasts_S8x1x256_S8x512x256 : S8x1x256.Broadcasts S8x512x256
  reduces_S8x512x256_S8x512 : S8x512x256.Reduces [2] S8x512
  inb_S8x128x640_S8x128x640_0_0_0 : ∀ a, (![0, 0, 0] : Fin 3 → Nat) a + S8x128x640.size a ≤ S8x128x640.size a
  h_S8x128x640 : 0 < S8x128x640.numel
  shapeCasts_S8x128x640_S8x128x640 : S8x128x640.ShapeCasts S8x128x640
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x256_S8x256x1 : S8x256.ShapeCasts S8x256x1
  broadcasts_S8x256x1_S8x256x128 : S8x256x1.Broadcasts S8x256x128
  shapeCasts_S8x128_S8x1x128 : S8x128.ShapeCasts S8x1x128
  broadcasts_S8x1x128_S8x256x128 : S8x1x128.Broadcasts S8x256x128
  inb_S8x256x128_S8x256x128_0_0_0 : ∀ a, (![0, 0, 0] : Fin 3 → Nat) a + S8x256x128.size a ≤ S8x256x128.size a
  h_S8x256x128 : 0 < S8x256x128.numel
  dot_S8x512x640_S8x256x640_S8x512x256_2_2_1_1_0_0_wf : DotDims.WF S8x512x640 S8x256x640 S8x512x256 [2] [2] [1] [1] [0] [0]
  dot_S8x256x640_S8x128x640_S8x256x128_2_2_1_1_0_0_wf : DotDims.WF S8x256x640 S8x128x640 S8x256x128 [2] [2] [1] [1] [0] [0]
  dot_S8x256x128_S8x128x640_S8x256x640_2_1_1_2_0_0_wf : DotDims.WF S8x256x128 S8x128x640 S8x256x640 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x640.size a ≤ S8x2048x640.size a
  hwx0_0 : ∀ i : grid0.Coords, EltTy.bits .bf16 = 32 ∨ (Rect.block (s := S8x2048x640) S8x512x640.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x640.size a ≤ S8x2048x640.size a
  hwx0_1 : ∀ i : grid0.Coords, EltTy.bits .bf16 = 32 ∨ (Rect.block (s := S8x2048x640) S8x256x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x2048.size a
  hwx0_2 : ∀ i : grid0.Coords, EltTy.bits .f32 = 32 ∨ (Rect.block (s := S8x2048) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x2048.size a
  hwx0_3 : ∀ i : grid0.Coords, EltTy.bits .f32 = 32 ∨ (Rect.block (s := S8x2048) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x2048.size a
  hwx0_4 : ∀ i : grid0.Coords, EltTy.bits .f32 = 32 ∨ (Rect.block (s := S8x2048) S8x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x640.size a ≤ S8x2048x640.size a
  hwx1_0 : ∀ i : grid1.Coords, EltTy.bits .bf16 = 32 ∨ (Rect.block (s := S8x2048x640) S8x256x640.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x640.size a ≤ S8x2048x640.size a
  hwx1_1 : ∀ i : grid1.Coords, EltTy.bits .bf16 = 32 ∨ (Rect.block (s := S8x2048x640) S8x128x640.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x640.size a ≤ S8x2048x640.size a
  hwx1_2 : ∀ i : grid1.Coords, EltTy.bits .bf16 = 32 ∨ (Rect.block (s := S8x2048x640) S8x128x640.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S8x2048.size a
  hwx1_3 : ∀ i : grid1.Coords, EltTy.bits .f32 = 32 ∨ (Rect.block (s := S8x2048) S8x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x2048.size a
  hwx1_4 : ∀ i : grid1.Coords, EltTy.bits .f32 = 32 ∨ (Rect.block (s := S8x2048) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S8x2048.size a
  hwx1_5 : ∀ i : grid1.Coords, EltTy.bits .f32 = 32 ∨ (Rect.block (s := S8x2048) S8x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x256x128.size a ≤ S8x2048x2048.size a
  hwx1_6 : ∀ i : grid1.Coords, EltTy.bits .f32 = 32 ∨ (Rect.block (s := S8x2048x2048) S8x256x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x256x128.size a ≤ S8x2048x2048.size a
  hwx1_7 : ∀ i : grid1.Coords, EltTy.bits .f32 = 32 ∨ (Rect.block (s := S8x2048x2048) S8x256x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x256x640.size a ≤ S8x2048x640.size a
  hwx1_8 : ∀ i : grid1.Coords, EltTy.bits .f32 = 32 ∨ (Rect.block (s := S8x2048x640) S8x256x640.size (cc1_transform_8 i) (hinb1_8 i)).WholeWords (EltTy.packing .f32)

variable [Facts₀]

def dot_S8x512x640_S8x256x640_S8x512x256_2_2_1_1_0_0 : DotDims S8x512x640 S8x256x640 S8x512x256 where
  lhsContracting := [2]
  rhsContracting := [2]
  lhsNonContracting := [1]
  rhsNonContracting := [1]
  lhsBatch := [0]
  rhsBatch := [0]
  wf := dot_S8x512x640_S8x256x640_S8x512x256_2_2_1_1_0_0_wf
def dot_S8x256x640_S8x128x640_S8x256x128_2_2_1_1_0_0 : DotDims S8x256x640 S8x128x640 S8x256x128 where
  lhsContracting := [2]
  rhsContracting := [2]
  lhsNonContracting := [1]
  rhsNonContracting := [1]
  lhsBatch := [0]
  rhsBatch := [0]
  wf := dot_S8x256x640_S8x128x640_S8x256x128_2_2_1_1_0_0_wf
def dot_S8x256x128_S8x128x640_S8x256x640_2_1_1_2_0_0 : DotDims S8x256x128 S8x128x640 S8x256x640 where
  lhsContracting := [2]
  rhsContracting := [1]
  lhsNonContracting := [1]
  rhsNonContracting := [2]
  lhsBatch := [0]
  rhsBatch := [0]
  wf := dot_S8x256x128_S8x128x640_S8x256x640_2_1_1_2_0_0_wf

abbrev win0_0 : Pipeline.Window sig grid0 :=
  Pipeline.Window.ofSpec (Memref.whole main_v0) S8x512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0) S8x256x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x128x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x128x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S8x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S8x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S8x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_0) S8x256x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_1) S8x256x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_2) S8x256x640.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8x2048x640 : Shape := ⟨3, ![8, 2048, 640]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x640, .f32⟩
  | .hbm, ⟨1, _⟩ => ⟨S8x2048x640, .f32⟩
  | .hbm, ⟨2, _⟩ => ⟨S8x2048x640, .f32⟩
  | .hbm, ⟨3, _⟩ => ⟨S8x2048x640, .f32⟩
  | .hbm, ⟨4, _⟩ => ⟨S_, .f32⟩
  | .hbm, ⟨5, _⟩ => ⟨S8x2048, .f32⟩
  | .hbm, ⟨6, _⟩ => ⟨S8x2048x640, .f32⟩
  | .hbm, ⟨7, _⟩ => ⟨S_, .f32⟩
  | .hbm, ⟨8, _⟩ => ⟨S8x2048, .f32⟩
  | .hbm, ⟨9, _⟩ => ⟨S8x2048x2048, .f32⟩
  | .hbm, ⟨10, _⟩ => ⟨S8x2048x1, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x640, .f32⟩
  | _, _ => ⟨S8x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]

class Facts₀ : Prop where
  reducesTo_S8x2048x640_S8x2048_d2 : S8x2048x640.ReducesTo [2] S8x2048
  h_S_ : 0 < S_.numel
  bcast_S8x2048_S8x2048x1_0_1 : S8x2048.BroadcastsInDim S8x2048x1 (![0, 1] : Fin 2 → Fin S8x2048x1.rank)
  bcast_S_S8x2048x2048 : S_.BroadcastsInDim S8x2048x2048 (![] : Fin 0 → Fin S8x2048x2048.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  dot_S8x2048x640_S8x2048x640_S8x2048x2048_2_2_1_1_0_0_wf : DotDims.WF S8x2048x640 S8x2048x640 S8x2048x2048 [2] [2] [1] [1] [0] [0]
  dot_S8x2048x2048_S8x2048x640_S8x2048x640_2_1_1_2_0_0_wf : DotDims.WF S8x2048x2048 S8x2048x640 S8x2048x640 [2] [1] [1] [2] [0] [0]

variable [Facts₀]

def dot_S8x2048x640_S8x2048x640_S8x2048x2048_2_2_1_1_0_0 : DotDims S8x2048x640 S8x2048x640 S8x2048x2048 where
  lhsContracting := [2]
  rhsContracting := [2]
  lhsNonContracting := [1]
  rhsNonContracting := [1]
  lhsBatch := [0]
  rhsBatch := [0]
  wf := dot_S8x2048x640_S8x2048x640_S8x2048x2048_2_2_1_1_0_0_wf
def dot_S8x2048x2048_S8x2048x640_S8x2048x640_2_1_1_2_0_0 : DotDims S8x2048x2048 S8x2048x640 S8x2048x640 where
  lhsContracting := [2]
  rhsContracting := [1]
  lhsNonContracting := [1]
  rhsNonContracting := [2]
  lhsBatch := [0]
  rhsBatch := [0]
  wf := dot_S8x2048x2048_S8x2048x640_S8x2048x640_2_1_1_2_0_0_wf

class Facts : Prop extends Facts₀ where

variable [Facts]
-- ==== Proof.K0Defs.lean ====
/-
  Region 0 (the statistics pass) point by point. The pass walks a grid of 4 row blocks by 8 key blocks and carries
  two row vectors between points: the running row maximum `m` and the running shifted exponential sum `l`. At
  the first key block of a row block both are reset (`-∞`, `0`) before use; at every point they are updated from
  the point's query block, key block and the two squared-norm blocks; at the last key block the output block
  `m + log l` is written. This module states that transfer as pure functions of the input blocks, the region's
  proof data over it, and the closed forms of the two conditions the body branches on.
-/
import proofs.«101240_j549755814005_2_alg».proof.Proof.Gen.Kernel.Launch
import proofs.«101240_j549755814005_2_alg».proof.Proof.Gen.Kernel.Skeleton
import proofs.«101240_j549755814005_2_alg».proof.Proof.Gen.Kernel.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered: a parameter
variable (V : (c : Dev nD) → Valuation τ sig (Elt F))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions, in closed form -/

/-- The first branch's condition (the key coordinate is 0), from the grid coordinates. -/
abbrev condFirst (i : grid0.Coords) : Prop := (Scalar.cmpi .ne (Scalar.extui (Scalar.cmpi .eq (BitVec.ofNat 32 (i 1).val) 0#32)) 0#32) = 1#1
/-- It holds exactly at the points whose position is a multiple of 8. -/
theorem hcondFirst : ∀ t : Fin cfg0.N, condFirst (grid0.coords t) ↔ t.val % 8 = 0 :=
  (by decide +kernel : ∀ t : Fin grid0.N, condFirst (grid0.coords t) ↔ t.val % 8 = 0)

/-- The last branch's condition (the key coordinate is 7). -/
abbrev condLast (i : grid0.Coords) : Prop := k0_cond2 i = 1#1
/-- It holds exactly at the points whose position is 7 modulo 8. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last key block the output window is idle, -/
theorem idleAt0_4 : ∀ t : Fin cfg0.N, ¬condLast (grid0.coords t) → cfg0.idle 4 (grid0.coords t) = true := by decide +kernel
/-- and is not written back there; -/
theorem noFlush0_4 : ∀ t : Fin cfg0.N, ¬condLast (grid0.coords t) → (cfg0.win 4).flush t = false := by decide +kernel
/-- at the last key block it is live. -/
theorem liveAt0_4 : ∀ t : Fin cfg0.N, condLast (grid0.coords t) → cfg0.idle 4 (grid0.coords t) = false := by decide +kernel

/-! ## The staging and scratch memrefs -/

abbrev ms0_0 (t : Fin cfg0.N) : Memref sig .tc .vmem S8x512x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x640 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
/-- The running maximum's buffer and the running sum's buffer. -/
abbrev scM0_0 : Memref sig .tc .vmem S8x512 .f32 := Memref.whole cc0_scratch0
abbrev scM0_1 : Memref sig .tc .vmem S8x512 .f32 := Memref.whole cc0_scratch1

/-! ## The transfer of one point, and the carried pair -/

/-- One point's update of the carried pair (running maximum, running sum) from the point's query block `q`, key
    block `k` and squared-norm blocks `qq`, `kk`: the new maximum, and the old sum rescaled plus the block's
    shifted exponentials. -/
def upd0 (q : Vec F S8x512x640 .bf16) (k : Vec F S8x256x640 .bf16) (qq : Vec F S8x512 .f32) (kk : Vec F S8x256 .f32)
    (ml : Vec F S8x512 .f32 × Vec F S8x512 .f32) : Vec F S8x512 .f32 × Vec F S8x512 .f32 :=
  (k0_pay2 (k0_pay7 q k qq kk ml.1), k0_pay1 (k0_pay8 q k qq kk ml.1) (k0_pay9 q k qq kk ml.1 ml.1 ml.2))

/-- The pair a row block starts from: maximum `-∞`, sum `0`. -/
def init0 : Vec F S8x512 .f32 × Vec F S8x512 .f32 := (k0_pay4, k0_pay5)

/-- What the two carried buffers hold after `n` points (before point `n`): the update at point `n - 1` of the reset
    pair when that point opens a row block, else of what the point before left. Before the first point nothing is
    claimed (the value at `0` is a placeholder nothing reads). -/
def scr0 (c : Dev nD) : (n : ℕ) → n ≤ cfg0.N → Vec F S8x512 .f32 × Vec F S8x512 .f32
  | 0, _ => init0
  | n + 1, hn =>
    upd0 (iblk0 V c 0 ⟨n, hn⟩) (iblk0 V c 1 ⟨n, hn⟩) (iblk0 V c 2 ⟨n, hn⟩) (iblk0 V c 3 ⟨n, hn⟩)
      (if n % 8 = 0 then init0 else scr0 c n (Nat.le_of_lt hn))

/-- After a point that opens a row block: the update of the reset pair. -/
theorem scr0_first (c : Dev nD) (t : Fin cfg0.N) (h : t.val % 8 = 0) :
    scr0 V c (t.val + 1) t.isLt
      = upd0 (iblk0 V c 0 t) (iblk0 V c 1 t) (iblk0 V c 2 t) (iblk0 V c 3 t) init0 := by
  obtain ⟨n, hn⟩ := t
  exact congrArg (upd0 _ _ _ _) (if_pos h)

/-- After any other point: the update of what the point before left. -/
theorem scr0_next (c : Dev nD) (t : Fin cfg0.N) (h : ¬t.val % 8 = 0) :
    scr0 V c (t.val + 1) t.isLt
      = upd0 (iblk0 V c 0 t) (iblk0 V c 1 t) (iblk0 V c 2 t) (iblk0 V c 3 t) (scr0 V c t.val (Nat.le_of_lt t.isLt)) := by
  obtain ⟨n, hn⟩ := t
  exact congrArg (upd0 _ _ _ _) (if_neg h)

/-- The output block a point would write: the maximum plus the logarithm of the sum, of the pair after the point. -/
def out0 (c : Dev nD) (t : Fin cfg0.N) : Vec F S8x512 .f32 :=
  k0_pay3 (scr0 V c (t.val + 1) t.isLt).1 (scr0 V c (t.val + 1) t.isLt).2

/-! ## The invariant -/

/-- The core's scoped buffers other than this region's staging buffers and its two carried buffers, each at some
    contents. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two carried buffers split out as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d)) ∗ rest0 (F := F) c) ∗ (∃ r, prngReg c r)) := by
  unfold Pipeline.ΦA
  rw [Pipeline.scopedRest_split_of_list spec0 c [cc0_scratch0, cc0_scratch1] (by decide) (by decide)]
  simp only [scM0_0, scM0_1, owns_whole, BI.bigSepL_cons_cons, BI.bigSepL_singleton]
  try rfl

/-- The region invariant before position `n`: before the first point the class's (every scoped buffer at anything);
    afterwards the two carried buffers at `scr0`'s pair, the other scoped buffers at anything, the generator
    register at some state. -/
def PhiS0 (c : Dev nD) : (n : ℕ) → n ≤ cfg0.N → sProp 𝕄
  | 0, _ => Pipeline.ΦA spec0 c
  | n + 1, hn => iprop(((owns (c : Thread nD τ) scM0_0 fullShare (scr0 V c (n + 1) hn).1 ∗ owns (c : Thread nD τ) scM0_1 fullShare (scr0 V c (n + 1) hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (scr0 V c (n + 1) hn).1 ∗ owns (c : Thread nD τ) scM0_1 fullShare (scr0 V c (n + 1) hn).2) ∗ rest0 (F := F) c) ∗ (∃ r, prngReg c r)) := rfl

theorem PhiS0_pos (c : Dev nD) (n : ℕ) (h : n ≤ cfg0.N) (hz : n ≠ 0) :
    PhiS0 V c n h = iprop(((owns (c : Thread nD τ) scM0_0 fullShare (scr0 V c n h).1 ∗ owns (c : Thread nD τ) scM0_1 fullShare (scr0 V c n h).2) ∗ rest0 (F := F) c) ∗ (∃ r, prngReg c r)) := by
  cases n with
  | zero => exact absurd rfl hz
  | succ n => rfl

/-! ## The region's proof data -/

/-- The proof data of region 0 on core `c`: the arrays as the region finds them (`V`); after the body at point `t`
    each input's buffer at its block and the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem dat0_A (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)

/-! ## Reading back a whole-buffer store, and a whole-buffer load -/

/-- A unit-stride rectangle from offset zero over the whole shape places each index at itself. -/
theorem idx_unit_whole {s : Shape} (off : Fin s.rank → ℕ) (h0 : ∀ a, off a = 0) (inb : ∀ a, off a + s.size a ≤ s.size a)
    (j : s.Idx) : (Rect.unit (s := s) off s.size inb).idx j = j := by
  funext a; apply Fin.ext
  show off a + 1 * (j a : ℕ) = j a
  rw [h0 a]; omega

/-- What a buffer reads after a store through the whole-shape rectangle, whatever it held and whatever was stored
    before: the stored value. -/
theorem read_writes_whole {Val : EltTy → Type} [∀ e, Nonempty (Val e)] {κ : Kind} {sp : Space} {s : Shape} {e : EltTy}
    (v : View sig κ sp s e) (f : v.ty.Contents Val)
    (off : Fin s.rank → ℕ) (h0 : ∀ a, off a = 0) (inb : ∀ a, off a + s.size a ≤ s.size a)
    (w : s.Idx → Val e) (L : List (View.Piece Val s e)) :
    v.read Val (v.writes Val f (⟨Rect.unit (s := s) off s.size inb, w⟩ :: L)) = w := by
  funext y
  have h := View.read_writes_cons_emb (Val := Val) v f (Rect.unit (s := s) off s.size inb) w L y
  rw [show (Rect.unit (s := s) off s.size inb).emb y = y from idx_unit_whole off h0 inb y] at h
  exact h

/-- A load through the whole-shape rectangle of a whole memref held at the contents that read `X` reads `X`. -/
theorem readAt_whole_unread {Val : EltTy → Type} {κ : Kind} {sp : Space} {s : Shape} {e : EltTy}
    {m : Memref sig κ sp s e} (h : m.IsWhole) (X : s.Idx → Val e)
    (off : Fin s.rank → ℕ) (h0 : ∀ a, off a = 0) (inb : ∀ a, off a + s.size a ≤ s.size a) :
    View.readAt Val m.view (Rect.unit (s := s) off s.size inb).toLoadRect (h.unread X) = X := by
  funext x
  rw [h.readAt_unread X _ x]
  exact congrArg X (idx_unit_whole off h0 inb x)

theorem off2_zero : ∀ a : Fin 2, (![0, 0] : Fin 2 → ℕ) a = 0 := by decide
theorem off3_zero : ∀ a : Fin 3, (![0, 0, 0] : Fin 3 → ℕ) a = 0 := by decide

/-! ## Entering and leaving the region -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the carried buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand0

end
-- ==== Proof.K1Defs.lean ====
/- Region 1 (the attention pass: grid 8 × 16, nine windows, one accumulator carried from point to point): what its
   body's runs and its proof data are stated over — the body's two branch conditions in closed form over the 128
   grid points, where the windows are idle, the staging memrefs at a point, the region invariant with the
   accumulator split out of the other scoped buffers, and the input windows' blocks. Generic in the float instance. -/
import proofs.«101240_j549755814005_2_alg».proof.Proof.Gen.Kernel.Launch
import proofs.«101240_j549755814005_2_alg».proof.Proof.Gen.Kernel.Skeleton
import proofs.«101240_j549755814005_2_alg».proof.Proof.Gen.Kernel.Points
import Idealize.ShloMosaic.Lib.Pipeline.FrameBody
import Idealize.ShloMosaic.Lib.Ring
import Idealize.ShloMosaic.Lib.Tactic
import Idealize.ShloMosaic.Lib.WholeRead

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's two branch conditions, in closed form over the 128 grid points -/

/-- The first branch (the accumulator is zeroed): the key-block coordinate is 0. -/
abbrev cond1_0 (i : grid1.Coords) : Prop := (Scalar.cmpi .ne (Scalar.extui (Scalar.cmpi .eq (BitVec.ofNat 32 (i 1).val) 0#32)) 0#32) = 1#1
/-- It holds exactly at the first key step of each row block. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch (the accumulator is copied to the output block): the key-block coordinate is 15. -/
abbrev cond1_1 (i : grid1.Coords) : Prop := k1_cond2 i = 1#1
/-- It holds exactly at the last key step of each row block. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Off the last key step the output block's window is idle (nothing is stored into it), -/
theorem idleAt1_8 : ∀ t : Fin cfg1.N, ¬cond1_1 (grid1.coords t) → cfg1.idle 8 (grid1.coords t) = true := by decide +kernel
/-- and not written back; -/
theorem noFlush1_8 : ∀ t : Fin cfg1.N, ¬cond1_1 (grid1.coords t) → (cfg1.win 8).flush t = false := by decide +kernel
/-- at the last key step it is live. -/
theorem liveAt1_8 : ∀ t : Fin cfg1.N, cond1_1 (grid1.coords t) → cfg1.idle 8 (grid1.coords t) = false := by decide +kernel

/-! ## The staging memrefs at a point, and the accumulator -/

abbrev ms1_0 (t : Fin cfg1.N) : Memref sig .tc .vmem S8x256x640 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x640 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128x640 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x256x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x256x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x256x640 .f32 := win1_8.stage (cfg1.slots t 8)
abbrev hs1_8 (t : Fin cfg1.N) : (ms1_8 t).IsWhole := hstage1_8 ((cfg1.slots t 8).cast nbuf1_8)
/-- The accumulator: a whole scoped buffer of the kernel's own, carried from point to point. -/
abbrev scM1_0 : Memref sig .tc .vmem S8x256x640 .f32 := Memref.whole cc1_scratch0

/-! ## The region invariant with the accumulator split out -/

/-- The core's scoped buffers that region 1 does not stage, each at some contents, but for the accumulator, which
    is in the state `X`. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class invariant of region 1 is that, with the accumulator owned at some contents, beside the generator
    register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

/-- The state of the accumulator may be weakened inside the invariant. -/
theorem scoped1_mono (c : Dev nD) {X Y : sProp 𝕄} (h : X ⊢ Y) : scoped1 (F := F) c X ⊢ scoped1 c Y := by
  unfold scoped1
  iintro ⟨R0, R1, R2, R3, R4, R5, R6, R7, R8, R9, R10, R11, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iapply h; iexact HX

/-! ## The input windows' blocks -/

variable (V : (c : Dev nD) → Valuation τ sig (Elt F))

/-- Window `w`'s block at point `t`, read off its array as region 1 finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The per-point transfer: what the body computes from the input blocks -/

/-- The attention tile at point `t`: the exponential of the shifted scores of the point's query and key blocks. -/
def attn1 (c : Dev nD) (t : Fin cfg1.N) : Vec F S8x256x128 .f32 :=
  k1_pay4 (iblk1 V c 0 t) (iblk1 V c 1 t) (iblk1 V c 3 t) (iblk1 V c 4 t) (iblk1 V c 5 t)
/-- The log-attention tile at point `t`: the scores less the rows' log-sum-exp. -/
def logAttn1 (c : Dev nD) (t : Fin cfg1.N) : Vec F S8x256x128 .f32 :=
  k1_pay3 (iblk1 V c 0 t) (iblk1 V c 1 t) (iblk1 V c 3 t) (iblk1 V c 4 t) (iblk1 V c 5 t)

theorem attn1_eq (c : Dev nD) (t : Fin cfg1.N) :
    attn1 V c t = k1_pay4 (iblk1 V c 0 t) (iblk1 V c 1 t) (iblk1 V c 3 t) (iblk1 V c 4 t) (iblk1 V c 5 t) := rfl
theorem logAttn1_eq (c : Dev nD) (t : Fin cfg1.N) :
    logAttn1 V c t = k1_pay3 (iblk1 V c 0 t) (iblk1 V c 1 t) (iblk1 V c 3 t) (iblk1 V c 4 t) (iblk1 V c 5 t) := rfl

/-- THE ACCUMULATION. What the accumulator holds after the first `n` points: at a first key step the point's
    attention tile times its value block added to zero, at the other steps added to what the point before left
    (before any point: zero, which nothing consults). -/
def acc1 (c : Dev nD) : (n : ℕ) → n ≤ cfg1.N → Vec F S8x256x640 .f32
  | 0, _ => k1_pay2
  | n + 1, hn =>
    if n % 16 = 0 then k1_pay1 (attn1 V c ⟨n, hn⟩) k1_pay2 (iblk1 V c 2 ⟨n, hn⟩)
    else k1_pay1 (attn1 V c ⟨n, hn⟩) (acc1 c n (Nat.le_of_lt hn)) (iblk1 V c 2 ⟨n, hn⟩)

/-- After a first key step: the tile times the value block, added to zero. -/
theorem acc1_first (c : Dev nD) (t : Fin cfg1.N) (h : t.val % 16 = 0) :
    acc1 V c (t.val + 1) t.isLt
      = k1_pay1 (k1_pay4 (iblk1 V c 0 t) (iblk1 V c 1 t) (iblk1 V c 3 t) (iblk1 V c 4 t) (iblk1 V c 5 t)) k1_pay2 (iblk1 V c 2 t) := by
  obtain ⟨n, hn⟩ := t
  exact if_pos h

/-- After any other key step: added to what the point before left. -/
theorem acc1_next (c : Dev nD) (t : Fin cfg1.N) (h : ¬t.val % 16 = 0) :
    acc1 V c (t.val + 1) t.isLt
      = k1_pay1 (k1_pay4 (iblk1 V c 0 t) (iblk1 V c 1 t) (iblk1 V c 3 t) (iblk1 V c 4 t) (iblk1 V c 5 t)) (acc1 V c t.val (Nat.le_of_lt t.isLt)) (iblk1 V c 2 t) := by
  obtain ⟨n, hn⟩ := t
  exact if_neg h

/-! ## The region invariant, carrying the accumulator -/

/-- Before the first point the class invariant (every scoped buffer at anything); after `n ≥ 1` points the same with
    the accumulator at `acc1 n`. -/
def PhiS1 (c : Dev nD) : (n : ℕ) → n ≤ cfg1.N → sProp 𝕄
  | 0, _ => Pipeline.ΦA spec1 c
  | n + 1, hn => iprop(scoped1 c (owns (c : Thread nD τ) scM1_0 fullShare (acc1 V c (n + 1) hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare (acc1 V c (n + 1) hn)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare (acc1 V c n h)) ∗ (∃ r, prngReg c r)) := by
  cases n with
  | zero => exact absurd rfl hz
  | succ n => rfl

/-! ## The proof data -/

/-- Region 1's proof data on core `c`: the arrays as the region finds them (`V`); after the body at point `t` each
    input's buffer at its block, the attention and log-attention tiles' at the point's tiles, the output block's at the
    accumulator (consulted at the last key steps only: elsewhere that window is idle); the invariant carrying the
    accumulator; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => attn1 V c t
    | ⟨7, _⟩ => logAttn1 V c t
    | ⟨8, _⟩ => acc1 V c (t.val + 1) t.isLt
  Φ t := PhiS1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
/-- The attention tile's window after the body at ANY point: the point's tile. -/
theorem after1_6 (c : Dev nD) (t : Fin cfg1.N) :
    (dat1 V c).after 6 t = k1_pay4 (iblk1 V c 0 t) (iblk1 V c 1 t) (iblk1 V c 3 t) (iblk1 V c 4 t) (iblk1 V c 5 t) := by dsimp only [dat1, attn1]
/-- The log-attention tile's window after the body at ANY point. -/
theorem after1_7 (c : Dev nD) (t : Fin cfg1.N) :
    (dat1 V c).after 7 t = k1_pay3 (iblk1 V c 0 t) (iblk1 V c 1 t) (iblk1 V c 3 t) (iblk1 V c 4 t) (iblk1 V c 5 t) := by dsimp only [dat1, logAttn1]
/-- The output block's window after the body: the accumulator (the window is live at the last key steps only). -/
theorem after1_8 (c : Dev nD) (t : Fin cfg1.N) : (dat1 V c).after 8 t = acc1 V c (t.val + 1) t.isLt := by dsimp only [dat1]

/-! ## Whole-buffer loads and stores through the literal full rectangle -/

theorem vec3_zero : (![0, 0, 0] : Fin 3 → ℕ) = fun _ => 0 := by decide
theorem vec2_zero : (![0, 0] : Fin 2 → ℕ) = fun _ => 0 := by decide

/-- A load of a whole memref through the full rectangle at zero offsets reads the contents the memref is held at. -/
theorem readAt_full {sig : RefSig} {Val : EltTy → Type} {κ : Kind} {sp : Space} {s : Shape} {e : EltTy}
    {m : Memref sig κ sp s e} (h : m.IsWhole) (X : s.Idx → Val e) {off : Fin s.rank → ℕ} (hoff : off = fun _ => 0)
    (inb : ∀ a, off a + s.size a ≤ s.size a) :
    View.readAt Val m.view (Rect.unit off s.size inb).toLoadRect (h.unread X) = X := by
  subst hoff
  funext x
  rw [Memref.IsWhole.readAt_unread h]
  exact congrArg X (Rect.emb_whole_apply s x)

/-- One store through the full rectangle at zero offsets, read back whole, is the stored value, whatever was there. -/
theorem read_writes_full {sig : RefSig} {Val : EltTy → Type} [∀ e, Nonempty (Val e)] {κ : Kind} {sp : Space} {s : Shape} {e : EltTy}
    (v : View sig κ sp s e) (f : v.ty.Contents Val) {off : Fin s.rank → ℕ} (hoff : off = fun _ => 0)
    (inb : ∀ a, off a + s.size a ≤ s.size a) (w : s.Idx → Val e) :
    v.read Val (v.writes Val f [(⟨Rect.unit off s.size inb, w⟩ : View.Piece Val s e)]) = w := by
  subst hoff
  rw [View.read_writes_eq_canon v f _ (fun y => ⟨_, List.mem_cons_self, by
    show y ∈ (Rect.whole s).set; rw [Rect.set_whole]; exact Finset.mem_univ _⟩)]
  funext y
  have h := View.canon_cons_emb (Val := Val) (Rect.whole s) w [] y
  rwa [Rect.emb_whole_apply] at h

end Cert.Kernel.Hand1

end
-- ==== Proof.KRegsDefs.lean ====
/-
  The contents of a core's buffers at the boundaries between the program's items, and both regions' proof data.
  The first region is entered at what the host operations leave (`V1`) and leaves its result array (the row-wise
  log-sum-exp) at what its pipeline's write-backs fold to; the second region is entered at that (`VV2`) and leaves
  its three result arrays likewise (`VV3`). `outs` packages these as the family the generated boundary contents are
  written over, and `V2_eq` / `V3_eq` identify the generated boundaries with the ones named here.
-/
import proofs.«101240_j549755814005_2_alg».proof.Proof.KRunCondGen
import proofs.«101240_j549755814005_2_alg».proof.Proof.K0Defs
import proofs.«101240_j549755814005_2_alg».proof.Proof.K1Defs
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Regs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-- The buffers as the first region finds them. -/
abbrev VV1 : (c : Dev nD) → Valuation τ sig (Elt F) := fun c => V1 m c
/-- What the first region leaves in its result array. -/
def o7 (c : Dev nD) : Buf (Elt F) ((c : Thread nD τ).loc main_v7) := (Hand0.dat0 (VV1 m) c).arrAt 4 cfg0.N
/-- The buffers as the second region finds them. -/
def VV2 : (c : Dev nD) → Valuation τ sig (Elt F) := fun c => Function.update (V1 m c) main_v7 (o7 m c)
def o8_0 (c : Dev nD) : Buf (Elt F) ((c : Thread nD τ).loc main_v8_0) := (Hand1.dat1 (VV2 m) c).arrAt 6 cfg1.N
def o8_1 (c : Dev nD) : Buf (Elt F) ((c : Thread nD τ).loc main_v8_1) := (Hand1.dat1 (VV2 m) c).arrAt 7 cfg1.N
def o8_2 (c : Dev nD) : Buf (Elt F) ((c : Thread nD τ).loc main_v8_2) := (Hand1.dat1 (VV2 m) c).arrAt 8 cfg1.N
/-- The buffers at the end. -/
def VV3 : (c : Dev nD) → Valuation τ sig (Elt F) := fun c =>
  Function.update (Function.update (Function.update (VV2 m c) main_v8_0 (o8_0 m c)) main_v8_1 (o8_1 m c)) main_v8_2 (o8_2 m c)

/-- What the regions leave, as the family the boundary contents are written over. -/
def outs : Outs (F := F) := fun J r c => match J with
  | 2 => VV2 m c r
  | 3 => VV3 m c r
  | _ => V0 m c r

theorem V2_eq (c : Dev nD) : V2 m (outs m) c = VV2 m c := by
  show Function.update (V1 m c) main_v7 (VV2 m c main_v7) = VV2 m c
  unfold VV2; rw [Function.update_self]

theorem V3_eq (c : Dev nD) : V3 m (outs m) c = VV3 m c := by
  show Function.update (Function.update (Function.update (V2 m (outs m) c) main_v8_0 (VV3 m c main_v8_0)) main_v8_1 (VV3 m c main_v8_1)) main_v8_2 (VV3 m c main_v8_2) = VV3 m c
  rw [V2_eq]
  have n01 : (Proc.devRef .tc main_v8_0 : DevRef τ sig) ≠ Proc.devRef .tc main_v8_1 := StableHlo.devRef_ne_of_ne (by decide)
  have n02 : (Proc.devRef .tc main_v8_0 : DevRef τ sig) ≠ Proc.devRef .tc main_v8_2 := StableHlo.devRef_ne_of_ne (by decide)
  have n12 : (Proc.devRef .tc main_v8_1 : DevRef τ sig) ≠ Proc.devRef .tc main_v8_2 := StableHlo.devRef_ne_of_ne (by decide)
  have a0 : VV3 m c main_v8_0 = o8_0 m c := by
    unfold VV3; rw [Function.update_of_ne n02, Function.update_of_ne n01, Function.update_self]
  have a1 : VV3 m c main_v8_1 = o8_1 m c := by
    unfold VV3; rw [Function.update_of_ne n12, Function.update_self]
  have a2 : VV3 m c main_v8_2 = o8_2 m c := by
    unfold VV3; rw [Function.update_self]
  rw [a0, a1, a2]; rfl

/-! ## The proof data family and what rides beside the buffers -/

abbrev 𝒱₀ : Variants := Variants.none
abbrev L : GSem nD τ sig → Finset Unit := fun _ => ∅
abbrev lv : GSem nD τ sig → Unit → ℕ := fun _ _ => 0

/-- Both regions' proof data, each at its region's entry contents. -/
def pdats : (p : Fin 2) → (c : Dev nD) → Dat τ (Elt F) Unit ℕ (UR sig nD τ) ℕ (cfgs p) c
  | ⟨0, _⟩ => fun c => Hand0.dat0 (VV1 m) c
  | ⟨1, _⟩ => fun c => Hand1.dat1 (VV2 m) c
  | ⟨_ + 2, h⟩ => absurd h (Nat.not_lt.2 (Nat.le_add_left _ _))

/-- What rides beside the buffers through every item: the core's generator register at some state and its dues, at nothing. -/
abbrev R (c : Dev nD) : sProp 𝕄 := iprop((∃ r, prngReg c r) ∗ (∃ W, owes (c : Thread nD τ) (0 : CellTallies nD τ sig Unit) W))

abbrev heldAt (c : Dev nD) (W : Valuation τ sig (Elt F)) : sProp 𝕄 := StableHlo.held (c : Thread nD τ) (Pipeline.ucRefs τ sig) W

/-- At the first region's exit each of its arrays holds what the pipeline leaves: the inputs as entered, the result array
    its written-back blocks. -/
theorem hF0 (c : Dev nD) (w : Fin cfg0.W) : (Hand0.dat0 (VV1 m) c).arrAt w cfg0.N = VV2 m c (Pipeline.arrRef spec0 w) := by
  have n (r : Ref sig .tc) (h : r ≠ main_v7) : VV2 m c r = V1 m c r := by
    unfold VV2; exact Function.update_of_ne (StableHlo.devRef_ne_of_ne h) _ _
  match w with
  | ⟨0, _⟩ => exact (((Hand0.dat0 (VV1 m) c).arrAt_in 0 rfl _).trans (Hand0.dat0_A (VV1 m) c 0)).trans (n main_v0 (by decide)).symm
  | ⟨1, _⟩ => exact (((Hand0.dat0 (VV1 m) c).arrAt_in 1 rfl _).trans (Hand0.dat0_A (VV1 m) c 1)).trans (n main_v1 (by decide)).symm
  | ⟨2, _⟩ => exact (((Hand0.dat0 (VV1 m) c).arrAt_in 2 rfl _).trans (Hand0.dat0_A (VV1 m) c 2)).trans (n main_v4 (by decide)).symm
  | ⟨3, _⟩ => exact (((Hand0.dat0 (VV1 m) c).arrAt_in 3 rfl _).trans (Hand0.dat0_A (VV1 m) c 3)).trans (n main_v6 (by decide)).symm
  | ⟨4, _⟩ => exact (show VV2 m c main_v7 = o7 m c from by unfold VV2; exact Function.update_self _ _ _).symm

/-- and every other buffer what it held at entry. -/
theorem hrest0 (c : Dev nD) : ∀ b : Ref sig .tc, b ∉ Finset.univ.image (Pipeline.arrRef spec0) → VV2 m c b = V1 m c b := by
  intro b hb
  have hne : b ≠ main_v7 := fun e => hb (Finset.mem_image.mpr ⟨4, Finset.mem_univ _, e.symm⟩)
  unfold VV2; exact Function.update_of_ne (StableHlo.devRef_ne_of_ne hne) _ _

/-- At the second region's exit each of its arrays holds what the pipeline leaves: the inputs as entered, each result
    array its written-back blocks. -/
theorem hF1 (c : Dev nD) (w : Fin cfg1.W) : (Hand1.dat1 (VV2 m) c).arrAt w cfg1.N = VV3 m c (Pipeline.arrRef spec1 w) := by
  have n01 : (Proc.devRef .tc main_v8_0 : DevRef τ sig) ≠ Proc.devRef .tc main_v8_1 := StableHlo.devRef_ne_of_ne (by decide)
  have n02 : (Proc.devRef .tc main_v8_0 : DevRef τ sig) ≠ Proc.devRef .tc main_v8_2 := StableHlo.devRef_ne_of_ne (by decide)
  have n12 : (Proc.devRef .tc main_v8_1 : DevRef τ sig) ≠ Proc.devRef .tc main_v8_2 := StableHlo.devRef_ne_of_ne (by decide)
  have n (r : Ref sig .tc) (h0 : r ≠ main_v8_0) (h1 : r ≠ main_v8_1) (h2 : r ≠ main_v8_2) : VV3 m c r = VV2 m c r := by
    unfold VV3
    rw [Function.update_of_ne (StableHlo.devRef_ne_of_ne h2), Function.update_of_ne (StableHlo.devRef_ne_of_ne h1), Function.update_of_ne (StableHlo.devRef_ne_of_ne h0)]
  match w with
  | ⟨0, _⟩ => exact (((Hand1.dat1 (VV2 m) c).arrAt_in 0 rfl _).trans (Hand1.dat1_A (VV2 m) c 0)).trans (n main_v0 (by decide) (by decide) (by decide)).symm
  | ⟨1, _⟩ => exact (((Hand1.dat1 (VV2 m) c).arrAt_in 1 rfl _).trans (Hand1.dat1_A (VV2 m) c 1)).trans (n main_v1 (by decide) (by decide) (by decide)).symm
  | ⟨2, _⟩ => exact (((Hand1.dat1 (VV2 m) c).arrAt_in 2 rfl _).trans (Hand1.dat1_A (VV2 m) c 2)).trans (n main_v2 (by decide) (by decide) (by decide)).symm
  | ⟨3, _⟩ => exact (((Hand1.dat1 (VV2 m) c).arrAt_in 3 rfl _).trans (Hand1.dat1_A (VV2 m) c 3)).trans (n main_v4 (by decide) (by decide) (by decide)).symm
  | ⟨4, _⟩ => exact (((Hand1.dat1 (VV2 m) c).arrAt_in 4 rfl _).trans (Hand1.dat1_A (VV2 m) c 4)).trans (n main_v6 (by decide) (by decide) (by decide)).symm
  | ⟨5, _⟩ => exact (((Hand1.dat1 (VV2 m) c).arrAt_in 5 rfl _).trans (Hand1.dat1_A (VV2 m) c 5)).trans (n main_v7 (by decide) (by decide) (by decide)).symm
  | ⟨6, _⟩ => exact (show VV3 m c main_v8_0 = o8_0 m c from by
      unfold VV3; rw [Function.update_of_ne n02, Function.update_of_ne n01, Function.update_self]).symm
  | ⟨7, _⟩ => exact (show VV3 m c main_v8_1 = o8_1 m c from by
      unfold VV3; rw [Function.update_of_ne n12, Function.update_self]).symm
  | ⟨8, _⟩ => exact (show VV3 m c main_v8_2 = o8_2 m c from by unfold VV3; rw [Function.update_self]).symm

/-- and every other buffer what it held at entry. -/
theorem hrest1 (c : Dev nD) : ∀ b : Ref sig .tc, b ∉ Finset.univ.image (Pipeline.arrRef spec1) → VV3 m c b = VV2 m c b := by
  intro b hb
  have h0 : b ≠ main_v8_0 := fun e => hb (Finset.mem_image.mpr ⟨6, Finset.mem_univ _, e.symm⟩)
  have h1 : b ≠ main_v8_1 := fun e => hb (Finset.mem_image.mpr ⟨7, Finset.mem_univ _, e.symm⟩)
  have h2 : b ≠ main_v8_2 := fun e => hb (Finset.mem_image.mpr ⟨8, Finset.mem_univ _, e.symm⟩)
  unfold VV3
  rw [Function.update_of_ne (StableHlo.devRef_ne_of_ne h2), Function.update_of_ne (StableHlo.devRef_ne_of_ne h1), Function.update_of_ne (StableHlo.devRef_ne_of_ne h0)]

/-- The result arrays at the last boundary are what the second region leaves. -/
theorem VV3_v8_0 (c : Dev nD) : VV3 m c main_v8_0 = (Hand1.dat1 (VV2 m) c).arrAt 6 cfg1.N := (hF1 m c 6).symm
theorem VV3_v8_1 (c : Dev nD) : VV3 m c main_v8_1 = (Hand1.dat1 (VV2 m) c).arrAt 7 cfg1.N := (hF1 m c 7).symm
theorem VV3_v8_2 (c : Dev nD) : VV3 m c main_v8_2 = (Hand1.dat1 (VV2 m) c).arrAt 8 cfg1.N := (hF1 m c 8).symm
/-- The second region finds the first region's result array at what that region leaves, and every other buffer as the
    first region found it. -/
theorem VV2_v7 (c : Dev nD) : VV2 m c main_v7 = (Hand0.dat0 (VV1 m) c).arrAt 4 cfg0.N := (hF0 m c 4).symm
theorem VV2_of_ne (c : Dev nD) (r : Ref sig .tc) (h : r ≠ main_v7) : VV2 m c r = V1 m c r := by
  unfold VV2; exact Function.update_of_ne (StableHlo.devRef_ne_of_ne h) _ _

end Cert.Kernel.Regs
end
-- ==== Proof.K0RunA.lean ====
/-
  Region 0's body run once at a point of the first key block of a row block (not the last): the two carried buffers, whatever they held, are reset and then updated from the point's blocks; the output buffer is handed back untouched.
  The body is run symbolically over its skeleton; what each buffer reads afterwards is the last whole-buffer store
  into it, and each whole-buffer load of an input reads the input block.
-/
import proofs.«101240_j549755814005_2_alg».proof.Proof.K0Defs

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where the first condition holds and the last does not: from the inputs' buffers at their blocks, the
    output's at `xo` and the two carried buffers at anything, the body runs to the inputs' and the output's as they
    were and the carried buffers at the update of the reset pair. -/
theorem kernelRun0_A (c : Dev nD) (E : Set ℕ) (i : grid0.Coords) (arg2 : Memref sig .tc .vmem S8x512x640 .bf16) (harg2 : arg2.IsWhole) (arg3 : Memref sig .tc .vmem S8x256x640 .bf16) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole)
    (hcF : condFirst i) (hcL : ¬condLast i) (q : Vec F S8x512x640 .bf16) (k : Vec F S8x256x640 .bf16) (qq : Vec F S8x512 .f32) (kk : Vec F S8x256 .f32) (xo : Vec F S8x512 .f32) (K : PUnit → sProp 𝕄) :
    iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ owns (c : Thread nD τ) arg7 fullShare (upd0 q k qq kk init0).1 ∗ owns (c : Thread nD τ) arg8 fullShare (upd0 q k qq kk init0).2) -∗ K ⟨⟩))
      ⊢ wp frame (wpE (defs₀ (F := F)) Variants.none c none) E (cc0__stats_kernel i arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  obtain rfl := harg6.eq_unread hf6
  sl_exec (disch := first | exact hcF | exact hcL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero]
    rw [View.readCov_cons_toLoadRect]
    rfl
  · iexists _; isplitr
    swap; · iexact H8
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero]
    rw [View.readCov_cons_toLoadRect, View.readCov_cons_toLoadRect]
    rfl

end Cert.Kernel.Hand0

end
-- ==== Proof.K0RunB.lean ====
/-
  Region 0's body run once at a point of the middle key blocks of a row block (neither first nor last): the two carried buffers are updated from what the point before left and the point's blocks; the output buffer is handed back untouched.
  The body is run symbolically over its skeleton; what each buffer reads afterwards is the last whole-buffer store
  into it, and each whole-buffer load of an input reads the input block.
-/
import proofs.«101240_j549755814005_2_alg».proof.Proof.K0RunA

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where neither condition holds: from the inputs' buffers at their blocks, the output's at `xo` and the
    carried buffers at the pair `ml`, the body runs to the inputs' and the output's as they were and the carried buffers
    at the update of the pair `ml`. -/
theorem kernelRun0_B (c : Dev nD) (E : Set ℕ) (i : grid0.Coords) (arg2 : Memref sig .tc .vmem S8x512x640 .bf16) (harg2 : arg2.IsWhole) (arg3 : Memref sig .tc .vmem S8x256x640 .bf16) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole)
    (hcF : ¬condFirst i) (hcL : ¬condLast i) (q : Vec F S8x512x640 .bf16) (k : Vec F S8x256x640 .bf16) (qq : Vec F S8x512 .f32) (kk : Vec F S8x256 .f32) (ml : Vec F S8x512 .f32 × Vec F S8x512 .f32) (xo : Vec F S8x512 .f32) (K : PUnit → sProp 𝕄) :
    iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ owns (c : Thread nD τ) arg7 fullShare ml.1 ∗ owns (c : Thread nD τ) arg8 fullShare ml.2
        ∗ (iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ owns (c : Thread nD τ) arg7 fullShare (upd0 q k qq kk ml).1 ∗ owns (c : Thread nD τ) arg8 fullShare (upd0 q k qq kk ml).2) -∗ K ⟨⟩))
      ⊢ wp frame (wpE (defs₀ (F := F)) Variants.none c none) E (cc0__stats_kernel i arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hcF | exact hcL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero]
    rfl
  · iexists _; isplitr
    swap; · iexact H8
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero, readAt_whole_unread harg8 ml.2 _ off2_zero]
    rfl

end Cert.Kernel.Hand0

end
-- ==== Proof.K0RunC.lean ====
/-
  Region 0's body run once at a point of the last key block of a row block (not the first): the two carried buffers are updated as at a middle point, and the output buffer, whatever it held, receives the maximum plus the logarithm of the sum of the updated pair.
  The body is run symbolically over its skeleton; what each buffer reads afterwards is the last whole-buffer store
  into it, and each whole-buffer load of an input reads the input block.
-/
import proofs.«101240_j549755814005_2_alg».proof.Proof.K0RunB

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where the last condition holds and the first does not: from the inputs' buffers at their blocks, the
    output's at anything and the carried buffers at the pair `ml`, the body runs to the inputs' as they were, the carried
    buffers at the update of the pair `ml` and the output's at the updated maximum plus the logarithm of the updated sum. -/
theorem kernelRun0_C (c : Dev nD) (E : Set ℕ) (i : grid0.Coords) (arg2 : Memref sig .tc .vmem S8x512x640 .bf16) (harg2 : arg2.IsWhole) (arg3 : Memref sig .tc .vmem S8x256x640 .bf16) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole)
    (hcF : ¬condFirst i) (hcL : condLast i) (q : Vec F S8x512x640 .bf16) (k : Vec F S8x256x640 .bf16) (qq : Vec F S8x512 .f32) (kk : Vec F S8x256 .f32) (ml : Vec F S8x512 .f32 × Vec F S8x512 .f32) (K : PUnit → sProp 𝕄) :
    iprop(owns (c : Thread nD τ) arg2 fullShare q ∗ owns (c : Thread nD τ) arg3 fullShare k ∗ owns (c : Thread nD τ) arg4 fullShare qq ∗ owns (c : Thread nD τ) arg5 fullShare kk ∗ (∃ d, owns (c : Thread nD τ) arg6 fullShare d) ∗ owns (c : Thread nD τ) arg7 fullShare ml.1 ∗ owns (c : Thread nD τ) arg8 fullShare ml.2
        ∗ (iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare (k0_pay3 (upd0 q k qq kk ml).1 (upd0 q k qq kk ml).2) ∗ owns (c : Thread nD τ) arg7 fullShare (upd0 q k qq kk ml).1 ∗ owns (c : Thread nD τ) arg8 fullShare (upd0 q k qq kk ml).2) -∗ K ⟨⟩))
      ⊢ wp frame (wpE (defs₀ (F := F)) Variants.none c none) E (cc0__stats_kernel i arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8
  sl_exec (disch := first | exact hcF | exact hcL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole _ _ _ off2_zero _ _ _).trans ?_
    sl_unfold_run_names
    rw [View.readCov_cons_toLoadRect, View.readCov_cons_toLoadRect]
    rw [readAt_whole_unread harg2 q _ off3_zero, readAt_whole_unread harg3 k _ off3_zero, readAt_whole_unread harg4 qq _ off2_zero, readAt_whole_unread harg5 kk _ off2_zero, readAt_whole_unread harg7 ml.1 _ off2_zero, readAt_whole_unread harg8 ml.2 _ off2_zero]
    rfl
  isplitl [H7]
  · iexists _; isplitr
    swap; · iexact H7
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero]
    rfl
  · iexists _; isplitr
    swap; · iexact H8
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero, readAt_whole_unread harg8 ml.2 _ off2_zero]
    rfl

end Cert.Kernel.Hand0

end
-- ==== Proof.K0.lean ====
/-
  Region 0's body obligation: at every grid point the body, handed the invariant, each input window's staging buffer
  at its block and the output window's at what it held, runs to the invariant at the next point — the two carried
  buffers at the update (`upd0`) of the reset pair at a point that opens a row block, of what the point before left
  elsewhere — with the inputs' buffers as they were and the output's buffer at `out0` where the point closes a row
  block, untouched elsewhere. By cases on the point's position modulo 8, each case one run of the body.
-/
import proofs.«101240_j549755814005_2_alg».proof.Proof.K0RunC

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · -- a point that opens a row block
    have h7 : ¬t.val % 8 = 7 := by omega
    have hF : condFirst (grid0.coords t) := (hcondFirst t).mpr h0
    have hL : ¬condLast (grid0.coords t) := fun h => h7 ((hcondLast t).mp h)
    rw [Dat.leavesExact_idle (dat0 V c) 4 t (idleAt0_4 t hL) (noFlush0_4 t hL)]
    rw [scr0_first V c t h0]
    by_cases hz : t.val = 0
    · rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_A c Set.univ (grid0.coords t) _ _ _ _ _ _ _ _ _ _ _ _ _ _ hF hL (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_A c Set.univ (grid0.coords t) _ _ _ _ _ _ _ _ _ _ _ _ _ _ hF hL (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hF : ¬condFirst (grid0.coords t) := fun h => h0 ((hcondFirst t).mp h)
    rw [scr0_next V c t h0]
    rw [PhiS0_castSucc V c t, PhiS0_pos V c _ _ hz]
    by_cases h7 : t.val % 8 = 7
    · -- a point that closes a row block
      have hL : condLast (grid0.coords t) := (hcondLast t).mpr h7
      rw [show (dat0 V c).leavesExact 4 t = owns (c : Thread nD τ) (ms0_4 t) fullShare ((dat0 V c).after 4 t) from by
        unfold Dat.leavesExact; rw [liveAt0_4 t hL], after0_4]
      unfold out0
      rw [scr0_next V c t h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_C c Set.univ (grid0.coords t) _ _ _ _ _ _ _ _ _ _ _ _ _ _ hF hL (iblk0 V c 0 t) (iblk0 V c 1 t) (iblk0 V c 2 t) (iblk0 V c 3 t) (scr0 V c t.val (Nat.le_of_lt t.isLt)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexact H4
    · -- a point inside a row block
      have hL : ¬condLast (grid0.coords t) := fun h => h7 ((hcondLast t).mp h)
      rw [Dat.leavesExact_idle (dat0 V c) 4 t (idleAt0_4 t hL) (noFlush0_4 t hL)]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_B c Set.univ (grid0.coords t) _ _ _ _ _ _ _ _ _ _ _ _ _ _ hF hL (iblk0 V c 0 t) (iblk0 V c 1 t) (iblk0 V c 2 t) (iblk0 V c 3 t) (scr0 V c t.val (Nat.le_of_lt t.isLt)) _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.K1RunB.lean ====
/- Region 1's body run once in the MIDDLE case (neither branch taken: a key step that is neither the first nor the last
   of its row block): on whole staging memrefs holding the six input blocks, the output block's buffer at any contents
   (handed back untouched) and the accumulator at `xs0`, the body leaves the attention and log-attention tiles in
   their buffers and the accumulator at `xs0` plus the tile times the value block. By symbolic execution of the
   skeleton; each whole-buffer store read back is the stored payload, each whole-buffer load the contents held. -/
import proofs.«101240_j549755814005_2_alg».proof.Proof.K1Defs

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The middle case of the body. -/
theorem kernelRun1_B (c : Dev nD) (i : grid1.Coords) (arg2 : Memref sig .tc .vmem S8x256x640 .bf16) (harg2 : arg2.IsWhole) (arg3 : Memref sig .tc .vmem S8x128x640 .bf16) (harg3 : arg3.IsWhole) (arg4 : Memref sig .tc .vmem S8x128x640 .bf16) (harg4 : arg4.IsWhole) (arg5 : Memref sig .tc .vmem S8x256 .f32) (harg5 : arg5.IsWhole) (arg6 : Memref sig .tc .vmem S8x128 .f32) (harg6 : arg6.IsWhole) (arg7 : Memref sig .tc .vmem S8x256 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x640 .f32) (harg10 : arg10.IsWhole) (arg11 : Memref sig .tc .vmem S8x256x640 .f32) (harg11 : arg11.IsWhole) (hc0 : ¬cond1_0 i) (hc1 : ¬cond1_1 i)
    (x0 : Vec F S8x256x640 .bf16) (x1 : Vec F S8x128x640 .bf16) (x2 : Vec F S8x128x640 .bf16) (x3 : Vec F S8x256 .f32) (x4 : Vec F S8x128 .f32) (x5 : Vec F S8x256 .f32) (xs0 : Vec F S8x256x640 .f32) :
    ∀ (xi8 : Vec F S8x256x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k1_pay4 x0 x1 x3 x4 x5) ∗ owns (c : Thread nD τ) arg9 fullShare (k1_pay3 x0 x1 x3 x4 x5) ∗ owns (c : Thread nD τ) arg10 fullShare xi8
                ∗ owns (c : Thread nD τ) arg11 fullShare (k1_pay1 (k1_pay4 x0 x1 x3 x4 x5) xs0 x2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  intro xi8 E K
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H7]
  · iexists _; isplitr
    swap; · iexact H7
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H8]
  · iexists _; isplitr; · ipureintro; exact harg10.read_unread _
    iexact H8
  iexists _; isplitr
  swap; · iexact HS0
  ipureintro
  refine (read_writes_full _ _ vec3_zero _ _).trans ?_
  rw [readAt_full harg2 x0 vec3_zero, readAt_full harg3 x1 vec3_zero, readAt_full harg5 x3 vec2_zero, readAt_full harg6 x4 vec2_zero, readAt_full harg7 x5 vec2_zero, readAt_full harg11 xs0 vec3_zero, readAt_full harg4 x2 vec3_zero]

end Cert.Kernel.Hand1

end
-- ==== Proof.K1RunA.lean ====
/- Region 1's body run once in the FIRST case (the first key step of a row block: the accumulator is zeroed, then
   used): whatever the accumulator held, the body leaves it at zero plus the attention tile times the value block; the
   attention and log-attention tiles are stored; the output block's buffer is handed back untouched. -/
import proofs.«101240_j549755814005_2_alg».proof.Proof.K1RunB

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- A store through the full rectangle at zero offsets, read back whole, is the stored value, whatever earlier stores
    and prior contents lie under it. -/
theorem read_writes_full_cons {sig : RefSig} {Val : EltTy → Type} [∀ e, Nonempty (Val e)] {κ : Kind} {sp : Space} {s : Shape} {e : EltTy}
    (v : View sig κ sp s e) (f : v.ty.Contents Val) {off : Fin s.rank → ℕ} (hoff : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst hoff
  rw [View.read_writes_eq_canon v f _ (fun y => ⟨_, List.mem_cons_self, by
    show y ∈ (Rect.whole s).set; rw [Rect.set_whole]; exact Finset.mem_univ _⟩)]
  funext y
  have h := View.canon_cons_emb (Val := Val) (Rect.whole s) w L y
  rwa [Rect.emb_whole_apply] at h

set_option maxHeartbeats 1000000 in
/-- The first case of the body. -/
theorem kernelRun1_A (c : Dev nD) (i : grid1.Coords) (arg2 : Memref sig .tc .vmem S8x256x640 .bf16) (harg2 : arg2.IsWhole) (arg3 : Memref sig .tc .vmem S8x128x640 .bf16) (harg3 : arg3.IsWhole) (arg4 : Memref sig .tc .vmem S8x128x640 .bf16) (harg4 : arg4.IsWhole) (arg5 : Memref sig .tc .vmem S8x256 .f32) (harg5 : arg5.IsWhole) (arg6 : Memref sig .tc .vmem S8x128 .f32) (harg6 : arg6.IsWhole) (arg7 : Memref sig .tc .vmem S8x256 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x640 .f32) (harg10 : arg10.IsWhole) (arg11 : Memref sig .tc .vmem S8x256x640 .f32) (harg11 : arg11.IsWhole) (hc0 : cond1_0 i) (hc1 : ¬cond1_1 i)
    (x0 : Vec F S8x256x640 .bf16) (x1 : Vec F S8x128x640 .bf16) (x2 : Vec F S8x128x640 .bf16) (x3 : Vec F S8x256 .f32) (x4 : Vec F S8x128 .f32) (x5 : Vec F S8x256 .f32) :
    ∀ (xi8 : Vec F S8x256x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k1_pay4 x0 x1 x3 x4 x5) ∗ owns (c : Thread nD τ) arg9 fullShare (k1_pay3 x0 x1 x3 x4 x5) ∗ owns (c : Thread nD τ) arg10 fullShare xi8
                ∗ owns (c : Thread nD τ) arg11 fullShare (k1_pay1 (k1_pay4 x0 x1 x3 x4 x5) k1_pay2 x2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  intro xi8 E K
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H7]
  · iexists _; isplitr
    swap; · iexact H7
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H8]
  · iexists _; isplitr; · ipureintro; exact harg10.read_unread _
    iexact H8
  iexists _; isplitr
  swap; · iexact HS0
  ipureintro
  have hv : kernelRun1_A.sl.v30 (F := F) c arg11 = k1_pay2 := by
    unfold kernelRun1_A.sl.v30 kernelRun1_A.sl.HS0_1
    exact View.readCov_cons_toLoadRect _ _ _ _
  refine (read_writes_full_cons _ _ vec3_zero _ _ _).trans ?_
  rw [hv, readAt_full harg2 x0 vec3_zero, readAt_full harg3 x1 vec3_zero, readAt_full harg5 x3 vec2_zero, readAt_full harg6 x4 vec2_zero, readAt_full harg7 x5 vec2_zero, readAt_full harg4 x2 vec3_zero]

end Cert.Kernel.Hand1

end
-- ==== Proof.K1RunC.lean ====
/- Region 1's body run once in the LAST case (the last key step of a row block: after the accumulation the
   accumulator is copied into the output block's buffer): from the accumulator at `xs0`, both the accumulator and the
   output block's buffer end at `xs0` plus the attention tile times the value block. -/
import proofs.«101240_j549755814005_2_alg».proof.Proof.K1RunA

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The last case of the body. -/
theorem kernelRun1_C (c : Dev nD) (i : grid1.Coords) (arg2 : Memref sig .tc .vmem S8x256x640 .bf16) (harg2 : arg2.IsWhole) (arg3 : Memref sig .tc .vmem S8x128x640 .bf16) (harg3 : arg3.IsWhole) (arg4 : Memref sig .tc .vmem S8x128x640 .bf16) (harg4 : arg4.IsWhole) (arg5 : Memref sig .tc .vmem S8x256 .f32) (harg5 : arg5.IsWhole) (arg6 : Memref sig .tc .vmem S8x128 .f32) (harg6 : arg6.IsWhole) (arg7 : Memref sig .tc .vmem S8x256 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x640 .f32) (harg10 : arg10.IsWhole) (arg11 : Memref sig .tc .vmem S8x256x640 .f32) (harg11 : arg11.IsWhole) (hc0 : ¬cond1_0 i) (hc1 : cond1_1 i)
    (x0 : Vec F S8x256x640 .bf16) (x1 : Vec F S8x128x640 .bf16) (x2 : Vec F S8x128x640 .bf16) (x3 : Vec F S8x256 .f32) (x4 : Vec F S8x128 .f32) (x5 : Vec F S8x256 .f32) (xs0 : Vec F S8x256x640 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k1_pay4 x0 x1 x3 x4 x5) ∗ owns (c : Thread nD τ) arg9 fullShare (k1_pay3 x0 x1 x3 x4 x5) ∗ owns (c : Thread nD τ) arg10 fullShare (k1_pay1 (k1_pay4 x0 x1 x3 x4 x5) xs0 x2)
                ∗ owns (c : Thread nD τ) arg11 fullShare (k1_pay1 (k1_pay4 x0 x1 x3 x4 x5) xs0 x2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  intro E K
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H7]
  · iexists _; isplitr
    swap; · iexact H7
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H8]
  · iexists _; isplitr
    swap; · iexact H8
    ipureintro
    refine (read_writes_full _ _ vec3_zero _ _).trans ?_
    unfold kernelRun1_C.sl.v42 kernelRun1_C.sl.HS0_1
    refine (View.readCov_cons_toLoadRect _ _ _ _).trans ?_
    rw [readAt_full harg2 x0 vec3_zero, readAt_full harg3 x1 vec3_zero, readAt_full harg5 x3 vec2_zero, readAt_full harg6 x4 vec2_zero, readAt_full harg7 x5 vec2_zero, readAt_full harg11 xs0 vec3_zero, readAt_full harg4 x2 vec3_zero]
  iexists _; isplitr
  swap; · iexact HS0
  ipureintro
  unfold kernelRun1_C.sl.HS0_1
  refine (read_writes_full _ _ vec3_zero _ _).trans ?_
  rw [readAt_full harg2 x0 vec3_zero, readAt_full harg3 x1 vec3_zero, readAt_full harg5 x3 vec2_zero, readAt_full harg6 x4 vec2_zero, readAt_full harg7 x5 vec2_zero, readAt_full harg11 xs0 vec3_zero, readAt_full harg4 x2 vec3_zero]

end Cert.Kernel.Hand1

end
-- ==== Proof.K1.lean ====
/- Region 1's BODY OBLIGATION and the two ends of its invariant, over the proof data of K1Defs.lean: at every grid
   point, from the invariant (the accumulator at what the point before left, at anything before the first point), the
   inputs' staging buffers at their blocks and the outputs' at anything, the body runs to the invariant at this point's
   accumulator, the attention and log-attention tiles in their buffers, and — at a last key step — the accumulator in
   the output block's buffer (elsewhere that buffer is handed back as found). One run per control case
   (K1RunA/B/C.lean), selected by the point's key step. -/
import proofs.«101240_j549755814005_2_alg».proof.Proof.K1RunC

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → Valuation τ sig (Elt F))

/-! ## The accumulator's state moved in and out of the invariant's scoped part -/

theorem scoped1_open (c : Dev nD) (X : sProp 𝕄) : scoped1 (F := F) c X ⊢ iprop(scoped1 c iprop(emp) ∗ X) := by
  unfold scoped1
  iintro ⟨R0, R1, R2, R3, R4, R5, R6, R7, R8, R9, R10, R11, HX⟩
  isplitr [HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iempintro
  iexact HX

theorem scoped1_close (c : Dev nD) (X : sProp 𝕄) : iprop(scoped1 c iprop(emp) ∗ X) ⊢ scoped1 (F := F) c X := by
  unfold scoped1
  iintro ⟨⟨R0, R1, R2, R3, R4, R5, R6, R7, R8, R9, R10, R11, -⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HX

/-- What the accumulator holds may be forgotten. -/
theorem scoped1_forget (c : Dev nD) (x : Vec F S8x256x640 .f32) :
    scoped1 (F := F) c (owns (c : Thread nD τ) scM1_0 fullShare x) ⊢ scoped1 c (iprop(∃ d, owns (c : Thread nD τ) scM1_0 fullShare d)) :=
  scoped1_mono c (by iintro H; iexists _; iexact H)

/-! ## What the body finds in the inputs' staging buffers: their blocks, fetched at the point or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [dat1_A]; try rfl) t d).trans
    (by unfold Dat.fetched Dat.blockOf iblk1; rw [dat1_A]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' buffers hold their blocks; the point's key step selects the case (first: the
    accumulator is zeroed, whatever it held; middle; last: the accumulator is also copied to the output block's
    buffer, which is idle and handed back untouched at the other steps); the invariant hands the run the accumulator
    at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [PhiS1_castSucc V c t]
  by_cases h0 : t.val % 16 = 0
  · have h1 : ¬t.val % 16 = 15 := by omega
    rw [Dat.leavesExact_idle (dat1 V c) 8 t (idleAt1_8 t (fun h => h1 ((hcond1_1 t).mp h))) (noFlush1_8 t (fun h => h1 ((hcond1_1 t).mp h)))]
    rw [acc1_first V c t h0]
    have hPhi : PhiS1 V c t.val (Nat.le_of_lt t.isLt) ⊢ iprop(scoped1 c (iprop(∃ d, owns (c : Thread nD τ) scM1_0 fullShare d)) ∗ (∃ r, prngReg c r)) := by
      by_cases hz : t.val = 0
      · rw [PhiS1_zero V c _ _ hz, PhiA1_eq]; try exact Entails.refl _
      · rw [PhiS1_pos V c _ _ hz]
        iintro ⟨HS, Hg⟩
        isplitl [HS]
        · iapply (scoped1_forget c (acc1 V c t.val (Nat.le_of_lt t.isLt)))
          iexact HS
        iexact Hg
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP' := hPhi $$ HP
    icases HP' with ⟨HSc, Hg⟩
    ihave HS := (scoped1_open c _) $$ HSc
    icases HS with ⟨HR, HS0⟩
    iapply (kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    iintro ⟨H0, H1, H2, H3, H4, H5, H6, H7, H8, HS0⟩
    isplitl [HR HS0 Hg]
    · isplitl [HR HS0]
      · iapply scoped1_close; isplitl [HR]; · iexact HR
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun e => h0 (by rw [e])
    rw [PhiS1_pos V c _ _ hz]
    rw [acc1_next V c t h0]
    by_cases h1 : t.val % 16 = 15
    · rw [show (dat1 V c).leavesExact 8 t = owns (c : Thread nD τ) (ms1_8 t) fullShare ((dat1 V c).after 8 t) from by
        unfold Dat.leavesExact; rw [liveAt1_8 t ((hcond1_1 t).mpr h1)], after1_8, acc1_next V c t h0]
      iintro ⟨⟨HSc, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HS := (scoped1_open c _) $$ HSc
      icases HS with ⟨HR, HS0⟩
      iapply (kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, H6, H7, H8, HS0⟩
      isplitl [HR HS0 Hg]
      · isplitl [HR HS0]
        · iapply scoped1_close; isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat1 V c) 8 t (idleAt1_8 t (fun h => h1 ((hcond1_1 t).mp h))) (noFlush1_8 t (fun h => h1 ((hcond1_1 t).mp h)))]
      iintro ⟨⟨HSc, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HS := (scoped1_open c _) $$ HSc
      icases HS with ⟨HR, HS0⟩
      iapply (kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS0]; · iexact HS0
      iintro ⟨H0, H1, H2, H3, H4, H5, H6, H7, H8, HS0⟩
      isplitl [HR HS0 Hg]
      · isplitl [HR HS0]
        · iapply scoped1_close; isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hg⟩
  isplitl [HS]
  · iapply (scoped1_forget c (acc1 V c t.val (Nat.le_of_lt_succ t.isLt)))
    iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand1

end
-- ==== Proof.KRegs.lean ====
/-
  The two kernel regions as items of the program's run. A region is entered with every unscoped buffer of the core at
  the contents of the boundary before it, beside the core's generator register and its dues; its windows' arrays are
  split out of those buffers and handed to the pipeline at the proof data's entry contents, the generator register goes
  into the body's invariant and comes back, and at the exit the arrays — the result arrays now at what the
  written-back blocks fold to — are put back among the buffers, which are then at the contents of the boundary after it.
-/
import proofs.«101240_j549755814005_2_alg».proof.Proof.KRegsDefs
import proofs.«101240_j549755814005_2_alg».proof.Proof.K0
import proofs.«101240_j549755814005_2_alg».proof.Proof.K1

set_option maxRecDepth 16384

noncomputable section

namespace Cert.Kernel.Regs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The first region over the thread state: entered from every unscoped buffer at the contents the host operations
    leave, left with its result array at what the pipeline leaves there. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hand0.body_obligation0 (VV1 m) c).loose
  hwaits := Pipeline.hwaits_of_owed_zero _ _ _ _ L lv 0 fun _ _ => rfl
  pre c := iprop(heldAt c (V1 m c) ∗ R c)
  post c := iprop(heldAt c (VV2 m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hand0.hin0 (VV1 m) c)
    unfold Pipeline.ΦA
    iintro ⟨Hp, -, Hr⟩
    isplitl [Hr]; · iexact Hr
    iexact Hp
  hout c := by
    rw [Pipeline.ownSems0_none]
    refine BIBase.Entails.trans (Hand0.hout0 (VV1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => VV2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the first region's exit contents,
    left with its three result arrays at what the pipeline leaves there. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hand1.body_obligation1 (VV2 m) c).loose
  hwaits := Pipeline.hwaits_of_owed_zero _ _ _ _ L lv 1 fun _ _ => rfl
  pre c := iprop(heldAt c (VV2 m c) ∗ R c)
  post c := iprop(heldAt c (VV3 m c) ∗ R c)
  X c := iprop(∃ r, prngReg c r)
  Y c := iprop(∃ r, prngReg c r)
  Z c := Pipeline.unscopedRest (Ix := Unit) (Name := ℕ) (U := UR sig nD τ) (Lvl := ℕ) spec1 c (fun b => VV2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => VV2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hand1.hin1 (VV2 m) c)
    unfold Pipeline.ΦA
    iintro ⟨Hp, -, Hr⟩
    isplitl [Hr]; · iexact Hr
    iexact Hp
  hout c := by
    rw [Pipeline.ownSems0_none]
    refine BIBase.Entails.trans (Hand1.hout1 (VV2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => VV2 m c b) (fun b => VV3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regs
end
-- ==== Proof.KRun.lean ====
/-
  The run of the whole program from the two regions' records: the conditional run instantiated at the plain launch
  (nothing owed at launch, no ghost state beyond the staging cells', the generator register and the core's empty dues
  riding beside the buffers through every item), and from it the frame: the argument arrays end as launched.
-/
import proofs.«101240_j549755814005_2_alg».proof.Proof.KRegs

set_option maxRecDepth 16384

noncomputable section

namespace Cert.Kernel.Regs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

-- the launch theorem's implicit arguments are found by unifying its conclusion with this one, which takes unfolding
-- plain definitions in a metavariable's type
set_option backward.isDefEq.respectTransparency.types false in
/-- THE RUN. From any memory with zero counters every weakly fair execution of the program terminates, and in every
    final memory each unscoped buffer of a core holds the last boundary's contents: the launch contents carried through
    the host operations, with each region's result arrays at what that region's write-backs leave. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = VV3 m c b) := by
  have h := Gen.run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl)
    (hpost0 := fun c => by rw [V2_eq]; first | done | exact .rfl)
    (R1 := reg1 m) (hpre1 := fun c => by rw [V2_eq]; first | done | exact .rfl)
    (hpost1 := fun c => by rw [V3_eq]; first | done | exact .rfl)
  exact (θ_run defs _ _).mono (fun r hr c b hb => (hr c b hb).trans (congrFun (V3_eq m c) b)) h

/-- THE FRAME: every weakly fair execution terminates and every final memory holds each argument array as launched —
    no host operation writes an argument and no region may change one, so the last boundary's contents at an argument
    are the launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  have e := fun b hb => (h c b hb).trans (congrFun (V3_eq m c).symm b)
  exact ⟨(e (Proc.devRef .tc main_arg0) (Finset.mem_filter.mpr ⟨StableHlo.devRef_mem_tcRefs main_arg0, by decide⟩)).trans (V3_main_arg0 m (outs m) c),
    (e (Proc.devRef .tc main_arg1) (Finset.mem_filter.mpr ⟨StableHlo.devRef_mem_tcRefs main_arg1, by decide⟩)).trans (V3_main_arg1 m (outs m) c),
    (e (Proc.devRef .tc main_arg2) (Finset.mem_filter.mpr ⟨StableHlo.devRef_mem_tcRefs main_arg2, by decide⟩)).trans (V3_main_arg2 m (outs m) c)⟩

end Cert.Kernel.Regs

end
-- ==== Proof.Frame0Defs.lean ====
/-
  Region 0 (the statistics pass) point by point. The pass walks a grid of 4 row blocks by 8 key blocks and carries
  two row vectors between points: the running row maximum `m` and the running shifted exponential sum `l`. At
  the first key block of a row block both are reset (`-∞`, `0`) before use; at every point they are updated from
  the point's query block, key block and the two squared-norm blocks; at the last key block the output block
  `m + log l` is written. This module states that transfer as pure functions of the input blocks, the region's
  proof data over it, and the closed forms of the two conditions the body branches on.
-/
import proofs.«101240_j549755814005_2_alg».proof.Proof.Gen.KernelIdeal.Launch
import proofs.«101240_j549755814005_2_alg».proof.Proof.Gen.KernelIdeal.Skeleton
import proofs.«101240_j549755814005_2_alg».proof.Proof.Gen.KernelIdeal.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered: a parameter
variable (V : (c : Dev nD) → Valuation τ sig (Elt F))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions, in closed form -/

/-- The first branch's condition (the key coordinate is 0), from the grid coordinates. -/
abbrev condFirst (i : grid0.Coords) : Prop := (Scalar.cmpi .ne (Scalar.extui (Scalar.cmpi .eq (BitVec.ofNat 32 (i 1).val) 0#32)) 0#32) = 1#1
/-- It holds exactly at the points whose position is a multiple of 8. -/
theorem hcondFirst : ∀ t : Fin cfg0.N, condFirst (grid0.coords t) ↔ t.val % 8 = 0 :=
  (by decide +kernel : ∀ t : Fin grid0.N, condFirst (grid0.coords t) ↔ t.val % 8 = 0)

/-- The last branch's condition (the key coordinate is 7). -/
abbrev condLast (i : grid0.Coords) : Prop := k0_cond2 i = 1#1
/-- It holds exactly at the points whose position is 7 modulo 8. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Away from the last key block the output window is idle, -/
theorem idleAt0_4 : ∀ t : Fin cfg0.N, ¬condLast (grid0.coords t) → cfg0.idle 4 (grid0.coords t) = true := by decide +kernel
/-- and is not written back there; -/
theorem noFlush0_4 : ∀ t : Fin cfg0.N, ¬condLast (grid0.coords t) → (cfg0.win 4).flush t = false := by decide +kernel
/-- at the last key block it is live. -/
theorem liveAt0_4 : ∀ t : Fin cfg0.N, condLast (grid0.coords t) → cfg0.idle 4 (grid0.coords t) = false := by decide +kernel

/-! ## The staging and scratch memrefs -/

abbrev ms0_0 (t : Fin cfg0.N) : Memref sig .tc .vmem S8x512x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x640 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
/-- The running maximum's buffer and the running sum's buffer. -/
abbrev scM0_0 : Memref sig .tc .vmem S8x512 .f32 := Memref.whole cc0_scratch0
abbrev scM0_1 : Memref sig .tc .vmem S8x512 .f32 := Memref.whole cc0_scratch1

/-! ## The transfer of one point, and the carried pair -/

/-- One point's update of the carried pair (running maximum, running sum) from the point's query block `q`, key
    block `k` and squared-norm blocks `qq`, `kk`: the new maximum, and the old sum rescaled plus the block's
    shifted exponentials. -/
def upd0 (q : Vec F S8x512x640 .bf16) (k : Vec F S8x256x640 .bf16) (qq : Vec F S8x512 .f32) (kk : Vec F S8x256 .f32)
    (ml : Vec F S8x512 .f32 × Vec F S8x512 .f32) : Vec F S8x512 .f32 × Vec F S8x512 .f32 :=
  (k0_pay2 (k0_pay7 q k qq kk ml.1), k0_pay1 (k0_pay8 q k qq kk ml.1) (k0_pay9 q k qq kk ml.1 ml.1 ml.2))

/-- The pair a row block starts from: maximum `-∞`, sum `0`. -/
def init0 : Vec F S8x512 .f32 × Vec F S8x512 .f32 := (k0_pay4, k0_pay5)

/-- What the two carried buffers hold after `n` points (before point `n`): the update at point `n - 1` of the reset
    pair when that point opens a row block, else of what the point before left. Before the first point nothing is
    claimed (the value at `0` is a placeholder nothing reads). -/
def scr0 (c : Dev nD) : (n : ℕ) → n ≤ cfg0.N → Vec F S8x512 .f32 × Vec F S8x512 .f32
  | 0, _ => init0
  | n + 1, hn =>
    upd0 (iblk0 V c 0 ⟨n, hn⟩) (iblk0 V c 1 ⟨n, hn⟩) (iblk0 V c 2 ⟨n, hn⟩) (iblk0 V c 3 ⟨n, hn⟩)
      (if n % 8 = 0 then init0 else scr0 c n (Nat.le_of_lt hn))

/-- After a point that opens a row block: the update of the reset pair. -/
theorem scr0_first (c : Dev nD) (t : Fin cfg0.N) (h : t.val % 8 = 0) :
    scr0 V c (t.val + 1) t.isLt
      = upd0 (iblk0 V c 0 t) (iblk0 V c 1 t) (iblk0 V c 2 t) (iblk0 V c 3 t) init0 := by
  obtain ⟨n, hn⟩ := t
  exact congrArg (upd0 _ _ _ _) (if_pos h)

/-- After any other point: the update of what the point before left. -/
theorem scr0_next (c : Dev nD) (t : Fin cfg0.N) (h : ¬t.val % 8 = 0) :
    scr0 V c (t.val + 1) t.isLt
      = upd0 (iblk0 V c 0 t) (iblk0 V c 1 t) (iblk0 V c 2 t) (iblk0 V c 3 t) (scr0 V c t.val (Nat.le_of_lt t.isLt)) := by
  obtain ⟨n, hn⟩ := t
  exact congrArg (upd0 _ _ _ _) (if_neg h)

/-- The output block a point would write: the maximum plus the logarithm of the sum, of the pair after the point. -/
def out0 (c : Dev nD) (t : Fin cfg0.N) : Vec F S8x512 .f32 :=
  k0_pay3 (scr0 V c (t.val + 1) t.isLt).1 (scr0 V c (t.val + 1) t.isLt).2

/-! ## The invariant -/

/-- The core's scoped buffers other than this region's staging buffers and its two carried buffers, each at some
    contents. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two carried buffers split out as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d)) ∗ rest0 (F := F) c) ∗ (∃ r, prngReg c r)) := by
  unfold Pipeline.ΦA
  rw [Pipeline.scopedRest_split_of_list spec0 c [cc0_scratch0, cc0_scratch1] (by decide) (by decide)]
  simp only [scM0_0, scM0_1, owns_whole, BI.bigSepL_cons_cons, BI.bigSepL_singleton]
  try rfl

/-- The region invariant before position `n`: before the first point the class's (every scoped buffer at anything);
    afterwards the two carried buffers at `scr0`'s pair, the other scoped buffers at anything, the generator
    register at some state. -/
def PhiS0 (c : Dev nD) : (n : ℕ) → n ≤ cfg0.N → sProp 𝕄
  | 0, _ => Pipeline.ΦA spec0 c
  | n + 1, hn => iprop(((owns (c : Thread nD τ) scM0_0 fullShare (scr0 V c (n + 1) hn).1 ∗ owns (c : Thread nD τ) scM0_1 fullShare (scr0 V c (n + 1) hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(((owns (c : Thread nD τ) scM0_0 fullShare (scr0 V c (n + 1) hn).1 ∗ owns (c : Thread nD τ) scM0_1 fullShare (scr0 V c (n + 1) hn).2) ∗ rest0 (F := F) c) ∗ (∃ r, prngReg c r)) := rfl

theorem PhiS0_pos (c : Dev nD) (n : ℕ) (h : n ≤ cfg0.N) (hz : n ≠ 0) :
    PhiS0 V c n h = iprop(((owns (c : Thread nD τ) scM0_0 fullShare (scr0 V c n h).1 ∗ owns (c : Thread nD τ) scM0_1 fullShare (scr0 V c n h).2) ∗ rest0 (F := F) c) ∗ (∃ r, prngReg c r)) := by
  cases n with
  | zero => exact absurd rfl hz
  | succ n => rfl

/-! ## The region's proof data -/

/-- The proof data of region 0 on core `c`: the arrays as the region finds them (`V`); after the body at point `t`
    each input's buffer at its block and the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem dat0_A (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)

/-! ## Reading back a whole-buffer store, and a whole-buffer load -/

/-- A unit-stride rectangle from offset zero over the whole shape places each index at itself. -/
theorem idx_unit_whole {s : Shape} (off : Fin s.rank → ℕ) (h0 : ∀ a, off a = 0) (inb : ∀ a, off a + s.size a ≤ s.size a)
    (j : s.Idx) : (Rect.unit (s := s) off s.size inb).idx j = j := by
  funext a; apply Fin.ext
  show off a + 1 * (j a : ℕ) = j a
  rw [h0 a]; omega

/-- What a buffer reads after a store through the whole-shape rectangle, whatever it held and whatever was stored
    before: the stored value. -/
theorem read_writes_whole {Val : EltTy → Type} [∀ e, Nonempty (Val e)] {κ : Kind} {sp : Space} {s : Shape} {e : EltTy}
    (v : View sig κ sp s e) (f : v.ty.Contents Val)
    (off : Fin s.rank → ℕ) (h0 : ∀ a, off a = 0) (inb : ∀ a, off a + s.size a ≤ s.size a)
    (w : s.Idx → Val e) (L : List (View.Piece Val s e)) :
    v.read Val (v.writes Val f (⟨Rect.unit (s := s) off s.size inb, w⟩ :: L)) = w := by
  funext y
  have h := View.read_writes_cons_emb (Val := Val) v f (Rect.unit (s := s) off s.size inb) w L y
  rw [show (Rect.unit (s := s) off s.size inb).emb y = y from idx_unit_whole off h0 inb y] at h
  exact h

/-- A load through the whole-shape rectangle of a whole memref held at the contents that read `X` reads `X`. -/
theorem readAt_whole_unread {Val : EltTy → Type} {κ : Kind} {sp : Space} {s : Shape} {e : EltTy}
    {m : Memref sig κ sp s e} (h : m.IsWhole) (X : s.Idx → Val e)
    (off : Fin s.rank → ℕ) (h0 : ∀ a, off a = 0) (inb : ∀ a, off a + s.size a ≤ s.size a) :
    View.readAt Val m.view (Rect.unit (s := s) off s.size inb).toLoadRect (h.unread X) = X := by
  funext x
  rw [h.readAt_unread X _ x]
  exact congrArg X (idx_unit_whole off h0 inb x)

theorem off2_zero : ∀ a : Fin 2, (![0, 0] : Fin 2 → ℕ) a = 0 := by decide
theorem off3_zero : ∀ a : Fin 3, (![0, 0, 0] : Fin 3 → ℕ) a = 0 := by decide

/-! ## Entering and leaving the region -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the carried buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand0

end
-- ==== Proof.Frame1Defs.lean ====
/- Region 1 (the attention pass: grid 8 × 16, nine windows, one accumulator carried from point to point): what its
   body's runs and its proof data are stated over — the body's two branch conditions in closed form over the 128
   grid points, where the windows are idle, the staging memrefs at a point, the region invariant with the
   accumulator split out of the other scoped buffers, and the input windows' blocks. Generic in the float instance. -/
import proofs.«101240_j549755814005_2_alg».proof.Proof.Gen.KernelIdeal.Launch
import proofs.«101240_j549755814005_2_alg».proof.Proof.Gen.KernelIdeal.Skeleton
import proofs.«101240_j549755814005_2_alg».proof.Proof.Gen.KernelIdeal.Points
import Idealize.ShloMosaic.Lib.Pipeline.FrameBody
import Idealize.ShloMosaic.Lib.Ring
import Idealize.ShloMosaic.Lib.Tactic
import Idealize.ShloMosaic.Lib.WholeRead

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's two branch conditions, in closed form over the 128 grid points -/

/-- The first branch (the accumulator is zeroed): the key-block coordinate is 0. -/
abbrev cond1_0 (i : grid1.Coords) : Prop := (Scalar.cmpi .ne (Scalar.extui (Scalar.cmpi .eq (BitVec.ofNat 32 (i 1).val) 0#32)) 0#32) = 1#1
/-- It holds exactly at the first key step of each row block. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch (the accumulator is copied to the output block): the key-block coordinate is 15. -/
abbrev cond1_1 (i : grid1.Coords) : Prop := k1_cond2 i = 1#1
/-- It holds exactly at the last key step of each row block. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Off the last key step the output block's window is idle (nothing is stored into it), -/
theorem idleAt1_8 : ∀ t : Fin cfg1.N, ¬cond1_1 (grid1.coords t) → cfg1.idle 8 (grid1.coords t) = true := by decide +kernel
/-- and not written back; -/
theorem noFlush1_8 : ∀ t : Fin cfg1.N, ¬cond1_1 (grid1.coords t) → (cfg1.win 8).flush t = false := by decide +kernel
/-- at the last key step it is live. -/
theorem liveAt1_8 : ∀ t : Fin cfg1.N, cond1_1 (grid1.coords t) → cfg1.idle 8 (grid1.coords t) = false := by decide +kernel

/-! ## The staging memrefs at a point, and the accumulator -/

abbrev ms1_0 (t : Fin cfg1.N) : Memref sig .tc .vmem S8x256x640 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x640 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128x640 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x256x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x256x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x256x640 .f32 := win1_8.stage (cfg1.slots t 8)
abbrev hs1_8 (t : Fin cfg1.N) : (ms1_8 t).IsWhole := hstage1_8 ((cfg1.slots t 8).cast nbuf1_8)
/-- The accumulator: a whole scoped buffer of the kernel's own, carried from point to point. -/
abbrev scM1_0 : Memref sig .tc .vmem S8x256x640 .f32 := Memref.whole cc1_scratch0

/-! ## The region invariant with the accumulator split out -/

/-- The core's scoped buffers that region 1 does not stage, each at some contents, but for the accumulator, which
    is in the state `X`. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- The class invariant of region 1 is that, with the accumulator owned at some contents, beside the generator
    register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

/-- The state of the accumulator may be weakened inside the invariant. -/
theorem scoped1_mono (c : Dev nD) {X Y : sProp 𝕄} (h : X ⊢ Y) : scoped1 (F := F) c X ⊢ scoped1 c Y := by
  unfold scoped1
  iintro ⟨R0, R1, R2, R3, R4, R5, R6, R7, R8, R9, R10, R11, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iapply h; iexact HX

/-! ## The input windows' blocks -/

variable (V : (c : Dev nD) → Valuation τ sig (Elt F))

/-- Window `w`'s block at point `t`, read off its array as region 1 finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The per-point transfer: what the body computes from the input blocks -/

/-- The attention tile at point `t`: the exponential of the shifted scores of the point's query and key blocks. -/
def attn1 (c : Dev nD) (t : Fin cfg1.N) : Vec F S8x256x128 .f32 :=
  k1_pay4 (iblk1 V c 0 t) (iblk1 V c 1 t) (iblk1 V c 3 t) (iblk1 V c 4 t) (iblk1 V c 5 t)
/-- The log-attention tile at point `t`: the scores less the rows' log-sum-exp. -/
def logAttn1 (c : Dev nD) (t : Fin cfg1.N) : Vec F S8x256x128 .f32 :=
  k1_pay3 (iblk1 V c 0 t) (iblk1 V c 1 t) (iblk1 V c 3 t) (iblk1 V c 4 t) (iblk1 V c 5 t)

theorem attn1_eq (c : Dev nD) (t : Fin cfg1.N) :
    attn1 V c t = k1_pay4 (iblk1 V c 0 t) (iblk1 V c 1 t) (iblk1 V c 3 t) (iblk1 V c 4 t) (iblk1 V c 5 t) := rfl
theorem logAttn1_eq (c : Dev nD) (t : Fin cfg1.N) :
    logAttn1 V c t = k1_pay3 (iblk1 V c 0 t) (iblk1 V c 1 t) (iblk1 V c 3 t) (iblk1 V c 4 t) (iblk1 V c 5 t) := rfl

/-- THE ACCUMULATION. What the accumulator holds after the first `n` points: at a first key step the point's
    attention tile times its value block added to zero, at the other steps added to what the point before left
    (before any point: zero, which nothing consults). -/
def acc1 (c : Dev nD) : (n : ℕ) → n ≤ cfg1.N → Vec F S8x256x640 .f32
  | 0, _ => k1_pay2
  | n + 1, hn =>
    if n % 16 = 0 then k1_pay1 (attn1 V c ⟨n, hn⟩) k1_pay2 (iblk1 V c 2 ⟨n, hn⟩)
    else k1_pay1 (attn1 V c ⟨n, hn⟩) (acc1 c n (Nat.le_of_lt hn)) (iblk1 V c 2 ⟨n, hn⟩)

/-- After a first key step: the tile times the value block, added to zero. -/
theorem acc1_first (c : Dev nD) (t : Fin cfg1.N) (h : t.val % 16 = 0) :
    acc1 V c (t.val + 1) t.isLt
      = k1_pay1 (k1_pay4 (iblk1 V c 0 t) (iblk1 V c 1 t) (iblk1 V c 3 t) (iblk1 V c 4 t) (iblk1 V c 5 t)) k1_pay2 (iblk1 V c 2 t) := by
  obtain ⟨n, hn⟩ := t
  exact if_pos h

/-- After any other key step: added to what the point before left. -/
theorem acc1_next (c : Dev nD) (t : Fin cfg1.N) (h : ¬t.val % 16 = 0) :
    acc1 V c (t.val + 1) t.isLt
      = k1_pay1 (k1_pay4 (iblk1 V c 0 t) (iblk1 V c 1 t) (iblk1 V c 3 t) (iblk1 V c 4 t) (iblk1 V c 5 t)) (acc1 V c t.val (Nat.le_of_lt t.isLt)) (iblk1 V c 2 t) := by
  obtain ⟨n, hn⟩ := t
  exact if_neg h

/-! ## The region invariant, carrying the accumulator -/

/-- Before the first point the class invariant (every scoped buffer at anything); after `n ≥ 1` points the same with
    the accumulator at `acc1 n`. -/
def PhiS1 (c : Dev nD) : (n : ℕ) → n ≤ cfg1.N → sProp 𝕄
  | 0, _ => Pipeline.ΦA spec1 c
  | n + 1, hn => iprop(scoped1 c (owns (c : Thread nD τ) scM1_0 fullShare (acc1 V c (n + 1) hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare (acc1 V c (n + 1) hn)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare (acc1 V c n h)) ∗ (∃ r, prngReg c r)) := by
  cases n with
  | zero => exact absurd rfl hz
  | succ n => rfl

/-! ## The proof data -/

/-- Region 1's proof data on core `c`: the arrays as the region finds them (`V`); after the body at point `t` each
    input's buffer at its block, the attention and log-attention tiles' at the point's tiles, the output block's at the
    accumulator (consulted at the last key steps only: elsewhere that window is idle); the invariant carrying the
    accumulator; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => attn1 V c t
    | ⟨7, _⟩ => logAttn1 V c t
    | ⟨8, _⟩ => acc1 V c (t.val + 1) t.isLt
  Φ t := PhiS1 V c t.val (Nat.le_of_lt_succ t.isLt)
  q _ := fullShare
  owed _ := 0

theorem dat1_A (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
/-- The attention tile's window after the body at ANY point: the point's tile. -/
theorem after1_6 (c : Dev nD) (t : Fin cfg1.N) :
    (dat1 V c).after 6 t = k1_pay4 (iblk1 V c 0 t) (iblk1 V c 1 t) (iblk1 V c 3 t) (iblk1 V c 4 t) (iblk1 V c 5 t) := by dsimp only [dat1, attn1]
/-- The log-attention tile's window after the body at ANY point. -/
theorem after1_7 (c : Dev nD) (t : Fin cfg1.N) :
    (dat1 V c).after 7 t = k1_pay3 (iblk1 V c 0 t) (iblk1 V c 1 t) (iblk1 V c 3 t) (iblk1 V c 4 t) (iblk1 V c 5 t) := by dsimp only [dat1, logAttn1]
/-- The output block's window after the body: the accumulator (the window is live at the last key steps only). -/
theorem after1_8 (c : Dev nD) (t : Fin cfg1.N) : (dat1 V c).after 8 t = acc1 V c (t.val + 1) t.isLt := by dsimp only [dat1]

/-! ## Whole-buffer loads and stores through the literal full rectangle -/

theorem vec3_zero : (![0, 0, 0] : Fin 3 → ℕ) = fun _ => 0 := by decide
theorem vec2_zero : (![0, 0] : Fin 2 → ℕ) = fun _ => 0 := by decide

/-- A load of a whole memref through the full rectangle at zero offsets reads the contents the memref is held at. -/
theorem readAt_full {sig : RefSig} {Val : EltTy → Type} {κ : Kind} {sp : Space} {s : Shape} {e : EltTy}
    {m : Memref sig κ sp s e} (h : m.IsWhole) (X : s.Idx → Val e) {off : Fin s.rank → ℕ} (hoff : off = fun _ => 0)
    (inb : ∀ a, off a + s.size a ≤ s.size a) :
    View.readAt Val m.view (Rect.unit off s.size inb).toLoadRect (h.unread X) = X := by
  subst hoff
  funext x
  rw [Memref.IsWhole.readAt_unread h]
  exact congrArg X (Rect.emb_whole_apply s x)

/-- One store through the full rectangle at zero offsets, read back whole, is the stored value, whatever was there. -/
theorem read_writes_full {sig : RefSig} {Val : EltTy → Type} [∀ e, Nonempty (Val e)] {κ : Kind} {sp : Space} {s : Shape} {e : EltTy}
    (v : View sig κ sp s e) (f : v.ty.Contents Val) {off : Fin s.rank → ℕ} (hoff : off = fun _ => 0)
    (inb : ∀ a, off a + s.size a ≤ s.size a) (w : s.Idx → Val e) :
    v.read Val (v.writes Val f [(⟨Rect.unit off s.size inb, w⟩ : View.Piece Val s e)]) = w := by
  subst hoff
  rw [View.read_writes_eq_canon v f _ (fun y => ⟨_, List.mem_cons_self, by
    show y ∈ (Rect.whole s).set; rw [Rect.set_whole]; exact Finset.mem_univ _⟩)]
  funext y
  have h := View.canon_cons_emb (Val := Val) (Rect.whole s) w [] y
  rwa [Rect.emb_whole_apply] at h

end Cert.KernelIdeal.Hand1

end
-- ==== Proof.RegsDefs.lean ====
/-
  The contents of a core's buffers at the boundaries between the program's items, and both regions' proof data.
  The first region is entered at what the host operations leave (`V1`) and leaves its result array (the row-wise
  log-sum-exp) at what its pipeline's write-backs fold to; the second region is entered at that (`VV2`) and leaves
  its three result arrays likewise (`VV3`). `outs` packages these as the family the generated boundary contents are
  written over, and `V2_eq` / `V3_eq` identify the generated boundaries with the ones named here.
-/
import proofs.«101240_j549755814005_2_alg».proof.Proof.RunCondGen
import proofs.«101240_j549755814005_2_alg».proof.Proof.Frame0Defs
import proofs.«101240_j549755814005_2_alg».proof.Proof.Frame1Defs
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Regs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-- The buffers as the first region finds them. -/
abbrev VV1 : (c : Dev nD) → Valuation τ sig (Elt F) := fun c => V1 m c
/-- What the first region leaves in its result array. -/
def o7 (c : Dev nD) : Buf (Elt F) ((c : Thread nD τ).loc main_v7) := (Hand0.dat0 (VV1 m) c).arrAt 4 cfg0.N
/-- The buffers as the second region finds them. -/
def VV2 : (c : Dev nD) → Valuation τ sig (Elt F) := fun c => Function.update (V1 m c) main_v7 (o7 m c)
def o8_0 (c : Dev nD) : Buf (Elt F) ((c : Thread nD τ).loc main_v8_0) := (Hand1.dat1 (VV2 m) c).arrAt 6 cfg1.N
def o8_1 (c : Dev nD) : Buf (Elt F) ((c : Thread nD τ).loc main_v8_1) := (Hand1.dat1 (VV2 m) c).arrAt 7 cfg1.N
def o8_2 (c : Dev nD) : Buf (Elt F) ((c : Thread nD τ).loc main_v8_2) := (Hand1.dat1 (VV2 m) c).arrAt 8 cfg1.N
/-- The buffers at the end. -/
def VV3 : (c : Dev nD) → Valuation τ sig (Elt F) := fun c =>
  Function.update (Function.update (Function.update (VV2 m c) main_v8_0 (o8_0 m c)) main_v8_1 (o8_1 m c)) main_v8_2 (o8_2 m c)

/-- What the regions leave, as the family the boundary contents are written over. -/
def outs : Outs (F := F) := fun J r c => match J with
  | 2 => VV2 m c r
  | 3 => VV3 m c r
  | _ => V0 m c r

theorem V2_eq (c : Dev nD) : V2 m (outs m) c = VV2 m c := by
  show Function.update (V1 m c) main_v7 (VV2 m c main_v7) = VV2 m c
  unfold VV2; rw [Function.update_self]

theorem V3_eq (c : Dev nD) : V3 m (outs m) c = VV3 m c := by
  show Function.update (Function.update (Function.update (V2 m (outs m) c) main_v8_0 (VV3 m c main_v8_0)) main_v8_1 (VV3 m c main_v8_1)) main_v8_2 (VV3 m c main_v8_2) = VV3 m c
  rw [V2_eq]
  have n01 : (Proc.devRef .tc main_v8_0 : DevRef τ sig) ≠ Proc.devRef .tc main_v8_1 := StableHlo.devRef_ne_of_ne (by decide)
  have n02 : (Proc.devRef .tc main_v8_0 : DevRef τ sig) ≠ Proc.devRef .tc main_v8_2 := StableHlo.devRef_ne_of_ne (by decide)
  have n12 : (Proc.devRef .tc main_v8_1 : DevRef τ sig) ≠ Proc.devRef .tc main_v8_2 := StableHlo.devRef_ne_of_ne (by decide)
  have a0 : VV3 m c main_v8_0 = o8_0 m c := by
    unfold VV3; rw [Function.update_of_ne n02, Function.update_of_ne n01, Function.update_self]
  have a1 : VV3 m c main_v8_1 = o8_1 m c := by
    unfold VV3; rw [Function.update_of_ne n12, Function.update_self]
  have a2 : VV3 m c main_v8_2 = o8_2 m c := by
    unfold VV3; rw [Function.update_self]
  rw [a0, a1, a2]; rfl

/-! ## The proof data family and what rides beside the buffers -/

abbrev 𝒱₀ : Variants := Variants.none
abbrev L : GSem nD τ sig → Finset Unit := fun _ => ∅
abbrev lv : GSem nD τ sig → Unit → ℕ := fun _ _ => 0

/-- Both regions' proof data, each at its region's entry contents. -/
def pdats : (p : Fin 2) → (c : Dev nD) → Dat τ (Elt F) Unit ℕ (UR sig nD τ) ℕ (cfgs p) c
  | ⟨0, _⟩ => fun c => Hand0.dat0 (VV1 m) c
  | ⟨1, _⟩ => fun c => Hand1.dat1 (VV2 m) c
  | ⟨_ + 2, h⟩ => absurd h (Nat.not_lt.2 (Nat.le_add_left _ _))

/-- What rides beside the buffers through every item: the core's generator register at some state and its dues, at nothing. -/
abbrev R (c : Dev nD) : sProp 𝕄 := iprop((∃ r, prngReg c r) ∗ (∃ W, owes (c : Thread nD τ) (0 : CellTallies nD τ sig Unit) W))

abbrev heldAt (c : Dev nD) (W : Valuation τ sig (Elt F)) : sProp 𝕄 := StableHlo.held (c : Thread nD τ) (Pipeline.ucRefs τ sig) W

/-- At the first region's exit each of its arrays holds what the pipeline leaves: the inputs as entered, the result array
    its written-back blocks. -/
theorem hF0 (c : Dev nD) (w : Fin cfg0.W) : (Hand0.dat0 (VV1 m) c).arrAt w cfg0.N = VV2 m c (Pipeline.arrRef spec0 w) := by
  have n (r : Ref sig .tc) (h : r ≠ main_v7) : VV2 m c r = V1 m c r := by
    unfold VV2; exact Function.update_of_ne (StableHlo.devRef_ne_of_ne h) _ _
  match w with
  | ⟨0, _⟩ => exact (((Hand0.dat0 (VV1 m) c).arrAt_in 0 rfl _).trans (Hand0.dat0_A (VV1 m) c 0)).trans (n main_v0 (by decide)).symm
  | ⟨1, _⟩ => exact (((Hand0.dat0 (VV1 m) c).arrAt_in 1 rfl _).trans (Hand0.dat0_A (VV1 m) c 1)).trans (n main_v1 (by decide)).symm
  | ⟨2, _⟩ => exact (((Hand0.dat0 (VV1 m) c).arrAt_in 2 rfl _).trans (Hand0.dat0_A (VV1 m) c 2)).trans (n main_v4 (by decide)).symm
  | ⟨3, _⟩ => exact (((Hand0.dat0 (VV1 m) c).arrAt_in 3 rfl _).trans (Hand0.dat0_A (VV1 m) c 3)).trans (n main_v6 (by decide)).symm
  | ⟨4, _⟩ => exact (show VV2 m c main_v7 = o7 m c from by unfold VV2; exact Function.update_self _ _ _).symm

/-- and every other buffer what it held at entry. -/
theorem hrest0 (c : Dev nD) : ∀ b : Ref sig .tc, b ∉ Finset.univ.image (Pipeline.arrRef spec0) → VV2 m c b = V1 m c b := by
  intro b hb
  have hne : b ≠ main_v7 := fun e => hb (Finset.mem_image.mpr ⟨4, Finset.mem_univ _, e.symm⟩)
  unfold VV2; exact Function.update_of_ne (StableHlo.devRef_ne_of_ne hne) _ _

/-- At the second region's exit each of its arrays holds what the pipeline leaves: the inputs as entered, each result
    array its written-back blocks. -/
theorem hF1 (c : Dev nD) (w : Fin cfg1.W) : (Hand1.dat1 (VV2 m) c).arrAt w cfg1.N = VV3 m c (Pipeline.arrRef spec1 w) := by
  have n01 : (Proc.devRef .tc main_v8_0 : DevRef τ sig) ≠ Proc.devRef .tc main_v8_1 := StableHlo.devRef_ne_of_ne (by decide)
  have n02 : (Proc.devRef .tc main_v8_0 : DevRef τ sig) ≠ Proc.devRef .tc main_v8_2 := StableHlo.devRef_ne_of_ne (by decide)
  have n12 : (Proc.devRef .tc main_v8_1 : DevRef τ sig) ≠ Proc.devRef .tc main_v8_2 := StableHlo.devRef_ne_of_ne (by decide)
  have n (r : Ref sig .tc) (h0 : r ≠ main_v8_0) (h1 : r ≠ main_v8_1) (h2 : r ≠ main_v8_2) : VV3 m c r = VV2 m c r := by
    unfold VV3
    rw [Function.update_of_ne (StableHlo.devRef_ne_of_ne h2), Function.update_of_ne (StableHlo.devRef_ne_of_ne h1), Function.update_of_ne (StableHlo.devRef_ne_of_ne h0)]
  match w with
  | ⟨0, _⟩ => exact (((Hand1.dat1 (VV2 m) c).arrAt_in 0 rfl _).trans (Hand1.dat1_A (VV2 m) c 0)).trans (n main_v0 (by decide) (by decide) (by decide)).symm
  | ⟨1, _⟩ => exact (((Hand1.dat1 (VV2 m) c).arrAt_in 1 rfl _).trans (Hand1.dat1_A (VV2 m) c 1)).trans (n main_v1 (by decide) (by decide) (by decide)).symm
  | ⟨2, _⟩ => exact (((Hand1.dat1 (VV2 m) c).arrAt_in 2 rfl _).trans (Hand1.dat1_A (VV2 m) c 2)).trans (n main_v2 (by decide) (by decide) (by decide)).symm
  | ⟨3, _⟩ => exact (((Hand1.dat1 (VV2 m) c).arrAt_in 3 rfl _).trans (Hand1.dat1_A (VV2 m) c 3)).trans (n main_v4 (by decide) (by decide) (by decide)).symm
  | ⟨4, _⟩ => exact (((Hand1.dat1 (VV2 m) c).arrAt_in 4 rfl _).trans (Hand1.dat1_A (VV2 m) c 4)).trans (n main_v6 (by decide) (by decide) (by decide)).symm
  | ⟨5, _⟩ => exact (((Hand1.dat1 (VV2 m) c).arrAt_in 5 rfl _).trans (Hand1.dat1_A (VV2 m) c 5)).trans (n main_v7 (by decide) (by decide) (by decide)).symm
  | ⟨6, _⟩ => exact (show VV3 m c main_v8_0 = o8_0 m c from by
      unfold VV3; rw [Function.update_of_ne n02, Function.update_of_ne n01, Function.update_self]).symm
  | ⟨7, _⟩ => exact (show VV3 m c main_v8_1 = o8_1 m c from by
      unfold VV3; rw [Function.update_of_ne n12, Function.update_self]).symm
  | ⟨8, _⟩ => exact (show VV3 m c main_v8_2 = o8_2 m c from by unfold VV3; rw [Function.update_self]).symm

/-- and every other buffer what it held at entry. -/
theorem hrest1 (c : Dev nD) : ∀ b : Ref sig .tc, b ∉ Finset.univ.image (Pipeline.arrRef spec1) → VV3 m c b = VV2 m c b := by
  intro b hb
  have h0 : b ≠ main_v8_0 := fun e => hb (Finset.mem_image.mpr ⟨6, Finset.mem_univ _, e.symm⟩)
  have h1 : b ≠ main_v8_1 := fun e => hb (Finset.mem_image.mpr ⟨7, Finset.mem_univ _, e.symm⟩)
  have h2 : b ≠ main_v8_2 := fun e => hb (Finset.mem_image.mpr ⟨8, Finset.mem_univ _, e.symm⟩)
  unfold VV3
  rw [Function.update_of_ne (StableHlo.devRef_ne_of_ne h2), Function.update_of_ne (StableHlo.devRef_ne_of_ne h1), Function.update_of_ne (StableHlo.devRef_ne_of_ne h0)]

/-- The result arrays at the last boundary are what the second region leaves. -/
theorem VV3_v8_0 (c : Dev nD) : VV3 m c main_v8_0 = (Hand1.dat1 (VV2 m) c).arrAt 6 cfg1.N := (hF1 m c 6).symm
theorem VV3_v8_1 (c : Dev nD) : VV3 m c main_v8_1 = (Hand1.dat1 (VV2 m) c).arrAt 7 cfg1.N := (hF1 m c 7).symm
theorem VV3_v8_2 (c : Dev nD) : VV3 m c main_v8_2 = (Hand1.dat1 (VV2 m) c).arrAt 8 cfg1.N := (hF1 m c 8).symm
/-- The second region finds the first region's result array at what that region leaves, and every other buffer as the
    first region found it. -/
theorem VV2_v7 (c : Dev nD) : VV2 m c main_v7 = (Hand0.dat0 (VV1 m) c).arrAt 4 cfg0.N := (hF0 m c 4).symm
theorem VV2_of_ne (c : Dev nD) (r : Ref sig .tc) (h : r ≠ main_v7) : VV2 m c r = V1 m c r := by
  unfold VV2; exact Function.update_of_ne (StableHlo.devRef_ne_of_ne h) _ _

end Cert.KernelIdeal.Regs
end
-- ==== Proof.Frame0RunA.lean ====
/-
  Region 0's body run once at a point of the first key block of a row block (not the last): the two carried buffers, whatever they held, are reset and then updated from the point's blocks; the output buffer is handed back untouched.
  The body is run symbolically over its skeleton; what each buffer reads afterwards is the last whole-buffer store
  into it, and each whole-buffer load of an input reads the input block.
-/
import proofs.«101240_j549755814005_2_alg».proof.Proof.Frame0Defs

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where the first condition holds and the last does not: from the inputs' buffers at their blocks, the
    output's at `xo` and the two carried buffers at anything, the body runs to the inputs' and the output's as they
    were and the carried buffers at the update of the reset pair. -/
theorem kernelRun0_A (c : Dev nD) (E : Set ℕ) (i : grid0.Coords) (arg2 : Memref sig .tc .vmem S8x512x640 .bf16) (harg2 : arg2.IsWhole) (arg3 : Memref sig .tc .vmem S8x256x640 .bf16) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole)
    (hcF : condFirst i) (hcL : ¬condLast i) (q : Vec F S8x512x640 .bf16) (k : Vec F S8x256x640 .bf16) (qq : Vec F S8x512 .f32) (kk : Vec F S8x256 .f32) (xo : Vec F S8x512 .f32) (K : PUnit → sProp 𝕄) :
    iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ owns (c : Thread nD τ) arg7 fullShare (upd0 q k qq kk init0).1 ∗ owns (c : Thread nD τ) arg8 fullShare (upd0 q k qq kk init0).2) -∗ K ⟨⟩))
      ⊢ wp frame (wpE (defs₀ (F := F)) Variants.none c none) E (cc0__stats_kernel i arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  obtain rfl := harg6.eq_unread hf6
  sl_exec (disch := first | exact hcF | exact hcL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero]
    rw [View.readCov_cons_toLoadRect]
    rfl
  · iexists _; isplitr
    swap; · iexact H8
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero]
    rw [View.readCov_cons_toLoadRect, View.readCov_cons_toLoadRect]
    rfl

end Cert.KernelIdeal.Hand0

end
-- ==== Proof.Frame0RunB.lean ====
/-
  Region 0's body run once at a point of the middle key blocks of a row block (neither first nor last): the two carried buffers are updated from what the point before left and the point's blocks; the output buffer is handed back untouched.
  The body is run symbolically over its skeleton; what each buffer reads afterwards is the last whole-buffer store
  into it, and each whole-buffer load of an input reads the input block.
-/
import proofs.«101240_j549755814005_2_alg».proof.Proof.Frame0RunA

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where neither condition holds: from the inputs' buffers at their blocks, the output's at `xo` and the
    carried buffers at the pair `ml`, the body runs to the inputs' and the output's as they were and the carried buffers
    at the update of the pair `ml`. -/
theorem kernelRun0_B (c : Dev nD) (E : Set ℕ) (i : grid0.Coords) (arg2 : Memref sig .tc .vmem S8x512x640 .bf16) (harg2 : arg2.IsWhole) (arg3 : Memref sig .tc .vmem S8x256x640 .bf16) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole)
    (hcF : ¬condFirst i) (hcL : ¬condLast i) (q : Vec F S8x512x640 .bf16) (k : Vec F S8x256x640 .bf16) (qq : Vec F S8x512 .f32) (kk : Vec F S8x256 .f32) (ml : Vec F S8x512 .f32 × Vec F S8x512 .f32) (xo : Vec F S8x512 .f32) (K : PUnit → sProp 𝕄) :
    iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ owns (c : Thread nD τ) arg7 fullShare ml.1 ∗ owns (c : Thread nD τ) arg8 fullShare ml.2
        ∗ (iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare xo ∗ owns (c : Thread nD τ) arg7 fullShare (upd0 q k qq kk ml).1 ∗ owns (c : Thread nD τ) arg8 fullShare (upd0 q k qq kk ml).2) -∗ K ⟨⟩))
      ⊢ wp frame (wpE (defs₀ (F := F)) Variants.none c none) E (cc0__stats_kernel i arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hcF | exact hcL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero]
    rfl
  · iexists _; isplitr
    swap; · iexact H8
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero, readAt_whole_unread harg8 ml.2 _ off2_zero]
    rfl

end Cert.KernelIdeal.Hand0

end
-- ==== Proof.Frame0RunC.lean ====
/-
  Region 0's body run once at a point of the last key block of a row block (not the first): the two carried buffers are updated as at a middle point, and the output buffer, whatever it held, receives the maximum plus the logarithm of the sum of the updated pair.
  The body is run symbolically over its skeleton; what each buffer reads afterwards is the last whole-buffer store
  into it, and each whole-buffer load of an input reads the input block.
-/
import proofs.«101240_j549755814005_2_alg».proof.Proof.Frame0RunB

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point where the last condition holds and the first does not: from the inputs' buffers at their blocks, the
    output's at anything and the carried buffers at the pair `ml`, the body runs to the inputs' as they were, the carried
    buffers at the update of the pair `ml` and the output's at the updated maximum plus the logarithm of the updated sum. -/
theorem kernelRun0_C (c : Dev nD) (E : Set ℕ) (i : grid0.Coords) (arg2 : Memref sig .tc .vmem S8x512x640 .bf16) (harg2 : arg2.IsWhole) (arg3 : Memref sig .tc .vmem S8x256x640 .bf16) (harg3 : arg3.IsWhole) (arg4 : Memref sig .tc .vmem S8x512 .f32) (harg4 : arg4.IsWhole) (arg5 : Memref sig .tc .vmem S8x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole)
    (hcF : ¬condFirst i) (hcL : condLast i) (q : Vec F S8x512x640 .bf16) (k : Vec F S8x256x640 .bf16) (qq : Vec F S8x512 .f32) (kk : Vec F S8x256 .f32) (ml : Vec F S8x512 .f32 × Vec F S8x512 .f32) (K : PUnit → sProp 𝕄) :
    iprop(owns (c : Thread nD τ) arg2 fullShare q ∗ owns (c : Thread nD τ) arg3 fullShare k ∗ owns (c : Thread nD τ) arg4 fullShare qq ∗ owns (c : Thread nD τ) arg5 fullShare kk ∗ (∃ d, owns (c : Thread nD τ) arg6 fullShare d) ∗ owns (c : Thread nD τ) arg7 fullShare ml.1 ∗ owns (c : Thread nD τ) arg8 fullShare ml.2
        ∗ (iprop(owns (c : Thread nD τ) arg2 fullShare q ∗ owns (c : Thread nD τ) arg3 fullShare k ∗ owns (c : Thread nD τ) arg4 fullShare qq ∗ owns (c : Thread nD τ) arg5 fullShare kk ∗ owns (c : Thread nD τ) arg6 fullShare (k0_pay3 (upd0 q k qq kk ml).1 (upd0 q k qq kk ml).2) ∗ owns (c : Thread nD τ) arg7 fullShare (upd0 q k qq kk ml).1 ∗ owns (c : Thread nD τ) arg8 fullShare (upd0 q k qq kk ml).2) -∗ K ⟨⟩))
      ⊢ wp frame (wpE (defs₀ (F := F)) Variants.none c none) E (cc0__stats_kernel i arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8
  sl_exec (disch := first | exact hcF | exact hcL)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole _ _ _ off2_zero _ _ _).trans ?_
    sl_unfold_run_names
    rw [View.readCov_cons_toLoadRect, View.readCov_cons_toLoadRect]
    rw [readAt_whole_unread harg2 q _ off3_zero, readAt_whole_unread harg3 k _ off3_zero, readAt_whole_unread harg4 qq _ off2_zero, readAt_whole_unread harg5 kk _ off2_zero, readAt_whole_unread harg7 ml.1 _ off2_zero, readAt_whole_unread harg8 ml.2 _ off2_zero]
    rfl
  isplitl [H7]
  · iexists _; isplitr
    swap; · iexact H7
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero]
    rfl
  · iexists _; isplitr
    swap; · iexact H8
    ipureintro
    refine (read_writes_whole _ _ _ off2_zero _ _ _).trans ?_
    sl_unfold_run_names
    rw [readAt_whole_unread harg2 q _ off3_zero, readAt_whole_unread harg3 k _ off3_zero, readAt_whole_unread harg4 qq _ off2_zero, readAt_whole_unread harg5 kk _ off2_zero, readAt_whole_unread harg7 ml.1 _ off2_zero, readAt_whole_unread harg8 ml.2 _ off2_zero]
    rfl

end Cert.KernelIdeal.Hand0

end
-- ==== Proof.Frame0.lean ====
/-
  Region 0's body obligation: at every grid point the body, handed the invariant, each input window's staging buffer
  at its block and the output window's at what it held, runs to the invariant at the next point — the two carried
  buffers at the update (`upd0`) of the reset pair at a point that opens a row block, of what the point before left
  elsewhere — with the inputs' buffers as they were and the output's buffer at `out0` where the point closes a row
  block, untouched elsewhere. By cases on the point's position modulo 8, each case one run of the body.
-/
import proofs.«101240_j549755814005_2_alg».proof.Proof.Frame0RunC

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · -- a point that opens a row block
    have h7 : ¬t.val % 8 = 7 := by omega
    have hF : condFirst (grid0.coords t) := (hcondFirst t).mpr h0
    have hL : ¬condLast (grid0.coords t) := fun h => h7 ((hcondLast t).mp h)
    rw [Dat.leavesExact_idle (dat0 V c) 4 t (idleAt0_4 t hL) (noFlush0_4 t hL)]
    rw [scr0_first V c t h0]
    by_cases hz : t.val = 0
    · rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_A c Set.univ (grid0.coords t) _ _ _ _ _ _ _ _ _ _ _ _ _ _ hF hL (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_A c Set.univ (grid0.coords t) _ _ _ _ _ _ _ _ _ _ _ _ _ _ hF hL (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hF : ¬condFirst (grid0.coords t) := fun h => h0 ((hcondFirst t).mp h)
    rw [scr0_next V c t h0]
    rw [PhiS0_castSucc V c t, PhiS0_pos V c _ _ hz]
    by_cases h7 : t.val % 8 = 7
    · -- a point that closes a row block
      have hL : condLast (grid0.coords t) := (hcondLast t).mpr h7
      rw [show (dat0 V c).leavesExact 4 t = owns (c : Thread nD τ) (ms0_4 t) fullShare ((dat0 V c).after 4 t) from by
        unfold Dat.leavesExact; rw [liveAt0_4 t hL], after0_4]
      unfold out0
      rw [scr0_next V c t h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_C c Set.univ (grid0.coords t) _ _ _ _ _ _ _ _ _ _ _ _ _ _ hF hL (iblk0 V c 0 t) (iblk0 V c 1 t) (iblk0 V c 2 t) (iblk0 V c 3 t) (scr0 V c t.val (Nat.le_of_lt t.isLt)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexact H4
    · -- a point inside a row block
      have hL : ¬condLast (grid0.coords t) := fun h => h7 ((hcondLast t).mp h)
      rw [Dat.leavesExact_idle (dat0 V c) 4 t (idleAt0_4 t hL) (noFlush0_4 t hL)]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (kernelRun0_B c Set.univ (grid0.coords t) _ _ _ _ _ _ _ _ _ _ _ _ _ _ hF hL (iblk0 V c 0 t) (iblk0 V c 1 t) (iblk0 V c 2 t) (iblk0 V c 3 t) (scr0 V c t.val (Nat.le_of_lt t.isLt)) _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          · iexact Hrest
        · iexact Hg
      isplitl [Ho]; · iexact Ho
      isplitl [H0]; · iexact H0
      isplitl [H1]; · iexact H1
      isplitl [H2]; · iexact H2
      isplitl [H3]; · iexact H3
      iexists _; iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.Frame1RunB.lean ====
/- Region 1's body run once in the MIDDLE case (neither branch taken: a key step that is neither the first nor the last
   of its row block): on whole staging memrefs holding the six input blocks, the output block's buffer at any contents
   (handed back untouched) and the accumulator at `xs0`, the body leaves the attention and log-attention tiles in
   their buffers and the accumulator at `xs0` plus the tile times the value block. By symbolic execution of the
   skeleton; each whole-buffer store read back is the stored payload, each whole-buffer load the contents held. -/
import proofs.«101240_j549755814005_2_alg».proof.Proof.Frame1Defs

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The middle case of the body. -/
theorem kernelRun1_B (c : Dev nD) (i : grid1.Coords) (arg2 : Memref sig .tc .vmem S8x256x640 .bf16) (harg2 : arg2.IsWhole) (arg3 : Memref sig .tc .vmem S8x128x640 .bf16) (harg3 : arg3.IsWhole) (arg4 : Memref sig .tc .vmem S8x128x640 .bf16) (harg4 : arg4.IsWhole) (arg5 : Memref sig .tc .vmem S8x256 .f32) (harg5 : arg5.IsWhole) (arg6 : Memref sig .tc .vmem S8x128 .f32) (harg6 : arg6.IsWhole) (arg7 : Memref sig .tc .vmem S8x256 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x640 .f32) (harg10 : arg10.IsWhole) (arg11 : Memref sig .tc .vmem S8x256x640 .f32) (harg11 : arg11.IsWhole) (hc0 : ¬cond1_0 i) (hc1 : ¬cond1_1 i)
    (x0 : Vec F S8x256x640 .bf16) (x1 : Vec F S8x128x640 .bf16) (x2 : Vec F S8x128x640 .bf16) (x3 : Vec F S8x256 .f32) (x4 : Vec F S8x128 .f32) (x5 : Vec F S8x256 .f32) (xs0 : Vec F S8x256x640 .f32) :
    ∀ (xi8 : Vec F S8x256x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k1_pay4 x0 x1 x3 x4 x5) ∗ owns (c : Thread nD τ) arg9 fullShare (k1_pay3 x0 x1 x3 x4 x5) ∗ owns (c : Thread nD τ) arg10 fullShare xi8
                ∗ owns (c : Thread nD τ) arg11 fullShare (k1_pay1 (k1_pay4 x0 x1 x3 x4 x5) xs0 x2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  intro xi8 E K
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H7]
  · iexists _; isplitr
    swap; · iexact H7
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H8]
  · iexists _; isplitr; · ipureintro; exact harg10.read_unread _
    iexact H8
  iexists _; isplitr
  swap; · iexact HS0
  ipureintro
  refine (read_writes_full _ _ vec3_zero _ _).trans ?_
  rw [readAt_full harg2 x0 vec3_zero, readAt_full harg3 x1 vec3_zero, readAt_full harg5 x3 vec2_zero, readAt_full harg6 x4 vec2_zero, readAt_full harg7 x5 vec2_zero, readAt_full harg11 xs0 vec3_zero, readAt_full harg4 x2 vec3_zero]

end Cert.KernelIdeal.Hand1

end
-- ==== Proof.Frame1RunA.lean ====
/- Region 1's body run once in the FIRST case (the first key step of a row block: the accumulator is zeroed, then
   used): whatever the accumulator held, the body leaves it at zero plus the attention tile times the value block; the
   attention and log-attention tiles are stored; the output block's buffer is handed back untouched. -/
import proofs.«101240_j549755814005_2_alg».proof.Proof.Frame1RunB

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A store through the full rectangle at zero offsets, read back whole, is the stored value, whatever earlier stores
    and prior contents lie under it. -/
theorem read_writes_full_cons {sig : RefSig} {Val : EltTy → Type} [∀ e, Nonempty (Val e)] {κ : Kind} {sp : Space} {s : Shape} {e : EltTy}
    (v : View sig κ sp s e) (f : v.ty.Contents Val) {off : Fin s.rank → ℕ} (hoff : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst hoff
  rw [View.read_writes_eq_canon v f _ (fun y => ⟨_, List.mem_cons_self, by
    show y ∈ (Rect.whole s).set; rw [Rect.set_whole]; exact Finset.mem_univ _⟩)]
  funext y
  have h := View.canon_cons_emb (Val := Val) (Rect.whole s) w L y
  rwa [Rect.emb_whole_apply] at h

set_option maxHeartbeats 1000000 in
/-- The first case of the body. -/
theorem kernelRun1_A (c : Dev nD) (i : grid1.Coords) (arg2 : Memref sig .tc .vmem S8x256x640 .bf16) (harg2 : arg2.IsWhole) (arg3 : Memref sig .tc .vmem S8x128x640 .bf16) (harg3 : arg3.IsWhole) (arg4 : Memref sig .tc .vmem S8x128x640 .bf16) (harg4 : arg4.IsWhole) (arg5 : Memref sig .tc .vmem S8x256 .f32) (harg5 : arg5.IsWhole) (arg6 : Memref sig .tc .vmem S8x128 .f32) (harg6 : arg6.IsWhole) (arg7 : Memref sig .tc .vmem S8x256 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x640 .f32) (harg10 : arg10.IsWhole) (arg11 : Memref sig .tc .vmem S8x256x640 .f32) (harg11 : arg11.IsWhole) (hc0 : cond1_0 i) (hc1 : ¬cond1_1 i)
    (x0 : Vec F S8x256x640 .bf16) (x1 : Vec F S8x128x640 .bf16) (x2 : Vec F S8x128x640 .bf16) (x3 : Vec F S8x256 .f32) (x4 : Vec F S8x128 .f32) (x5 : Vec F S8x256 .f32) :
    ∀ (xi8 : Vec F S8x256x640 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k1_pay4 x0 x1 x3 x4 x5) ∗ owns (c : Thread nD τ) arg9 fullShare (k1_pay3 x0 x1 x3 x4 x5) ∗ owns (c : Thread nD τ) arg10 fullShare xi8
                ∗ owns (c : Thread nD τ) arg11 fullShare (k1_pay1 (k1_pay4 x0 x1 x3 x4 x5) k1_pay2 x2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  intro xi8 E K
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H7]
  · iexists _; isplitr
    swap; · iexact H7
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H8]
  · iexists _; isplitr; · ipureintro; exact harg10.read_unread _
    iexact H8
  iexists _; isplitr
  swap; · iexact HS0
  ipureintro
  have hv : kernelRun1_A.sl.v30 (F := F) c arg11 = k1_pay2 := by
    unfold kernelRun1_A.sl.v30 kernelRun1_A.sl.HS0_1
    exact View.readCov_cons_toLoadRect _ _ _ _
  refine (read_writes_full_cons _ _ vec3_zero _ _ _).trans ?_
  rw [hv, readAt_full harg2 x0 vec3_zero, readAt_full harg3 x1 vec3_zero, readAt_full harg5 x3 vec2_zero, readAt_full harg6 x4 vec2_zero, readAt_full harg7 x5 vec2_zero, readAt_full harg4 x2 vec3_zero]

end Cert.KernelIdeal.Hand1

end
-- ==== Proof.Frame1RunC.lean ====
/- Region 1's body run once in the LAST case (the last key step of a row block: after the accumulation the
   accumulator is copied into the output block's buffer): from the accumulator at `xs0`, both the accumulator and the
   output block's buffer end at `xs0` plus the attention tile times the value block. -/
import proofs.«101240_j549755814005_2_alg».proof.Proof.Frame1RunA

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The last case of the body. -/
theorem kernelRun1_C (c : Dev nD) (i : grid1.Coords) (arg2 : Memref sig .tc .vmem S8x256x640 .bf16) (harg2 : arg2.IsWhole) (arg3 : Memref sig .tc .vmem S8x128x640 .bf16) (harg3 : arg3.IsWhole) (arg4 : Memref sig .tc .vmem S8x128x640 .bf16) (harg4 : arg4.IsWhole) (arg5 : Memref sig .tc .vmem S8x256 .f32) (harg5 : arg5.IsWhole) (arg6 : Memref sig .tc .vmem S8x128 .f32) (harg6 : arg6.IsWhole) (arg7 : Memref sig .tc .vmem S8x256 .f32) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x640 .f32) (harg10 : arg10.IsWhole) (arg11 : Memref sig .tc .vmem S8x256x640 .f32) (harg11 : arg11.IsWhole) (hc0 : ¬cond1_0 i) (hc1 : cond1_1 i)
    (x0 : Vec F S8x256x640 .bf16) (x1 : Vec F S8x128x640 .bf16) (x2 : Vec F S8x128x640 .bf16) (x3 : Vec F S8x256 .f32) (x4 : Vec F S8x128 .f32) (x5 : Vec F S8x256 .f32) (xs0 : Vec F S8x256x640 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ owns (c : Thread nD τ) arg8 fullShare (k1_pay4 x0 x1 x3 x4 x5) ∗ owns (c : Thread nD τ) arg9 fullShare (k1_pay3 x0 x1 x3 x4 x5) ∗ owns (c : Thread nD τ) arg10 fullShare (k1_pay1 (k1_pay4 x0 x1 x3 x4 x5) xs0 x2)
                ∗ owns (c : Thread nD τ) arg11 fullShare (k1_pay1 (k1_pay4 x0 x1 x3 x4 x5) xs0 x2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11) K := by
  intro E K
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H7]
  · iexists _; isplitr
    swap; · iexact H7
    ipureintro
    refine (read_writes_full _ _ vec3_zero _ _).trans ?_
    rw [readAt_full harg2 x0 vec3_zero, readAt_full harg3 x1 vec3_zero, readAt_full harg5 x3 vec2_zero, readAt_full harg6 x4 vec2_zero, readAt_full harg7 x5 vec2_zero]
  isplitl [H8]
  · iexists _; isplitr
    swap; · iexact H8
    ipureintro
    refine (read_writes_full _ _ vec3_zero _ _).trans ?_
    unfold kernelRun1_C.sl.v42 kernelRun1_C.sl.HS0_1
    refine (View.readCov_cons_toLoadRect _ _ _ _).trans ?_
    rw [readAt_full harg2 x0 vec3_zero, readAt_full harg3 x1 vec3_zero, readAt_full harg5 x3 vec2_zero, readAt_full harg6 x4 vec2_zero, readAt_full harg7 x5 vec2_zero, readAt_full harg11 xs0 vec3_zero, readAt_full harg4 x2 vec3_zero]
  iexists _; isplitr
  swap; · iexact HS0
  ipureintro
  unfold kernelRun1_C.sl.HS0_1
  refine (read_writes_full _ _ vec3_zero _ _).trans ?_
  rw [readAt_full harg2 x0 vec3_zero, readAt_full harg3 x1 vec3_zero, readAt_full harg5 x3 vec2_zero, readAt_full harg6 x4 vec2_zero, readAt_full harg7 x5 vec2_zero, readAt_full harg11 xs0 vec3_zero, readAt_full harg4 x2 vec3_zero]

end Cert.KernelIdeal.Hand1

end
-- ==== Proof.Frame1.lean ====
/- Region 1's BODY OBLIGATION and the two ends of its invariant, over the proof data of Frame1Defs.lean: at every grid
   point, from the invariant (the accumulator at what the point before left, at anything before the first point), the
   inputs' staging buffers at their blocks and the outputs' at anything, the body runs to the invariant at this point's
   accumulator, the attention and log-attention tiles in their buffers, and — at a last key step — the accumulator in
   the output block's buffer (elsewhere that buffer is handed back as found). One run per control case
   (Frame1RunA/B/C.lean), selected by the point's key step. -/
import proofs.«101240_j549755814005_2_alg».proof.Proof.Frame1RunC

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → Valuation τ sig (Elt F))

/-! ## The accumulator's state moved in and out of the invariant's scoped part -/

theorem scoped1_open (c : Dev nD) (X : sProp 𝕄) : scoped1 (F := F) c X ⊢ iprop(scoped1 c iprop(emp) ∗ X) := by
  unfold scoped1
  iintro ⟨R0, R1, R2, R3, R4, R5, R6, R7, R8, R9, R10, R11, HX⟩
  isplitr [HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iempintro
  iexact HX

theorem scoped1_close (c : Dev nD) (X : sProp 𝕄) : iprop(scoped1 c iprop(emp) ∗ X) ⊢ scoped1 (F := F) c X := by
  unfold scoped1
  iintro ⟨⟨R0, R1, R2, R3, R4, R5, R6, R7, R8, R9, R10, R11, -⟩, HX⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HX

/-- What the accumulator holds may be forgotten. -/
theorem scoped1_forget (c : Dev nD) (x : Vec F S8x256x640 .f32) :
    scoped1 (F := F) c (owns (c : Thread nD τ) scM1_0 fullShare x) ⊢ scoped1 c (iprop(∃ d, owns (c : Thread nD τ) scM1_0 fullShare d)) :=
  scoped1_mono c (by iintro H; iexists _; iexact H)

/-! ## What the body finds in the inputs' staging buffers: their blocks, fetched at the point or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [dat1_A]; try rfl) t d).trans
    (by unfold Dat.fetched Dat.blockOf iblk1; rw [dat1_A]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' buffers hold their blocks; the point's key step selects the case (first: the
    accumulator is zeroed, whatever it held; middle; last: the accumulator is also copied to the output block's
    buffer, which is idle and handed back untouched at the other steps); the invariant hands the run the accumulator
    at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [PhiS1_castSucc V c t]
  by_cases h0 : t.val % 16 = 0
  · have h1 : ¬t.val % 16 = 15 := by omega
    rw [Dat.leavesExact_idle (dat1 V c) 8 t (idleAt1_8 t (fun h => h1 ((hcond1_1 t).mp h))) (noFlush1_8 t (fun h => h1 ((hcond1_1 t).mp h)))]
    rw [acc1_first V c t h0]
    have hPhi : PhiS1 V c t.val (Nat.le_of_lt t.isLt) ⊢ iprop(scoped1 c (iprop(∃ d, owns (c : Thread nD τ) scM1_0 fullShare d)) ∗ (∃ r, prngReg c r)) := by
      by_cases hz : t.val = 0
      · rw [PhiS1_zero V c _ _ hz, PhiA1_eq]; try exact Entails.refl _
      · rw [PhiS1_pos V c _ _ hz]
        iintro ⟨HS, Hg⟩
        isplitl [HS]
        · iapply (scoped1_forget c (acc1 V c t.val (Nat.le_of_lt t.isLt)))
          iexact HS
        iexact Hg
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP' := hPhi $$ HP
    icases HP' with ⟨HSc, Hg⟩
    ihave HS := (scoped1_open c _) $$ HSc
    icases HS with ⟨HR, HS0⟩
    iapply (kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    iintro ⟨H0, H1, H2, H3, H4, H5, H6, H7, H8, HS0⟩
    isplitl [HR HS0 Hg]
    · isplitl [HR HS0]
      · iapply scoped1_close; isplitl [HR]; · iexact HR
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun e => h0 (by rw [e])
    rw [PhiS1_pos V c _ _ hz]
    rw [acc1_next V c t h0]
    by_cases h1 : t.val % 16 = 15
    · rw [show (dat1 V c).leavesExact 8 t = owns (c : Thread nD τ) (ms1_8 t) fullShare ((dat1 V c).after 8 t) from by
        unfold Dat.leavesExact; rw [liveAt1_8 t ((hcond1_1 t).mpr h1)], after1_8, acc1_next V c t h0]
      iintro ⟨⟨HSc, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HS := (scoped1_open c _) $$ HSc
      icases HS with ⟨HR, HS0⟩
      iapply (kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, H6, H7, H8, HS0⟩
      isplitl [HR HS0 Hg]
      · isplitl [HR HS0]
        · iapply scoped1_close; isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat1 V c) 8 t (idleAt1_8 t (fun h => h1 ((hcond1_1 t).mp h))) (noFlush1_8 t (fun h => h1 ((hcond1_1 t).mp h)))]
      iintro ⟨⟨HSc, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HS := (scoped1_open c _) $$ HSc
      icases HS with ⟨HR, HS0⟩
      iapply (kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS0]; · iexact HS0
      iintro ⟨H0, H1, H2, H3, H4, H5, H6, H7, H8, HS0⟩
      isplitl [HR HS0 Hg]
      · isplitl [HR HS0]
        · iapply scoped1_close; isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hg⟩
  isplitl [HS]
  · iapply (scoped1_forget c (acc1 V c t.val (Nat.le_of_lt_succ t.isLt)))
    iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand1

end
-- ==== Proof.Regs.lean ====
/-
  The two kernel regions as items of the program's run. A region is entered with every unscoped buffer of the core at
  the contents of the boundary before it, beside the core's generator register and its dues; its windows' arrays are
  split out of those buffers and handed to the pipeline at the proof data's entry contents, the generator register goes
  into the body's invariant and comes back, and at the exit the arrays — the result arrays now at what the
  written-back blocks fold to — are put back among the buffers, which are then at the contents of the boundary after it.
-/
import proofs.«101240_j549755814005_2_alg».proof.Proof.RegsDefs
import proofs.«101240_j549755814005_2_alg».proof.Proof.Frame0
import proofs.«101240_j549755814005_2_alg».proof.Proof.Frame1

set_option maxRecDepth 16384

noncomputable section

namespace Cert.KernelIdeal.Regs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The first region over the thread state: entered from every unscoped buffer at the contents the host operations
    leave, left with its result array at what the pipeline leaves there. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hand0.body_obligation0 (VV1 m) c).loose
  hwaits := Pipeline.hwaits_of_owed_zero _ _ _ _ L lv 0 fun _ _ => rfl
  pre c := iprop(heldAt c (V1 m c) ∗ R c)
  post c := iprop(heldAt c (VV2 m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hand0.hin0 (VV1 m) c)
    unfold Pipeline.ΦA
    iintro ⟨Hp, -, Hr⟩
    isplitl [Hr]; · iexact Hr
    iexact Hp
  hout c := by
    rw [Pipeline.ownSems0_none]
    refine BIBase.Entails.trans (Hand0.hout0 (VV1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => VV2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the first region's exit contents,
    left with its three result arrays at what the pipeline leaves there. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hand1.body_obligation1 (VV2 m) c).loose
  hwaits := Pipeline.hwaits_of_owed_zero _ _ _ _ L lv 1 fun _ _ => rfl
  pre c := iprop(heldAt c (VV2 m c) ∗ R c)
  post c := iprop(heldAt c (VV3 m c) ∗ R c)
  X c := iprop(∃ r, prngReg c r)
  Y c := iprop(∃ r, prngReg c r)
  Z c := Pipeline.unscopedRest (Ix := Unit) (Name := ℕ) (U := UR sig nD τ) (Lvl := ℕ) spec1 c (fun b => VV2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => VV2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hand1.hin1 (VV2 m) c)
    unfold Pipeline.ΦA
    iintro ⟨Hp, -, Hr⟩
    isplitl [Hr]; · iexact Hr
    iexact Hp
  hout c := by
    rw [Pipeline.ownSems0_none]
    refine BIBase.Entails.trans (Hand1.hout1 (VV2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => VV2 m c b) (fun b => VV3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regs
end
-- ==== Proof.KernelRun.lean ====
/-
  The run of the whole program from the two regions' records: the conditional run instantiated at the plain launch
  (nothing owed at launch, no ghost state beyond the staging cells', the generator register and the core's empty dues
  riding beside the buffers through every item), and from it the frame: the argument arrays end as launched.
-/
import proofs.«101240_j549755814005_2_alg».proof.Proof.Regs

set_option maxRecDepth 16384

noncomputable section

namespace Cert.KernelIdeal.Regs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

-- the launch theorem's implicit arguments are found by unifying its conclusion with this one, which takes unfolding
-- plain definitions in a metavariable's type
set_option backward.isDefEq.respectTransparency.types false in
/-- THE RUN. From any memory with zero counters every weakly fair execution of the program terminates, and in every
    final memory each unscoped buffer of a core holds the last boundary's contents: the launch contents carried through
    the host operations, with each region's result arrays at what that region's write-backs leave. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = VV3 m c b) := by
  have h := Gen.run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl)
    (hpost0 := fun c => by rw [V2_eq]; first | done | exact .rfl)
    (R1 := reg1 m) (hpre1 := fun c => by rw [V2_eq]; first | done | exact .rfl)
    (hpost1 := fun c => by rw [V3_eq]; first | done | exact .rfl)
  exact (θ_run defs _ _).mono (fun r hr c b hb => (hr c b hb).trans (congrFun (V3_eq m c) b)) h

/-- THE FRAME: every weakly fair execution terminates and every final memory holds each argument array as launched —
    no host operation writes an argument and no region may change one, so the last boundary's contents at an argument
    are the launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  have e := fun b hb => (h c b hb).trans (congrFun (V3_eq m c).symm b)
  exact ⟨(e (Proc.devRef .tc main_arg0) (Finset.mem_filter.mpr ⟨StableHlo.devRef_mem_tcRefs main_arg0, by decide⟩)).trans (V3_main_arg0 m (outs m) c),
    (e (Proc.devRef .tc main_arg1) (Finset.mem_filter.mpr ⟨StableHlo.devRef_mem_tcRefs main_arg1, by decide⟩)).trans (V3_main_arg1 m (outs m) c),
    (e (Proc.devRef .tc main_arg2) (Finset.mem_filter.mpr ⟨StableHlo.devRef_mem_tcRefs main_arg2, by decide⟩)).trans (V3_main_arg2 m (outs m) c)⟩

end Cert.KernelIdeal.Regs

end
-- ==== Proof.Spec.lean ====
/-
  The mathematical content of the certificate, over real arrays `q k v : batch × row × feature`.
  `score` is the negated squared Euclidean distance of a query row and a key row, expanded as
  `(2 q·k − |q|² − |k|²) / 13`; `logAttn` is its row-wise log-softmax, written through the row maximum
  `rowMax` and the shifted exponential sum `rowSum`; `attn` is the softmax itself and `out` the
  attention-weighted sum of the value rows. `lift2` / `lift3` embed a real array into an array of
  extended reals over the literal index types the programs use.
-/
import Idealize.ShloMosaic.PureOps.Ideal
import Idealize.ShloMosaic.Lib.ValueIdx

noncomputable section

namespace Cert.Attn

open Idealize.ShloMosaic

/-- A real rank-3 array as an array of extended reals over the literal shape `[A, B, C]`. -/
def lift3 {A B C : ℕ} (f : Fin A → Fin B → Fin C → ℝ) : (⟨3, ![A, B, C]⟩ : Shape).Idx → EReal :=
  fun x => ((f (x 0) (x 1) (x 2) : ℝ) : EReal)

/-- A real rank-2 array as an array of extended reals over the literal shape `[A, B]`. -/
def lift2 {A B : ℕ} (f : Fin A → Fin B → ℝ) : (⟨2, ![A, B]⟩ : Shape).Idx → EReal :=
  fun x => ((f (x 0) (x 1) : ℝ) : EReal)

section
variable {B L D : ℕ} [NeZero L]

/-- The squared norm of row `i` of batch `b`. -/
def sqn (x : Fin B → Fin L → Fin D → ℝ) (b : Fin B) (i : Fin L) : ℝ := ∑ d, x b i d * x b i d

/-- The inner product of query row `i` and key row `j`. -/
def dotqk (q k : Fin B → Fin L → Fin D → ℝ) (b : Fin B) (i j : Fin L) : ℝ := ∑ d, q b i d * k b j d

/-- The attention logit: minus the squared distance of the two rows, over 13. -/
def score (q k : Fin B → Fin L → Fin D → ℝ) (b : Fin B) (i j : Fin L) : ℝ :=
  (2 * dotqk q k b i j - sqn q b i - sqn k b j) / 13

/-- The largest logit of a query row. -/
def rowMax (q k : Fin B → Fin L → Fin D → ℝ) (b : Fin B) (i : Fin L) : ℝ :=
  Finset.univ.sup' Finset.univ_nonempty (fun j => score q k b i j)

/-- The sum of the exponentials of a query row's logits, shifted by the row's maximum. -/
def rowSum (q k : Fin B → Fin L → Fin D → ℝ) (b : Fin B) (i : Fin L) : ℝ :=
  ∑ j, Real.exp (score q k b i j - rowMax q k b i)

/-- The log-softmax of the logits along the key axis. -/
def logAttn (q k : Fin B → Fin L → Fin D → ℝ) (b : Fin B) (i j : Fin L) : ℝ :=
  score q k b i j - rowMax q k b i - Real.log (rowSum q k b i)

/-- The softmax of the logits along the key axis. -/
def attn (q k : Fin B → Fin L → Fin D → ℝ) (b : Fin B) (i j : Fin L) : ℝ := Real.exp (logAttn q k b i j)

/-- The attention output: the softmax-weighted sum of the value rows. -/
def out (q k v : Fin B → Fin L → Fin D → ℝ) (b : Fin B) (i : Fin L) (d : Fin D) : ℝ :=
  ∑ j, attn q k b i j * v b j d

end

end Cert.Attn

end
-- ==== Proof.Algebra.lean ====
/-
  Elementary facts used to read a streaming (tile by tile) softmax as the textbook row-wise one.
  Part one: arithmetic of extended reals at finite values, so that a step computed in extended
  reals can be moved to the real numbers. Part two: the streaming recurrences for the running
  maximum and the running shifted exponential sum over tiles of columns. Part three: regrouping a
  row of `T * W` columns as `T` tiles of `W` columns, and the resulting identities for the row
  maximum, the shifted exponential sum, the log-softmax and the attention output.
-/
import Idealize.ShloMosaic.PureOps.Ideal
import Idealize.ShloMosaic.Lib.ValueIdx
import proofs.«101240_j549755814005_2_alg».proof.Proof.Spec
import Mathlib.Analysis.SpecialFunctions.Log.Basic
import Mathlib.Analysis.SpecialFunctions.Exp
import Mathlib.Data.EReal.Operations
import Mathlib.Algebra.BigOperators.Fin
import Mathlib.Order.Filter.Basic

noncomputable section

namespace Cert.Attn.Alg

open Idealize.ShloMosaic
open scoped BigOperators

/-! ### Extended reals at finite values -/

/-- The running maximum starts at `-∞`: the first tile's maximum replaces it. -/
@[simp] theorem max_bot_coe (x : ℝ) : max (⊥ : EReal) (x : EReal) = (x : EReal) :=
  max_eq_right bot_le

@[simp] theorem max_coe_bot (x : ℝ) : max (x : EReal) (⊥ : EReal) = (x : EReal) :=
  max_eq_left bot_le

/-- `-∞ - x = -∞` for a real `x`. -/
@[simp] theorem bot_sub_coe (x : ℝ) : (⊥ : EReal) - (x : EReal) = ⊥ := EReal.bot_sub _

/-- The first tile's rescaling factor `exp (-∞ - x)` is zero. -/
@[simp] theorem exp_bot_sub_coe (x : ℝ) : Ideal.exp ((⊥ : EReal) - (x : EReal)) = 0 := by
  rw [bot_sub_coe, Ideal.exp_bot]

/-- The first tile's sum: the rescaled empty sum `0 * 0` contributes nothing. -/
@[simp] theorem zero_mul_zero_add_coe (s : ℝ) : (0 : EReal) * 0 + (s : EReal) = (s : EReal) := by
  rw [mul_zero, zero_add]

theorem zero_mul_add_coe (z : EReal) (s : ℝ) : (0 : EReal) * z + (s : EReal) = (s : EReal) := by
  rw [zero_mul, zero_add]

theorem max_coe_coe (x y : ℝ) : max (x : EReal) (y : EReal) = ((max x y : ℝ) : EReal) :=
  (EReal.coe_strictMono.monotone.map_max).symm

theorem sub_coe_coe (x y : ℝ) : (x : EReal) - (y : EReal) = ((x - y : ℝ) : EReal) :=
  (EReal.coe_sub x y).symm

theorem add_coe_coe (x y : ℝ) : (x : EReal) + (y : EReal) = ((x + y : ℝ) : EReal) :=
  (EReal.coe_add x y).symm

theorem mul_coe_coe (x y : ℝ) : (x : EReal) * (y : EReal) = ((x * y : ℝ) : EReal) :=
  (EReal.coe_mul x y).symm

theorem neg_coe (x : ℝ) : -(x : EReal) = ((-x : ℝ) : EReal) := (EReal.coe_neg x).symm

theorem exp_coe (x : ℝ) : Ideal.exp (x : EReal) = ((Real.exp x : ℝ) : EReal) := Ideal.exp_coe x

/-- The logarithm of a positive real, in extended reals, is the real logarithm. -/
theorem log_coe_pos {x : ℝ} (hx : 0 < x) : Ideal.log (x : EReal) = ((Real.log x : ℝ) : EReal) := by
  rw [Ideal.log_coe, if_neg (not_le.mpr hx)]

/-- Division by the real constant `13`. -/
theorem div_coe_thirteen (x : ℝ) : Ideal.div (x : EReal) ((13 : ℝ) : EReal) = ((x / 13 : ℝ) : EReal) := by
  rw [Ideal.div_coe (by norm_num : (13 : ℝ) ≠ 0), mul_coe_coe, mul_one_div]

/-- Division by a nonzero real constant. -/
theorem div_coe_coe (x : ℝ) {y : ℝ} (hy : y ≠ 0) :
    Ideal.div (x : EReal) (y : EReal) = ((x / y : ℝ) : EReal) := by
  rw [Ideal.div_coe hy, mul_coe_coe, mul_one_div]

/-- A finite sum of reals, summed in extended reals. -/
theorem sum_coe {ι : Type*} (s : Finset ι) (g : ι → ℝ) :
    (∑ j ∈ s, ((g j : ℝ) : EReal)) = ((∑ j ∈ s, g j : ℝ) : EReal) := by
  classical
  induction s using Finset.induction_on with
  | empty => simp
  | insert a s ha ih => rw [Finset.sum_insert ha, Finset.sum_insert ha, ih, EReal.coe_add]

/-- A finite nonempty supremum of reals, taken in extended reals. -/
theorem sup'_coe {ι : Type*} (s : Finset ι) (hs : s.Nonempty) (g : ι → ℝ) :
    s.sup' hs (fun j => ((g j : ℝ) : EReal)) = ((s.sup' hs g : ℝ) : EReal) :=
  (Finset.comp_sup'_eq_sup'_comp hs (fun r : ℝ => (r : EReal))
    (fun _ _ => EReal.coe_strictMono.monotone.map_max)).symm

/-- A real is neither infinity. -/
theorem coe_toReal_eq (x : ℝ) : ((x : EReal)).toReal = x := EReal.toReal_coe x

/-! ### The streaming recurrences over tiles of columns -/

section Online
variable {W : ℕ} [NeZero W]

/-- The largest logit of tile `n`. -/
def tileMax (a : ℕ → Fin W → ℝ) (n : ℕ) : ℝ := Finset.univ.sup' Finset.univ_nonempty (a n)

/-- The exponential sum of tile `n`, shifted by `m`. -/
def tileSum (a : ℕ → Fin W → ℝ) (n : ℕ) (m : ℝ) : ℝ := ∑ j, Real.exp (a n j - m)

/-- The running maximum after tiles `0, …, n`. -/
def runMax (a : ℕ → Fin W → ℝ) : ℕ → ℝ
  | 0 => tileMax a 0
  | n + 1 => max (runMax a n) (tileMax a (n + 1))

/-- The running exponential sum after tiles `0, …, n`, rescaled at every step to the new maximum. -/
def runSum (a : ℕ → Fin W → ℝ) : ℕ → ℝ
  | 0 => tileSum a 0 (runMax a 0)
  | n + 1 => Real.exp (runMax a n - runMax a (n + 1)) * runSum a n + tileSum a (n + 1) (runMax a (n + 1))

theorem tileMax_def (a : ℕ → Fin W → ℝ) (n : ℕ) :
    tileMax a n = Finset.univ.sup' Finset.univ_nonempty (a n) := rfl

theorem tileSum_def (a : ℕ → Fin W → ℝ) (n : ℕ) (m : ℝ) :
    tileSum a n m = ∑ j, Real.exp (a n j - m) := rfl

@[simp] theorem runMax_zero (a : ℕ → Fin W → ℝ) : runMax a 0 = tileMax a 0 := rfl

@[simp] theorem runMax_succ (a : ℕ → Fin W → ℝ) (n : ℕ) :
    runMax a (n + 1) = max (runMax a n) (tileMax a (n + 1)) := rfl

@[simp] theorem runSum_zero (a : ℕ → Fin W → ℝ) : runSum a 0 = tileSum a 0 (runMax a 0) := rfl

@[simp] theorem runSum_succ (a : ℕ → Fin W → ℝ) (n : ℕ) :
    runSum a (n + 1)
      = Real.exp (runMax a n - runMax a (n + 1)) * runSum a n + tileSum a (n + 1) (runMax a (n + 1)) := rfl

/-- The running maximum is below `c` exactly when every tile maximum so far is. -/
theorem runMax_le_iff (a : ℕ → Fin W → ℝ) (n : ℕ) (c : ℝ) :
    runMax a n ≤ c ↔ ∀ t, t ≤ n → tileMax a t ≤ c := by
  induction n with
  | zero =>
    constructor
    · intro h t ht
      rw [Nat.le_zero.mp ht]; exact h
    · intro h; exact h 0 le_rfl
  | succ n ih =>
    rw [runMax_succ, max_le_iff, ih]
    constructor
    · rintro ⟨h1, h2⟩ t ht
      rcases Nat.of_le_succ ht with h | h
      · exact h1 t h
      · rw [h]; exact h2
    · intro h
      exact ⟨fun t ht => h t (Nat.le_succ_of_le ht), h _ le_rfl⟩

/-- The running maximum after tile `n` is the maximum over the tiles `0, …, n` of the tile maxima. -/
theorem runMax_eq_sup' (a : ℕ → Fin W → ℝ) (n : ℕ) :
    runMax a n = (Finset.range (n + 1)).sup' Finset.nonempty_range_add_one (fun t => tileMax a t) := by
  apply eq_of_forall_ge_iff
  intro c
  rw [runMax_le_iff, Finset.sup'_le_iff]
  constructor
  · intro h t ht; exact h t (Nat.lt_succ_iff.mp (Finset.mem_range.mp ht))
  · intro h t ht; exact h t (Finset.mem_range.mpr (Nat.lt_succ_iff.mpr ht))

/-- The same, with the tile maxima spelled out: a maximum over tiles of maxima over columns. -/
theorem runMax_eq_sup'_sup' (a : ℕ → Fin W → ℝ) (n : ℕ) :
    runMax a n = (Finset.range (n + 1)).sup' Finset.nonempty_range_add_one
      (fun t => Finset.univ.sup' Finset.univ_nonempty (fun j => a t j)) :=
  runMax_eq_sup' a n

/-- Every logit of the tiles seen so far is at most the running maximum. -/
theorem le_runMax (a : ℕ → Fin W → ℝ) {t n : ℕ} (ht : t ≤ n) (j : Fin W) : a t j ≤ runMax a n :=
  le_trans (Finset.le_sup' (a t) (Finset.mem_univ j)) ((runMax_le_iff a n _).mp le_rfl t ht)

/-- The running sum after tile `n` is the exponential sum over all columns of the tiles
    `0, …, n`, shifted by the running maximum after tile `n`. -/
theorem runSum_eq_sum (a : ℕ → Fin W → ℝ) (n : ℕ) :
    runSum a n = ∑ t ∈ Finset.range (n + 1), ∑ j, Real.exp (a t j - runMax a n) := by
  induction n with
  | zero =>
    rw [runSum_zero, Finset.range_one, Finset.sum_singleton]; rfl
  | succ n ih =>
    rw [runSum_succ, ih, Finset.sum_range_succ _ (n + 1), Finset.mul_sum, tileSum_def]
    congr 1
    apply Finset.sum_congr rfl
    intro t _
    rw [Finset.mul_sum]
    apply Finset.sum_congr rfl
    intro j _
    rw [← Real.exp_add]
    congr 1
    ring

theorem runSum_pos (a : ℕ → Fin W → ℝ) (n : ℕ) : 0 < runSum a n := by
  rw [runSum_eq_sum]
  apply Finset.sum_pos
  · intro t _
    exact Finset.sum_pos (fun j _ => Real.exp_pos _) Finset.univ_nonempty
  · exact Finset.nonempty_range_add_one

/-- Any two sequences obeying the streaming recurrences up to step `N` are the running maximum
    and the running sum. -/
theorem eq_runMax_runSum (a : ℕ → Fin W → ℝ) (mt lt : ℕ → ℝ) (N : ℕ)
    (hm0 : mt 0 = Finset.univ.sup' Finset.univ_nonempty (fun j => a 0 j))
    (hl0 : lt 0 = ∑ j, Real.exp (a 0 j - mt 0))
    (hm : ∀ n, n < N → mt (n + 1)
      = max (mt n) (Finset.univ.sup' Finset.univ_nonempty (fun j => a (n + 1) j)))
    (hl : ∀ n, n < N → lt (n + 1)
      = Real.exp (mt n - mt (n + 1)) * lt n + ∑ j, Real.exp (a (n + 1) j - mt (n + 1))) :
    ∀ n, n ≤ N → mt n = runMax a n ∧ lt n = runSum a n := by
  intro n
  induction n with
  | zero =>
    intro _
    refine ⟨hm0, ?_⟩
    rw [hl0, hm0]; rfl
  | succ n ih =>
    intro hn
    obtain ⟨h1, h2⟩ := ih (Nat.le_of_succ_le hn)
    have h3 : mt (n + 1) = runMax a (n + 1) := by
      rw [hm n hn, h1]; rfl
    refine ⟨h3, ?_⟩
    rw [hl n hn, h3, h1, h2]; rfl

end Online

/-! ### Regrouping a row of `T * W` columns into `T` tiles of `W` columns -/

section Regroup
variable {T W L : ℕ}

/-- Column `j` of tile `n` of a row of `L = T * W` columns, as a total function of `n`
    (reduced modulo `L`; for `n < T` nothing is reduced). -/
def colOf (W L : ℕ) [NeZero L] (n : ℕ) (j : Fin W) : Fin L :=
  ⟨(n * W + j) % L, Nat.mod_lt _ (NeZero.pos L)⟩

theorem tile_col_lt (hL : L = T * W) {n : ℕ} (hn : n < T) (j : Fin W) : n * W + j < L := by
  subst hL
  calc n * W + j < n * W + W := Nat.add_lt_add_left j.isLt _
    _ = (n + 1) * W := by ring
    _ ≤ T * W := Nat.mul_le_mul_right W hn

theorem colOf_val [NeZero L] (hL : L = T * W) (n : ℕ) (hn : n < T) (j : Fin W) :
    ((colOf W L n j : Fin L) : ℕ) = n * W + j :=
  Nat.mod_eq_of_lt (tile_col_lt hL hn j)

/-- Every column of the row lies in exactly one tile. -/
theorem exists_tile_col (hL : L = T * W) (i : Fin L) :
    ∃ n, n < T ∧ ∃ j : Fin W, (i : ℕ) = n * W + j := by
  obtain ⟨x, hx⟩ := i
  have hx' : x < T * W := by rw [← hL]; exact hx
  have hW : 0 < W := by
    rcases Nat.eq_zero_or_pos W with h | h
    · rw [h, Nat.mul_zero] at hx'; exact absurd hx' (Nat.not_lt_zero _)
    · exact h
  refine ⟨x / W, Nat.div_lt_of_lt_mul (by rw [Nat.mul_comm]; exact hx'),
    ⟨x % W, Nat.mod_lt _ hW⟩, ?_⟩
  exact (Nat.div_add_mod' x W).symm

/-- A sum over the row is the sum over tiles of the sums over each tile's columns. -/
theorem sum_regroup (hL : L = T * W) (col : ℕ → Fin W → Fin L)
    (hcol : ∀ n, n < T → ∀ j : Fin W, ((col n j : Fin L) : ℕ) = n * W + j) (f : Fin L → ℝ) :
    ∑ i, f i = ∑ t ∈ Finset.range T, ∑ j, f (col t j) := by
  subst hL
  rw [← Fin.sum_univ_eq_sum_range (fun t => ∑ j, f (col t j)) T,
    ← Equiv.sum_comp finProdFinEquiv f, Fintype.sum_prod_type]
  apply Finset.sum_congr rfl
  intro n _
  apply Finset.sum_congr rfl
  intro j _
  congr 1
  apply Fin.ext
  rw [hcol n n.isLt j, finProdFinEquiv_apply_val]
  show (j : ℕ) + W * (n : ℕ) = (n : ℕ) * W + (j : ℕ)
  rw [Nat.add_comm, Nat.mul_comm]

/-- The maximum over the row is the maximum over tiles of the maxima over each tile's columns. -/
theorem sup'_regroup [NeZero L] [NeZero T] [NeZero W] (hL : L = T * W) (col : ℕ → Fin W → Fin L)
    (hcol : ∀ n, n < T → ∀ j : Fin W, ((col n j : Fin L) : ℕ) = n * W + j) (f : Fin L → ℝ) :
    Finset.univ.sup' Finset.univ_nonempty f
      = (Finset.range T).sup' (Finset.nonempty_range_iff.mpr (NeZero.ne T))
          (fun t => Finset.univ.sup' Finset.univ_nonempty (fun j => f (col t j))) := by
  apply le_antisymm
  · apply Finset.sup'_le
    intro i _
    obtain ⟨n, hn, j, hij⟩ := exists_tile_col hL i
    have hi : i = col n j := Fin.ext (by rw [hcol n hn j, hij])
    rw [hi]
    exact Finset.le_sup'_of_le _ (Finset.mem_range.mpr hn)
      (Finset.le_sup' (fun j => f (col n j)) (Finset.mem_univ j))
  · apply Finset.sup'_le
    intro t _
    apply Finset.sup'_le
    intro j _
    exact Finset.le_sup' f (Finset.mem_univ _)

/-- The row maximum is the running maximum after the last tile. -/
theorem sup'_eq_runMax [NeZero L] [NeZero T] [NeZero W] (hL : L = T * W) (col : ℕ → Fin W → Fin L)
    (hcol : ∀ n, n < T → ∀ j : Fin W, ((col n j : Fin L) : ℕ) = n * W + j) (f : Fin L → ℝ)
    (a : ℕ → Fin W → ℝ) (ha : ∀ n, n < T → ∀ j, a n j = f (col n j)) :
    Finset.univ.sup' Finset.univ_nonempty f = runMax a (T - 1) := by
  have key : ∀ t, t < T →
      tileMax a t = Finset.univ.sup' Finset.univ_nonempty (fun j => f (col t j)) :=
    fun t ht => Finset.sup'_congr _ rfl (fun j _ => ha t ht j)
  have hT : 0 < T := NeZero.pos T
  apply eq_of_forall_ge_iff
  intro c
  rw [runMax_le_iff, sup'_regroup hL col hcol f, Finset.sup'_le_iff]
  constructor
  · intro h t ht
    have ht' : t < T := by omega
    rw [key t ht']; exact h t (Finset.mem_range.mpr ht')
  · intro h t ht
    have ht' : t < T := Finset.mem_range.mp ht
    rw [← key t ht']; exact h t (by omega)

/-- The row's shifted exponential sum is the running sum after the last tile. -/
theorem sum_exp_eq_runSum [NeZero L] [NeZero T] [NeZero W] (hL : L = T * W)
    (col : ℕ → Fin W → Fin L)
    (hcol : ∀ n, n < T → ∀ j : Fin W, ((col n j : Fin L) : ℕ) = n * W + j) (f : Fin L → ℝ)
    (a : ℕ → Fin W → ℝ) (ha : ∀ n, n < T → ∀ j, a n j = f (col n j)) :
    ∑ i, Real.exp (f i - Finset.univ.sup' Finset.univ_nonempty f) = runSum a (T - 1) := by
  have hT : T - 1 + 1 = T := Nat.sub_add_cancel (NeZero.pos T)
  rw [runSum_eq_sum, ← sup'_eq_runMax hL col hcol f a ha, hT,
    sum_regroup hL col hcol (fun i => Real.exp (f i - Finset.univ.sup' Finset.univ_nonempty f))]
  apply Finset.sum_congr rfl
  intro t ht
  apply Finset.sum_congr rfl
  intro j _
  rw [ha t (Finset.mem_range.mp ht) j]

/-- An accumulator that starts at the first tile's term and adds one tile's term per step. -/
theorem acc_eq_sum_range_succ (g acc : ℕ → ℝ) (N : ℕ) (h0 : acc 0 = g 0)
    (hs : ∀ n, n < N → acc (n + 1) = acc n + g (n + 1)) :
    ∀ n, n ≤ N → acc n = ∑ t ∈ Finset.range (n + 1), g t := by
  intro n
  induction n with
  | zero => intro _; rw [h0, Finset.range_one, Finset.sum_singleton]
  | succ n ih =>
    intro hn
    rw [hs n hn, ih (Nat.le_of_succ_le hn), Finset.sum_range_succ _ (n + 1)]

/-- An accumulator that starts at zero and adds tile `n`'s term at step `n`. -/
theorem acc_eq_sum_range (g acc : ℕ → ℝ) (N : ℕ) (h0 : acc 0 = 0)
    (hs : ∀ n, n < N → acc (n + 1) = acc n + g n) :
    ∀ n, n ≤ N → acc n = ∑ t ∈ Finset.range n, g t := by
  intro n
  induction n with
  | zero => intro _; rw [h0, Finset.range_zero, Finset.sum_empty]
  | succ n ih =>
    intro hn
    rw [hs n hn, ih (Nat.le_of_succ_le hn), Finset.sum_range_succ]

end Regroup

/-! ### The row-wise softmax of the specification, tile by tile -/

section Softmax
variable {B L D T W : ℕ} [NeZero L] [NeZero T] [NeZero W]

theorem rowSum_pos (q k : Fin B → Fin L → Fin D → ℝ) (b : Fin B) (i : Fin L) : 0 < rowSum q k b i :=
  Finset.sum_pos (fun _ _ => Real.exp_pos _) Finset.univ_nonempty

theorem rowMax_eq_runMax (hL : L = T * W) (q k : Fin B → Fin L → Fin D → ℝ) (b : Fin B) (i : Fin L)
    (col : ℕ → Fin W → Fin L)
    (hcol : ∀ n, n < T → ∀ j : Fin W, ((col n j : Fin L) : ℕ) = n * W + j)
    (a : ℕ → Fin W → ℝ) (ha : ∀ n, n < T → ∀ j, a n j = score q k b i (col n j)) :
    rowMax q k b i = runMax a (T - 1) :=
  sup'_eq_runMax hL col hcol (fun j => score q k b i j) a ha

theorem rowSum_eq_runSum (hL : L = T * W) (q k : Fin B → Fin L → Fin D → ℝ) (b : Fin B) (i : Fin L)
    (col : ℕ → Fin W → Fin L)
    (hcol : ∀ n, n < T → ∀ j : Fin W, ((col n j : Fin L) : ℕ) = n * W + j)
    (a : ℕ → Fin W → ℝ) (ha : ∀ n, n < T → ∀ j, a n j = score q k b i (col n j)) :
    rowSum q k b i = runSum a (T - 1) :=
  sum_exp_eq_runSum hL col hcol (fun j => score q k b i j) a ha

/-- Sequences obeying the streaming recurrences over the `T` tiles of a query row end at the
    row's maximum and the row's shifted exponential sum. -/
theorem online_rowMax_rowSum (hL : L = T * W) (q k : Fin B → Fin L → Fin D → ℝ) (b : Fin B)
    (i : Fin L) (col : ℕ → Fin W → Fin L)
    (hcol : ∀ n, n < T → ∀ j : Fin W, ((col n j : Fin L) : ℕ) = n * W + j)
    (a : ℕ → Fin W → ℝ) (ha : ∀ n, n < T → ∀ j, a n j = score q k b i (col n j))
    (mt lt : ℕ → ℝ)
    (hm0 : mt 0 = Finset.univ.sup' Finset.univ_nonempty (fun j => a 0 j))
    (hl0 : lt 0 = ∑ j, Real.exp (a 0 j - mt 0))
    (hm : ∀ n, n + 1 < T → mt (n + 1)
      = max (mt n) (Finset.univ.sup' Finset.univ_nonempty (fun j => a (n + 1) j)))
    (hl : ∀ n, n + 1 < T → lt (n + 1)
      = Real.exp (mt n - mt (n + 1)) * lt n + ∑ j, Real.exp (a (n + 1) j - mt (n + 1))) :
    mt (T - 1) = rowMax q k b i ∧ lt (T - 1) = rowSum q k b i := by
  obtain ⟨h1, h2⟩ := eq_runMax_runSum a mt lt (T - 1) hm0 hl0
    (fun n hn => hm n (by omega)) (fun n hn => hl n (by omega)) (T - 1) le_rfl
  exact ⟨h1.trans (rowMax_eq_runMax hL q k b i col hcol a ha).symm,
    h2.trans (rowSum_eq_runSum hL q k b i col hcol a ha).symm⟩

/-- The log-softmax is the logit minus the log-sum-exp `rowMax + log rowSum`. -/
theorem score_sub_lse (q k : Fin B → Fin L → Fin D → ℝ) (b : Fin B) (i j : Fin L) :
    score q k b i j - (rowMax q k b i + Real.log (rowSum q k b i)) = logAttn q k b i j := by
  unfold logAttn; ring

/-- The same, with the log-sum-exp computed by the streaming recurrences. -/
theorem score_sub_online_lse (hL : L = T * W) (q k : Fin B → Fin L → Fin D → ℝ) (b : Fin B)
    (i : Fin L) (col : ℕ → Fin W → Fin L)
    (hcol : ∀ n, n < T → ∀ j : Fin W, ((col n j : Fin L) : ℕ) = n * W + j)
    (a : ℕ → Fin W → ℝ) (ha : ∀ n, n < T → ∀ j, a n j = score q k b i (col n j))
    (mt lt : ℕ → ℝ)
    (hm0 : mt 0 = Finset.univ.sup' Finset.univ_nonempty (fun j => a 0 j))
    (hl0 : lt 0 = ∑ j, Real.exp (a 0 j - mt 0))
    (hm : ∀ n, n + 1 < T → mt (n + 1)
      = max (mt n) (Finset.univ.sup' Finset.univ_nonempty (fun j => a (n + 1) j)))
    (hl : ∀ n, n + 1 < T → lt (n + 1)
      = Real.exp (mt n - mt (n + 1)) * lt n + ∑ j, Real.exp (a (n + 1) j - mt (n + 1)))
    (j : Fin L) :
    score q k b i j - (mt (T - 1) + Real.log (lt (T - 1))) = logAttn q k b i j := by
  obtain ⟨h1, h2⟩ := online_rowMax_rowSum hL q k b i col hcol a ha mt lt hm0 hl0 hm hl
  rw [h1, h2, score_sub_lse]

/-- The softmax weight is the exponential of the logit minus the log-sum-exp. -/
theorem attn_eq_exp_sub_lse (q k : Fin B → Fin L → Fin D → ℝ) (b : Fin B) (i j : Fin L) :
    attn q k b i j
      = Real.exp (score q k b i j - (rowMax q k b i + Real.log (rowSum q k b i))) := by
  rw [score_sub_lse]; rfl

/-- The attention output, summed tile by tile. -/
theorem out_regroup (hL : L = T * W) (q k v : Fin B → Fin L → Fin D → ℝ) (b : Fin B) (i : Fin L)
    (d : Fin D) (col : ℕ → Fin W → Fin L)
    (hcol : ∀ n, n < T → ∀ j : Fin W, ((col n j : Fin L) : ℕ) = n * W + j) :
    out q k v b i d = ∑ t ∈ Finset.range T, ∑ j, attn q k b i (col t j) * v b (col t j) d :=
  sum_regroup hL col hcol (fun j => attn q k b i j * v b j d)

end Softmax

end Cert.Attn.Alg

end
-- ==== Proof.HostPre.lean ====
/-
  What the first kernel region finds in the buffers the host operations before it wrote, at the ideal
  instance: the three reduced-precision copies of the arguments are the arguments themselves (a change of
  float format is the identity on extended reals), and the two row-norm arrays are the sums of squares
  of the rows of `q` and `k` — on real inputs, the coercions of `Cert.Attn.sqn`.
-/
import proofs.«101240_j549755814005_2_alg».proof.Proof.Gen.KernelIdeal.Regions
import proofs.«101240_j549755814005_2_alg».proof.Proof.Spec
import proofs.«101240_j549755814005_2_alg».proof.Proof.Algebra
import Idealize.ShloMosaic.Lib.StableHlo.Run
import Idealize.ShloMosaic.PureOps.Ideal.Laws

noncomputable section
namespace Cert.KernelIdeal.HostPre
open Cert.KernelIdeal Cert.KernelIdeal.Gen Idealize.ShloMosaic Idealize.ShloMosaic.TcCoe Idealize.SL.Sem Idealize.ShloMosaic.StableHlo
open Cert.Attn

variable (m : (ℓ : Loc nD τ sig) → Buf (Elt Ideal) ℓ) (c : Dev nD)

/-- The copy of `q` the kernels stage is `q`. -/
theorem V1_v0 : (V1 (F := Ideal) m c main_v0 : S8x2048x640.Idx → EReal)
    = (m ((c : Thread nD τ).loc main_arg0) : S8x2048x640.Idx → EReal) := by
  dsimp only [V1, V0, hostOps0]; after_results; first | rfl | skip

/-- The copy of `k` the kernels stage is `k`. -/
theorem V1_v1 : (V1 (F := Ideal) m c main_v1 : S8x2048x640.Idx → EReal)
    = (m ((c : Thread nD τ).loc main_arg1) : S8x2048x640.Idx → EReal) := by
  dsimp only [V1, V0, hostOps0]; after_results; first | rfl | skip

/-- The copy of `v` the second kernel stages is `v`. -/
theorem V1_v2 : (V1 (F := Ideal) m c main_v2 : S8x2048x640.Idx → EReal)
    = (m ((c : Thread nD τ).loc main_arg2) : S8x2048x640.Idx → EReal) := by
  dsimp only [V1, V0, hostOps0]; after_results; first | rfl | skip

/-- The row-norm array of `q` as the host computes it: the reduction of the squares along the feature axis. -/
theorem V1_v4 : (V1 (F := Ideal) m c main_v4 : S8x2048.Idx → EReal)
    = Host.reduceAdd (F := Ideal) (mulf (m ((c : Thread nD τ).loc main_arg0) : S8x2048x640.Idx → EReal) (m ((c : Thread nD τ).loc main_arg0))) (constant (F := Ideal) S_ .f32 0x00000000#32) reducesTo_S8x2048x640_S8x2048_d2 h_S_ := by
  dsimp only [V1, V0, hostOps0]; after_results

/-- The row-norm array of `k` as the host computes it. -/
theorem V1_v6 : (V1 (F := Ideal) m c main_v6 : S8x2048.Idx → EReal)
    = Host.reduceAdd (F := Ideal) (mulf (m ((c : Thread nD τ).loc main_arg1) : S8x2048x640.Idx → EReal) (m ((c : Thread nD τ).loc main_arg1))) (constant (F := Ideal) S_ .f32 0x00000000#32) reducesTo_S8x2048x640_S8x2048_d2 h_S_ := by
  dsimp only [V1, V0, hostOps0]; after_results

/-- The host's sum of squares along the feature axis of a real array is the array of squared row norms. -/
theorem reduce_sq_lift (x : Fin 8 → Fin 2048 → Fin 640 → ℝ) :
    Host.reduceAdd (F := Ideal) (mulf (lift3 x : S8x2048x640.Idx → EReal) (lift3 x)) (constant (F := Ideal) S_ .f32 0x00000000#32) reducesTo_S8x2048x640_S8x2048_d2 h_S_
      = (lift2 (sqn x) : S8x2048.Idx → EReal) := by
  funext i
  simp only [Host.reduceAdd, Ideal.hostReduceAdd_def]
  rw [Ideal.hostReduceAdd_single reducesTo_S8x2048x640_S8x2048_d2 (by decide)]
  show Ideal.ofBits .f32 0x00000000#32 + ∑ k : Fin 640, ((x (i 0) (i 1) k : ℝ) : EReal) * ((x (i 0) (i 1) k : ℝ) : EReal) = ((sqn x (i 0) (i 1) : ℝ) : EReal)
  rw [Ideal.ofBits_zero_f32, zero_add]
  simp only [Alg.mul_coe_coe, Alg.sum_coe]
  rfl

theorem V1_v4_lift (q : Fin 8 → Fin 2048 → Fin 640 → ℝ)
    (h : (m ((c : Thread nD τ).loc main_arg0) : S8x2048x640.Idx → EReal) = lift3 q) :
    (V1 (F := Ideal) m c main_v4 : S8x2048.Idx → EReal) = lift2 (sqn q) := by
  rw [V1_v4, h]; exact reduce_sq_lift q

theorem V1_v6_lift (k : Fin 8 → Fin 2048 → Fin 640 → ℝ)
    (h : (m ((c : Thread nD τ).loc main_arg1) : S8x2048x640.Idx → EReal) = lift3 k) :
    (V1 (F := Ideal) m c main_v6 : S8x2048.Idx → EReal) = lift2 (sqn k) := by
  rw [V1_v6, h]; exact reduce_sq_lift k

end Cert.KernelIdeal.HostPre
end
-- ==== Proof.Tiles.lean ====
/-
  Which row of the full arrays a row of a block stands for, at a grid position `n`. The first pass walks 4 row
  blocks of 512 query rows by 8 key blocks of 256 key rows (position `n`: row block `n / 8`, key block `n % 8`);
  the second pass 8 row blocks of 256 by 16 key blocks of 128 (row block `n / 16`, key block `n % 16`).
-/
import Mathlib.Data.Fin.Basic

namespace Cert.Attn

/-- First pass: the query row of row `r` of the position's row block. -/
def rowq (n : ℕ) (r : Fin 512) : Fin 2048 := ⟨512 * (n / 8 % 4) + r.val, by omega⟩
/-- First pass: the key row of row `j` of the position's key block. -/
def colk (n : ℕ) (j : Fin 256) : Fin 2048 := ⟨256 * (n % 8) + j.val, by omega⟩
/-- Second pass: the query row of row `r` of the position's row block. -/
def rowq1 (n : ℕ) (r : Fin 256) : Fin 2048 := ⟨256 * (n / 16 % 8) + r.val, by omega⟩
/-- Second pass: the key row of row `j` of the position's key block. -/
def colk1 (n : ℕ) (j : Fin 128) : Fin 2048 := ⟨128 * (n % 16) + j.val, by omega⟩

@[simp] theorem rowq_val (n : ℕ) (r : Fin 512) : (rowq n r).val = 512 * (n / 8 % 4) + r.val := rfl
@[simp] theorem colk_val (n : ℕ) (j : Fin 256) : (colk n j).val = 256 * (n % 8) + j.val := rfl
@[simp] theorem rowq1_val (n : ℕ) (r : Fin 256) : (rowq1 n r).val = 256 * (n / 16 % 8) + r.val := rfl
@[simp] theorem colk1_val (n : ℕ) (j : Fin 128) : (colk1 n j).val = 128 * (n % 16) + j.val := rfl

end Cert.Attn
-- ==== Proof.Blocks0.lean ====
/-
  Region 0's windows read on real arrays. At grid position `t` (row block `t / 8`, key block `t % 8`) the query
  window's block is rows `512·(t/8) … 512·(t/8)+511` of its array, the key window's block rows
  `256·(t%8) … 256·(t%8)+255`, and likewise for the two squared-norm arrays and for the output array; a block
  of a lifted real array is the lifted real block. The output window's blocks at the positions that write
  back (`t % 8 = 7`) cover its array.
-/
import proofs.«101240_j549755814005_2_alg».proof.Proof.Gen.KernelIdeal.Launch
import proofs.«101240_j549755814005_2_alg».proof.Proof.Gen.KernelIdeal.Points
import proofs.«101240_j549755814005_2_alg».proof.Proof.Spec
import proofs.«101240_j549755814005_2_alg».proof.Proof.Tiles
import Idealize.ShloMosaic.Lib.Pipeline.Value

set_option maxRecDepth 16384
noncomputable section
namespace Cert.KernelIdeal.Blocks0
open Cert.KernelIdeal Cert.KernelIdeal.Gen Idealize.ShloMosaic Idealize.ShloMosaic.TcCoe Idealize.SL.Sem
open Cert.Attn

/-! ## The index maps over the grid -/

theorem idx0_0 : ∀ t : Fin cfg0.N, win0_0.index t (0 : Fin 3) = 0 ∧ win0_0.index t (1 : Fin 3) = t.val / 8 % 4 ∧ win0_0.index t (2 : Fin 3) = 0 :=
  (by decide +kernel : ∀ t : Fin grid0.N, win0_0.index t (0 : Fin 3) = 0 ∧ win0_0.index t (1 : Fin 3) = t.val / 8 % 4 ∧ win0_0.index t (2 : Fin 3) = 0)
theorem idx0_1 : ∀ t : Fin cfg0.N, win0_1.index t (0 : Fin 3) = 0 ∧ win0_1.index t (1 : Fin 3) = t.val % 8 ∧ win0_1.index t (2 : Fin 3) = 0 :=
  (by decide +kernel : ∀ t : Fin grid0.N, win0_1.index t (0 : Fin 3) = 0 ∧ win0_1.index t (1 : Fin 3) = t.val % 8 ∧ win0_1.index t (2 : Fin 3) = 0)
theorem idx0_2 : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)
theorem idx0_3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx0_4 : ∀ t : Fin cfg0.N, win0_4.index t (0 : Fin 2) = 0 ∧ win0_4.index t (1 : Fin 2) = t.val / 8 % 4 :=
  (by decide +kernel : ∀ t : Fin grid0.N, win0_4.index t (0 : Fin 2) = 0 ∧ win0_4.index t (1 : Fin 2) = t.val / 8 % 4)

variable (c : Dev nD)

/-! ## A block of a lifted array is the lifted block -/

theorem read0_0 (A : Buf (Elt Ideal) ((cfg0.win 0).arr.view.loc (c.tc : Thread nD τ))) (q : Fin 8 → Fin 2048 → Fin 640 → ℝ)
    (h : (A : S8x2048x640.Idx → EReal) = lift3 q) (t : Fin cfg0.N) :
    (((cfg0.win 0).blk t).view.read (Elt Ideal) A : S8x512x640.Idx → EReal) = lift3 (fun b r d => q b (rowq t.val r) d) := by
  funext y
  show (A : S8x2048x640.Idx → EReal) (((cfg0.win 0).blk t).view.emb y) = _
  rw [h]
  obtain ⟨h0, h1, h2⟩ := idx0_0 t
  have e0 : ((((cfg0.win 0).blk t).view.emb y) 0 : Fin 8) = y 0 :=
    Fin.ext (by show win0_0.index t (0 : Fin 3) * 8 + 1 * (y 0).val = (y 0).val; rw [h0]; omega)
  have e1 : ((((cfg0.win 0).blk t).view.emb y) 1 : Fin 2048) = rowq t.val (y 1) :=
    Fin.ext (by show win0_0.index t (1 : Fin 3) * 512 + 1 * (y 1).val = 512 * (t.val / 8 % 4) + (y 1).val; rw [h1]; omega)
  have e2 : ((((cfg0.win 0).blk t).view.emb y) 2 : Fin 640) = y 2 :=
    Fin.ext (by show win0_0.index t (2 : Fin 3) * 640 + 1 * (y 2).val = (y 2).val; rw [h2]; omega)
  show ((q _ _ _ : ℝ) : EReal) = ((q _ _ _ : ℝ) : EReal)
  rw [e0, e1, e2]

theorem read0_1 (A : Buf (Elt Ideal) ((cfg0.win 1).arr.view.loc (c.tc : Thread nD τ))) (k : Fin 8 → Fin 2048 → Fin 640 → ℝ)
    (h : (A : S8x2048x640.Idx → EReal) = lift3 k) (t : Fin cfg0.N) :
    (((cfg0.win 1).blk t).view.read (Elt Ideal) A : S8x256x640.Idx → EReal) = lift3 (fun b j d => k b (colk t.val j) d) := by
  funext y
  show (A : S8x2048x640.Idx → EReal) (((cfg0.win 1).blk t).view.emb y) = _
  rw [h]
  obtain ⟨h0, h1, h2⟩ := idx0_1 t
  have e0 : ((((cfg0.win 1).blk t).view.emb y) 0 : Fin 8) = y 0 :=
    Fin.ext (by show win0_1.index t (0 : Fin 3) * 8 + 1 * (y 0).val = (y 0).val; rw [h0]; omega)
  have e1 : ((((cfg0.win 1).blk t).view.emb y) 1 : Fin 2048) = colk t.val (y 1) :=
    Fin.ext (by show win0_1.index t (1 : Fin 3) * 256 + 1 * (y 1).val = 256 * (t.val % 8) + (y 1).val; rw [h1]; omega)
  have e2 : ((((cfg0.win 1).blk t).view.emb y) 2 : Fin 640) = y 2 :=
    Fin.ext (by show win0_1.index t (2 : Fin 3) * 640 + 1 * (y 2).val = (y 2).val; rw [h2]; omega)
  show ((k _ _ _ : ℝ) : EReal) = ((k _ _ _ : ℝ) : EReal)
  rw [e0, e1, e2]

theorem read0_2 (A : Buf (Elt Ideal) ((cfg0.win 2).arr.view.loc (c.tc : Thread nD τ))) (g : Fin 8 → Fin 2048 → ℝ)
    (h : (A : S8x2048.Idx → EReal) = lift2 g) (t : Fin cfg0.N) :
    (((cfg0.win 2).blk t).view.read (Elt Ideal) A : S8x512.Idx → EReal) = lift2 (fun b r => g b (rowq t.val r)) := by
  funext y
  show (A : S8x2048.Idx → EReal) (((cfg0.win 2).blk t).view.emb y) = _
  rw [h]
  obtain ⟨h0, h1⟩ := idx0_2 t
  have e0 : ((((cfg0.win 2).blk t).view.emb y) 0 : Fin 8) = y 0 :=
    Fin.ext (by show win0_2.index t (0 : Fin 2) * 8 + 1 * (y 0).val = (y 0).val; rw [h0]; omega)
  have e1 : ((((cfg0.win 2).blk t).view.emb y) 1 : Fin 2048) = rowq t.val (y 1) :=
    Fin.ext (by show win0_2.index t (1 : Fin 2) * 512 + 1 * (y 1).val = 512 * (t.val / 8 % 4) + (y 1).val; rw [h1]; omega)
  show ((g _ _ : ℝ) : EReal) = ((g _ _ : ℝ) : EReal)
  rw [e0, e1]

theorem read0_3 (A : Buf (Elt Ideal) ((cfg0.win 3).arr.view.loc (c.tc : Thread nD τ))) (g : Fin 8 → Fin 2048 → ℝ)
    (h : (A : S8x2048.Idx → EReal) = lift2 g) (t : Fin cfg0.N) :
    (((cfg0.win 3).blk t).view.read (Elt Ideal) A : S8x256.Idx → EReal) = lift2 (fun b j => g b (colk t.val j)) := by
  funext y
  show (A : S8x2048.Idx → EReal) (((cfg0.win 3).blk t).view.emb y) = _
  rw [h]
  obtain ⟨h0, h1⟩ := idx0_3 t
  have e0 : ((((cfg0.win 3).blk t).view.emb y) 0 : Fin 8) = y 0 :=
    Fin.ext (by show win0_3.index t (0 : Fin 2) * 8 + 1 * (y 0).val = (y 0).val; rw [h0]; omega)
  have e1 : ((((cfg0.win 3).blk t).view.emb y) 1 : Fin 2048) = colk t.val (y 1) :=
    Fin.ext (by show win0_3.index t (1 : Fin 2) * 256 + 1 * (y 1).val = 256 * (t.val % 8) + (y 1).val; rw [h1]; omega)
  show ((g _ _ : ℝ) : EReal) = ((g _ _ : ℝ) : EReal)
  rw [e0, e1]

/-- The output window's block of a lifted array. -/
theorem read0_4 (A : Buf (Elt Ideal) ((cfg0.win 4).arr.view.loc (c.tc : Thread nD τ))) (g : Fin 8 → Fin 2048 → ℝ)
    (h : (A : S8x2048.Idx → EReal) = lift2 g) (t : Fin cfg0.N) :
    (((cfg0.win 4).blk t).view.read (Elt Ideal) A : S8x512.Idx → EReal) = lift2 (fun b r => g b (rowq t.val r)) := by
  funext y
  show (A : S8x2048.Idx → EReal) (((cfg0.win 4).blk t).view.emb y) = _
  rw [h]
  obtain ⟨h0, h1⟩ := idx0_4 t
  have e0 : ((((cfg0.win 4).blk t).view.emb y) 0 : Fin 8) = y 0 :=
    Fin.ext (by show win0_4.index t (0 : Fin 2) * 8 + 1 * (y 0).val = (y 0).val; rw [h0]; omega)
  have e1 : ((((cfg0.win 4).blk t).view.emb y) 1 : Fin 2048) = rowq t.val (y 1) :=
    Fin.ext (by show win0_4.index t (1 : Fin 2) * 512 + 1 * (y 1).val = 512 * (t.val / 8 % 4) + (y 1).val; rw [h1]; omega)
  show ((g _ _ : ℝ) : EReal) = ((g _ _ : ℝ) : EReal)
  rw [e0, e1]

/-! ## The output's blocks cover its array -/

/-- An index of the output array is in point `t`'s block iff each coordinate is in the block's range. -/
theorem mem_blk4 (t : Fin cfg0.N) (i : S8x2048.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v7).slice (win0_4.rect t)).set ↔ _
  rw [View.set_slice_whole, Rect.mem_set_unit]
  exact Iff.rfl

/-- Every index of the output array lies in the block of a position that writes back: the last key block of
    the index's row block. -/
theorem cover4 (i : S8x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hN : cfg0.N = 32 := N_0
  refine ⟨⟨8 * ((i 1).val / 512) + 7, by rw [hN]; omega⟩, (flush0_4 _).mpr (by show (8 * ((i 1).val / 512) + 7) % 8 = 7; omega), ?_⟩
  rw [mem_blk4]
  obtain ⟨h0, h1⟩ := idx0_4 ⟨8 * ((i 1).val / 512) + 7, by rw [hN]; omega⟩
  intro a
  match a with
  | ⟨0, _⟩ => show win0_4.index _ (0 : Fin 2) * 8 ≤ (i 0).val ∧ (i 0).val < win0_4.index _ (0 : Fin 2) * 8 + 8; rw [h0]; omega
  | ⟨1, _⟩ =>
    show win0_4.index _ (1 : Fin 2) * 512 ≤ (i 1).val ∧ (i 1).val < win0_4.index _ (1 : Fin 2) * 512 + 512
    rw [h1]; show (8 * ((i 1).val / 512) + 7) / 8 % 4 * 512 ≤ (i 1).val ∧ (i 1).val < (8 * ((i 1).val / 512) + 7) / 8 % 4 * 512 + 512; omega

end Cert.KernelIdeal.Blocks0
end
-- ==== Proof.LibBatchLayout.lean ====
/-
  Blocks with a leading batch axis, read at coordinates, at the extended reals.

  * A matrix [a, b] kept as [a, b, 1] and broadcast along c lanes reads, at (i, j, k), the matrix at (i, j); kept as
    [a, 1, c] (a matrix [a, c]) and broadcast along b rows it reads, at (i, j, k), the matrix at (i, k).
  * A reduction of a block [a, b, c] along its last axis, read at (i, j): by the sum from zero it is the sum over k of the
    block at (i, j, k); by the maximum from −∞ it is the supremum over k of the block at (i, j, k).
  * The supremum of a family of real numbers, taken in the extended reals, is the real supremum; likewise a finite sum.
  * A stack of matrix products on the matrix unit, into the zero accumulator, read at (b, r, j): with both operands
    contracted on their last axis, the sum over d of A(b, r, d) · C(b, j, d); with the right operand contracted on its
    middle axis, the sum over j of A(b, r, j) · C(b, j, d).
  * The logit (2 s − x − y) / 13 of the attention programs: its two float constants, its reading on real numbers, and the
    score of a query row and a key row inside a pair of blocks.
-/
import Idealize.ShloMosaic.Lib.Pipeline.Value
import Idealize.ShloMosaic.Lib.ValueIdx
import Idealize.ShloMosaic.PureOps.Ideal.Laws

noncomputable section

namespace Cert.LibBatchLayout

open Idealize.ShloMosaic Idealize.ShloMosaic.ValueIdx

section Layout
variable {α : Type}

/-- A matrix [a, b] cast to [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- A matrix [a, c] cast to [a, 1, c] reads, at (i, u, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- A block [a, b, 1] broadcast along c lanes reads, at (i, j, k), the block at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A block [a, 1, c] broadcast along b rows reads, at (i, j, k), the block at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- So a matrix [a, b] kept as [a, b, 1] and broadcast along c lanes reads, at (i, j, k), the matrix at (i, j). -/
theorem keepLast_apply {a b c : ℕ} (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h₁) h₂ (ix3 i j k) = x (ix2 i j) :=
  (broadcastTo_ab1_abc_apply _ h₂ i j k).trans (shapeCast_ab_ab1_apply x h₁ i j 0)

/-- And a matrix [a, c] kept as [a, 1, c] and broadcast along b rows reads, at (i, j, k), the matrix at (i, k). -/
theorem keepMid_apply {a b c : ℕ} (x : (⟨2, ![a, c]⟩ : Shape).Idx → α)
    (h₁ : (⟨2, ![a, c]⟩ : Shape).ShapeCasts ⟨3, ![a, 1, c]⟩)
    (h₂ : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x h₁) h₂ (ix3 i j k) = x (ix2 i k) :=
  (broadcastTo_a1c_abc_apply _ h₂ i j k).trans (shapeCast_ac_a1c_apply x h₁ i 0 k)

end Layout

section Reductions
variable {a b c : ℕ}

/-- Row (i, j) of a block [a, b, c] with the last coordinate k inserted is the index (i, j, k). -/
theorem lift_last (h : (⟨3, ![a, b, c]⟩ : Shape).Reduces [2] ⟨2, ![a, b]⟩) (i : Fin a) (j : Fin b) (k : Fin c) :
    h.lift (ix2 i j) k = ix3 i j k := by
  funext ax; apply Fin.ext
  match ax with
  | ⟨0, _⟩ => rfl
  | ⟨1, _⟩ => rfl
  | ⟨2, _⟩ => rfl

/-- The sum from zero of a block [a, b, c] along its last axis, at (i, j), is the sum over k of the block at (i, j, k). -/
theorem lastSum_apply (P : FVec Ideal ⟨3, ![a, b, c]⟩ .f32) (h : (⟨3, ![a, b, c]⟩ : Shape).Reduces [2] ⟨2, ![a, b]⟩)
    (hφ : FKind.Formats .f32) (hacc : (0x00000000#32 : BitVec 32) = FKind.add.neutral .f32 hφ) (i : Fin a) (j : Fin b) :
    multiReduction .add [2] ⟨2, ![a, b]⟩ P 0x00000000#32 h hφ hacc (ix2 i j) = ∑ k : Fin c, P (ix3 i j k) := by
  rw [Ideal.multiReduction_add_single]
  exact Finset.sum_congr rfl fun k _ => congrArg P (lift_last h i j k)

/-- The word 0xFF800000 read as a float is −∞. -/
theorem ofBits_neg_inf : Ideal.ofBits .f32 0xFF800000#32 = ⊥ := by simp [Ideal.ofBits, Ideal.ieee]

/-- A fold of the maximum from −∞ over a finite set is the set's supremum. -/
theorem fold_max_bot_eq_sup {ι : Type} (s : Finset ι) (f : ι → EReal) : s.fold max ⊥ f = s.sup f := by
  classical
  induction s using Finset.induction_on with
  | empty => simp
  | insert x s hx ih => rw [Finset.fold_insert hx, Finset.sup_insert, ih]

/-- The maximum from −∞ of a block [a, b, c] along its last axis, at (i, j), is the supremum over k of the block at
    (i, j, k). -/
theorem lastMax_apply (S : FVec Ideal ⟨3, ![a, b, c]⟩ .f32) (h : (⟨3, ![a, b, c]⟩ : Shape).Reduces [2] ⟨2, ![a, b]⟩)
    (hφ : FKind.Formats .f32) (hacc : (0xFF800000#32 : BitVec 32) = FKind.maximumf.neutral .f32 hφ) (i : Fin a) (j : Fin b) :
    multiReduction .maximumf [2] ⟨2, ![a, b]⟩ S 0xFF800000#32 h hφ hacc (ix2 i j)
      = (Finset.univ : Finset (Fin c)).sup fun k => S (ix3 i j k) := by
  rw [Ideal.multiReduction_maximumf_single]
  show (Finset.univ : Finset (Fin c)).fold max (Ideal.ofBits .f32 0xFF800000#32) (fun k : Fin c => S (h.lift (ix2 i j) k)) = _
  rw [ofBits_neg_inf]
  refine (fold_max_bot_eq_sup (Finset.univ : Finset (Fin c)) (fun k : Fin c => S (h.lift (ix2 i j) k))).trans ?_
  exact congrArg (fun f : Fin c → EReal => (Finset.univ : Finset (Fin c)).sup f)
    (funext fun k => congrArg S (lift_last h i j k))

end Reductions

section Reals

/-- The supremum of a nonempty finite family of real numbers, taken in the extended reals, is the real supremum. -/
theorem sup_coe_eq_coe_sup' {n : ℕ} [NeZero n] (g : Fin n → ℝ) :
    ((Finset.univ : Finset (Fin n)).sup fun k => ((g k : ℝ) : EReal))
      = ((Finset.univ.sup' Finset.univ_nonempty g : ℝ) : EReal) := by
  rw [← Finset.sup'_eq_sup Finset.univ_nonempty]
  exact (Finset.apply_sup'_eq_sup'_comp Finset.univ_nonempty (fun x : ℝ => (x : EReal))
    (fun x y => Monotone.map_sup EReal.coe_strictMono.monotone x y)).symm

/-- A finite sum of real numbers, taken in the extended reals, is the real sum. -/
theorem sum_coe {ι : Type} (s : Finset ι) (g : ι → ℝ) : (∑ k ∈ s, ((g k : ℝ) : EReal)) = ((∑ k ∈ s, g k : ℝ) : EReal) := by
  classical
  induction s using Finset.induction_on with
  | empty => simp
  | insert x s hx ih => rw [Finset.sum_insert hx, Finset.sum_insert hx, ih, EReal.coe_add]

end Reals

section Logit

/-- The word 0x40000000 read as a float is 2. -/
theorem ofBits_two : Ideal.ofBits .f32 0x40000000#32 = ((2 : ℝ) : EReal) := by
  simp [Ideal.ofBits, Ideal.ieee, -EReal.coe_mul]; norm_num

/-- The word 0x41500000 read as a float is 13. -/
theorem ofBits_thirteen : Ideal.ofBits .f32 0x41500000#32 = ((13 : ℝ) : EReal) := by
  simp [Ideal.ofBits, Ideal.ieee, -EReal.coe_mul]; norm_num

/-- The logit formula (2 s − x − y) / 13 on real numbers, computed in the extended reals, is the real logit. -/
theorem logit_coe (s x y : ℝ) :
    Ideal.div (((2 : ℝ) : EReal) * (s : EReal) - (x : EReal) - (y : EReal)) ((13 : ℝ) : EReal)
      = (((2 * s - x - y) / 13 : ℝ) : EReal) := by
  rw [Ideal.div_coe (by norm_num : (13 : ℝ) ≠ 0)]
  rw [← EReal.coe_mul, ← EReal.coe_sub, ← EReal.coe_sub, ← EReal.coe_mul]
  congr 1
  ring

/-- An exponential, or a logarithm, of a block reads elementwise. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Logit

section Matmul
variable {B M N K : ℕ} {φ₁ φ₂ : FTy}

private theorem mem00 : (0 : Fin 3) ∈ ([0] : List (Fin 3)) := by decide
private theorem nmem10 : ¬(1 : Fin 3) ∈ ([0] : List (Fin 3)) := by decide
private theorem nmem20 : ¬(2 : Fin 3) ∈ ([0] : List (Fin 3)) := by decide
private theorem mem11 : (1 : Fin 3) ∈ ([1] : List (Fin 3)) := by decide
private theorem mem22 : (2 : Fin 3) ∈ ([2] : List (Fin 3)) := by decide

/-- The dimension numbers of a stack of products A · Cᵀ: batch axis 0 on both sides, both operands contracted on their
    last axis. -/
abbrev dimsNT (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ := ⟨[2], [2], [1], [1], [0], [0], wf⟩

section NT
variable (wf : DotDims.WF ⟨3, ![B, M, K]⟩ ⟨3, ![B, N, K]⟩ ⟨3, ![B, M, N]⟩ [2] [2] [1] [1] [0] [0])
  (i : (⟨3, ![B, M, N]⟩ : Shape).Idx) (q : (dimsNT wf).contr.Idx)

private theorem nt_lhs0 : ((dimsNT wf).lhsIdx i q 0).val = (i 0).val := by
  unfold DotDims.lhsIdx
  rw [dif_pos (show (0 : Fin 3) ∈ (dimsNT wf).lhsBatch from mem00)]
  rfl
private theorem nt_lhs1 : ((dimsNT wf).lhsIdx i q 1).val = (i 1).val := by
  unfold DotDims.lhsIdx
  rw [dif_neg (show ¬(1 : Fin 3) ∈ (dimsNT wf).lhsBatch from nmem10),
    dif_pos (show (1 : Fin 3) ∈ (dimsNT wf).lhsNonContracting from mem11)]
  rfl
private theorem nt_lhs2 : ((dimsNT wf).lhsIdx i q 2).val = (q ⟨0, Nat.one_pos⟩).val :=
  (dimsNT wf).lhsIdx_val_of_single rfl i q
private theorem nt_rhs0 : ((dimsNT wf).rhsIdx i q 0).val = (i 0).val := by
  unfold DotDims.rhsIdx
  rw [dif_pos (show (0 : Fin 3) ∈ (dimsNT wf).rhsBatch from mem00)]
  rfl
private theorem nt_rhs1 : ((dimsNT wf).rhsIdx i q 1).val = (i 2).val := by
  unfold DotDims.rhsIdx
  rw [dif_neg (show ¬(1 : Fin 3) ∈ (dimsNT wf).rhsBatch from nmem10),
    dif_pos (show (1 : Fin 3) ∈ (dimsNT wf).rhsNonContracting from mem11)]
  rfl
private theorem nt_rhs2 : ((dimsNT wf).rhsIdx i q 2).val = (q ⟨0, Nat.one_pos⟩).val :=
  (dimsNT wf).rhsIdx_val_of_single rfl i q
end NT

/-- A stack of products of an M×K matrix with the transpose of an N×K matrix, into the zero accumulator, at (b, r, j):
    the sum over d of A(b, r, d) · C(b, j, d). -/
theorem matmul_batch_nt_apply (wf : DotDims.WF ⟨3, ![B, M, K]⟩ ⟨3, ![B, N, K]⟩ ⟨3, ![B, M, N]⟩ [2] [2] [1] [1] [0] [0])
    (prec : Option ContractPrecision) (A : FVec Ideal ⟨3, ![B, M, K]⟩ φ₁) (C : FVec Ideal ⟨3, ![B, N, K]⟩ φ₂)
    (b : Fin B) (r : Fin M) (j : Fin N) :
    matmul (dimsNT wf) prec A C (constant ⟨3, ![B, M, N]⟩ .f32 0x00000000#32) (ix3 b r j)
      = ∑ d : Fin K, A (ix3 b r d) * C (ix3 b j d) := by
  refine (Ideal.matmul_constant_zero_apply (dimsNT wf) prec A C (ix3 b r j)).trans ?_
  rw [← Equiv.sum_comp (contrEquiv1 (dimsNT wf) K rfl rfl).symm]
  refine Finset.sum_congr rfl fun d _ => ?_
  have hk := contrEquiv1_symm_val (dimsNT wf) K rfl rfl d
  have el : (dimsNT wf).lhsIdx (ix3 b r j) ((contrEquiv1 (dimsNT wf) K rfl rfl).symm d) = ix3 b r d :=
    funext fun a => Fin.ext (by
      match a with
      | ⟨0, _⟩ => exact nt_lhs0 wf _ _
      | ⟨1, _⟩ => exact nt_lhs1 wf _ _
      | ⟨2, _⟩ => exact (nt_lhs2 wf _ _).trans hk)
  have er : (dimsNT wf).rhsIdx (ix3 b r j) ((contrEquiv1 (dimsNT wf) K rfl rfl).symm d) = ix3 b j d :=
    funext fun a => Fin.ext (by
      match a with
      | ⟨0, _⟩ => exact nt_rhs0 wf _ _
      | ⟨1, _⟩ => exact nt_rhs1 wf _ _
      | ⟨2, _⟩ => exact (nt_rhs2 wf _ _).trans hk)
  rw [el, er]

/-- The dimension numbers of a stack of products A · C: batch axis 0 on both sides, the left operand contracted on its
    last axis and the right on its middle one. -/
abbrev dimsNN (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ := ⟨[2], [1], [1], [2], [0], [0], wf⟩

section NN
variable (wf : DotDims.WF ⟨3, ![B, M, K]⟩ ⟨3, ![B, K, N]⟩ ⟨3, ![B, M, N]⟩ [2] [1] [1] [2] [0] [0])
  (i : (⟨3, ![B, M, N]⟩ : Shape).Idx) (q : (dimsNN wf).contr.Idx)

private theorem nn_lhs0 : ((dimsNN wf).lhsIdx i q 0).val = (i 0).val := by
  unfold DotDims.lhsIdx
  rw [dif_pos (show (0 : Fin 3) ∈ (dimsNN wf).lhsBatch from mem00)]
  rfl
private theorem nn_lhs1 : ((dimsNN wf).lhsIdx i q 1).val = (i 1).val := by
  unfold DotDims.lhsIdx
  rw [dif_neg (show ¬(1 : Fin 3) ∈ (dimsNN wf).lhsBatch from nmem10),
    dif_pos (show (1 : Fin 3) ∈ (dimsNN wf).lhsNonContracting from mem11)]
  rfl
private theorem nn_lhs2 : ((dimsNN wf).lhsIdx i q 2).val = (q ⟨0, Nat.one_pos⟩).val :=
  (dimsNN wf).lhsIdx_val_of_single rfl i q
private theorem nn_rhs0 : ((dimsNN wf).rhsIdx i q 0).val = (i 0).val := by
  unfold DotDims.rhsIdx
  rw [dif_pos (show (0 : Fin 3) ∈ (dimsNN wf).rhsBatch from mem00)]
  rfl
private theorem nn_rhs1 : ((dimsNN wf).rhsIdx i q 1).val = (q ⟨0, Nat.one_pos⟩).val :=
  (dimsNN wf).rhsIdx_val_of_single rfl i q
private theorem nn_rhs2 : ((dimsNN wf).rhsIdx i q 2).val = (i 2).val := by
  unfold DotDims.rhsIdx
  rw [dif_neg (show ¬(2 : Fin 3) ∈ (dimsNN wf).rhsBatch from nmem20),
    dif_pos (show (2 : Fin 3) ∈ (dimsNN wf).rhsNonContracting from mem22)]
  rfl
end NN

/-- A stack of products of an M×K matrix with a K×N matrix, into the zero accumulator, at (b, r, d): the sum over j of
    A(b, r, j) · C(b, j, d). -/
theorem matmul_batch_nn_apply (wf : DotDims.WF ⟨3, ![B, M, K]⟩ ⟨3, ![B, K, N]⟩ ⟨3, ![B, M, N]⟩ [2] [1] [1] [2] [0] [0])
    (prec : Option ContractPrecision) (A : FVec Ideal ⟨3, ![B, M, K]⟩ φ₁) (C : FVec Ideal ⟨3, ![B, K, N]⟩ φ₂)
    (b : Fin B) (r : Fin M) (d : Fin N) :
    matmul (dimsNN wf) prec A C (constant ⟨3, ![B, M, N]⟩ .f32 0x00000000#32) (ix3 b r d)
      = ∑ j : Fin K, A (ix3 b r j) * C (ix3 b j d) := by
  refine (Ideal.matmul_constant_zero_apply (dimsNN wf) prec A C (ix3 b r d)).trans ?_
  rw [← Equiv.sum_comp (contrEquiv1 (dimsNN wf) K rfl rfl).symm]
  refine Finset.sum_congr rfl fun j _ => ?_
  have hk := contrEquiv1_symm_val (dimsNN wf) K rfl rfl j
  have el : (dimsNN wf).lhsIdx (ix3 b r d) ((contrEquiv1 (dimsNN wf) K rfl rfl).symm j) = ix3 b r j :=
    funext fun a => Fin.ext (by
      match a with
      | ⟨0, _⟩ => exact nn_lhs0 wf _ _
      | ⟨1, _⟩ => exact nn_lhs1 wf _ _
      | ⟨2, _⟩ => exact (nn_lhs2 wf _ _).trans hk)
  have er : (dimsNN wf).rhsIdx (ix3 b r d) ((contrEquiv1 (dimsNN wf) K rfl rfl).symm j) = ix3 b j d :=
    funext fun a => Fin.ext (by
      match a with
      | ⟨0, _⟩ => exact nn_rhs0 wf _ _
      | ⟨1, _⟩ => exact (nn_rhs1 wf _ _).trans hk
      | ⟨2, _⟩ => exact nn_rhs2 wf _ _)
  rw [el, er]

end Matmul

end Cert.LibBatchLayout

namespace Cert.Attn.Pay

/-- The logit of query row r and key row j of batch b inside blocks Q, K with the rows' squared norms QQ, KK:
    (2 · Σ_d Q(b, r, d) · K(b, j, d) − QQ(b, r) − KK(b, j)) / 13. -/
def scoreTile {B L M D : ℕ} (Q : Fin B → Fin L → Fin D → ℝ) (K : Fin B → Fin M → Fin D → ℝ) (QQ : Fin B → Fin L → ℝ)
    (KK : Fin B → Fin M → ℝ) (b : Fin B) (r : Fin L) (j : Fin M) : ℝ :=
  (2 * (∑ d, Q b r d * K b j d) - QQ b r - KK b j) / 13

end Cert.Attn.Pay

end
-- ==== Proof.Pay0.lean ====
/-
  The pure values the first pass's body stores, read at an index at the extended reals on real-valued blocks.
  With S(b, r, j) = (2 · Σ_d Q(b, r, d) · K(b, j, d) − QQ(b, r) − KK(b, j)) / 13 the logit of query row r and key row j
  of batch b inside the blocks: the logits' block is S; the running maximum is the larger of the carried maximum and the
  largest logit of the row; the shifted exponentials are exp (S − new maximum); the carried sum is rescaled by
  exp (old maximum − new maximum); the sum gains the row sum of the shifted exponentials; at the last key block the
  stored statistic is the maximum plus the logarithm of the sum; at the first key block the maximum starts at −∞ and the
  sum at 0.
-/
import proofs.«101240_j549755814005_2_alg».proof.Proof.Gen.KernelIdeal.Skeleton
import proofs.«101240_j549755814005_2_alg».proof.Proof.Spec
import proofs.«101240_j549755814005_2_alg».proof.Proof.LibBatchLayout

noncomputable section

namespace Cert.Attn.Pay

open Idealize.ShloMosaic Idealize.ShloMosaic.ValueIdx Cert.KernelIdeal Cert.KernelIdeal.Gen Cert.LibBatchLayout

variable [Cert.KernelIdeal.Facts]

/-- At the first key block the running maximum starts at −∞. -/
theorem k0_pay4_eq : k0_pay4 (F := Ideal) = fun _ => (⊥ : EReal) := by
  unfold k0_pay4
  dsimp only
  rw [shapeCast_self]
  funext i
  exact ofBits_neg_inf

/-- At the first key block the running sum starts at 0. -/
theorem k0_pay5_eq : k0_pay5 (F := Ideal) = fun _ => (0 : EReal) := by
  unfold k0_pay5
  dsimp only
  rw [shapeCast_self]
  funext i
  exact Ideal.ofBits_zero_f32

/-- The stored running maximum is the computed one. -/
theorem k0_pay2_eq {F : FTy → Type} [FloatOps F] (v : FVec F S8x512 .f32) : k0_pay2 v = v := by
  unfold k0_pay2
  dsimp only
  exact shapeCast_self v _

/-- The running sum gains the row sum of the shifted exponentials. -/
theorem k0_pay1_apply (v31 : FVec Ideal S8x512x256 .f32) (v33 : FVec Ideal S8x512 .f32) (b : Fin 8) (r : Fin 512) :
    k0_pay1 v31 v33 (ix2 b r) = v33 (ix2 b r) + ∑ j : Fin 256, v31 (ix3 b r j) := by
  unfold k0_pay1
  dsimp only
  rw [shapeCast_self, addf_apply]
  exact congrArg (v33 (ix2 b r) + ·) (lastSum_apply v31 _ _ _ b r)

/-- At the last key block the stored statistic is the maximum plus the logarithm of the sum. -/
theorem k0_pay3_apply (v45 v46 : Vec Ideal S8x512 .f32) (b : Fin 8) (r : Fin 512) :
    k0_pay3 v45 v46 (ix2 b r) = v45 (ix2 b r) + Ideal.log (v46 (ix2 b r)) := rfl

/-- The logits' block at (b, r, j), on any blocks: (2 · Σ_d Q(b, r, d) · K(b, j, d) − QQ(b, r) − KK(b, j)) / 13. -/
theorem k0_pay6_apply (v3 : Vec Ideal S8x512x640 .bf16) (v5 : Vec Ideal S8x256x640 .bf16) (v8 : Vec Ideal S8x512 .f32)
    (v10 : Vec Ideal S8x256 .f32) (b : Fin 8) (r : Fin 512) (j : Fin 256) :
    k0_pay6 v3 v5 v8 v10 (ix3 b r j)
      = Ideal.div (Ideal.ofBits .f32 0x40000000#32 * (∑ d : Fin 640, v3 (ix3 b r d) * v5 (ix3 b j d))
          - v8 (ix2 b r) - v10 (ix2 b j)) (Ideal.ofBits .f32 0x41500000#32) := by
  unfold k0_pay6
  rw [shapeCast_self, shapeCast_self, shapeCast_self, shapeCast_self]
  rw [divf_apply, subf_apply, subf_apply, mulf_apply, broadcast_apply, broadcast_apply, keepLast_apply, keepMid_apply]
  exact congrArg (fun t : EReal => Ideal.div (Ideal.ofBits .f32 0x40000000#32 * t - v8 (ix2 b r) - v10 (ix2 b j))
      (Ideal.ofBits .f32 0x41500000#32))
    (matmul_batch_nt_apply Facts₀.dot_S8x512x640_S8x256x640_S8x512x256_2_2_1_1_0_0_wf none
      (v3 : FVec Ideal S8x512x640 .bf16) (v5 : FVec Ideal S8x256x640 .bf16) b r j)

variable (Qb : Fin 8 → Fin 512 → Fin 640 → ℝ) (Kb : Fin 8 → Fin 256 → Fin 640 → ℝ) (QQb : Fin 8 → Fin 512 → ℝ)
  (KKb : Fin 8 → Fin 256 → ℝ)

/-- On real-valued blocks the logits' block is the block of logits. -/
theorem k0_pay6_eq :
    k0_pay6 (F := Ideal) (lift3 Qb) (lift3 Kb) (lift2 QQb) (lift2 KKb) = lift3 (scoreTile Qb Kb QQb KKb) := by
  funext x
  obtain ⟨b, r, j, rfl⟩ : ∃ (b : Fin 8) (r : Fin 512) (j : Fin 256), x = ix3 b r j := ⟨x 0, x 1, x 2, eq_ix3 x⟩
  rw [k0_pay6_apply]
  show Ideal.div (Ideal.ofBits .f32 0x40000000#32 * (∑ d : Fin 640, ((Qb b r d : ℝ) : EReal) * ((Kb b j d : ℝ) : EReal))
      - ((QQb b r : ℝ) : EReal) - ((KKb b j : ℝ) : EReal)) (Ideal.ofBits .f32 0x41500000#32)
    = ((scoreTile Qb Kb QQb KKb b r j : ℝ) : EReal)
  rw [ofBits_two, ofBits_thirteen]
  simp only [← EReal.coe_mul]
  rw [sum_coe, logit_coe]
  rfl

/-- The running maximum: the larger of the carried maximum and the largest logit of the row. -/
theorem k0_pay7_apply (v22 : Vec Ideal S8x512 .f32) (b : Fin 8) (r : Fin 512) :
    k0_pay7 (lift3 Qb) (lift3 Kb) (lift2 QQb) (lift2 KKb) v22 (ix2 b r)
      = max (v22 (ix2 b r))
          ((Finset.univ.sup' Finset.univ_nonempty (fun j : Fin 256 => scoreTile Qb Kb QQb KKb b r j) : ℝ) : EReal) := by
  unfold k0_pay7
  rw [maximumf_apply]
  refine congrArg (max (v22 (ix2 b r))) ?_
  refine (lastMax_apply (k0_pay6 (F := Ideal) (lift3 Qb) (lift3 Kb) (lift2 QQb) (lift2 KKb)) _ _ _ b r).trans ?_
  rw [k0_pay6_eq]
  exact sup_coe_eq_coe_sup' (fun j : Fin 256 => scoreTile Qb Kb QQb KKb b r j)

/-- The shifted exponentials: exp (logit − new maximum). -/
theorem k0_pay8_apply (v22 : Vec Ideal S8x512 .f32) (b : Fin 8) (r : Fin 512) (j : Fin 256) :
    k0_pay8 (lift3 Qb) (lift3 Kb) (lift2 QQb) (lift2 KKb) v22 (ix3 b r j)
      = Ideal.exp (((scoreTile Qb Kb QQb KKb b r j : ℝ) : EReal)
          - k0_pay7 (lift3 Qb) (lift3 Kb) (lift2 QQb) (lift2 KKb) v22 (ix2 b r)) := by
  unfold k0_pay8
  rw [exp_apply, subf_apply, keepLast_apply, k0_pay6_eq]
  rfl

/-- The carried sum rescaled by exp (old maximum − new maximum). -/
theorem k0_pay9_apply (v22 v25 v32 : Vec Ideal S8x512 .f32) (b : Fin 8) (r : Fin 512) :
    k0_pay9 (lift3 Qb) (lift3 Kb) (lift2 QQb) (lift2 KKb) v22 v25 v32 (ix2 b r)
      = Ideal.exp (v25 (ix2 b r) - k0_pay7 (lift3 Qb) (lift3 Kb) (lift2 QQb) (lift2 KKb) v22 (ix2 b r))
          * v32 (ix2 b r) := rfl

end Cert.Attn.Pay

end
-- ==== Proof.Step0.lean ====
/-
  Region 0 (the statistics pass) on real data. One grid point's update of the carried pair (running
  row maximum, running shifted exponential sum) maps embeddings of real arrays to embeddings of real
  arrays, by the streaming softmax step; iterated over the eight key blocks of a row block it ends at
  the row maximum and the row's shifted exponential sum of the specification, so the block written at
  the last key block is the row-wise log-sum-exp.
-/
import proofs.«101240_j549755814005_2_alg».proof.Proof.Frame0Defs
import proofs.«101240_j549755814005_2_alg».proof.Proof.Algebra
import proofs.«101240_j549755814005_2_alg».proof.Proof.Tiles
import proofs.«101240_j549755814005_2_alg».proof.Proof.Pay0

set_option maxRecDepth 16384

noncomputable section

namespace Cert.Attn.Step

open Idealize.ShloMosaic Idealize.ShloMosaic.ValueIdx
open Cert.KernelIdeal Cert.KernelIdeal.Gen Cert.KernelIdeal.Hand0
open Cert.Attn Cert.Attn.Alg Cert.Attn.Pay

/-! ### One point of the statistics pass on real data -/

/-- Two arrays over a rank-2 shape are equal when they agree at every pair of coordinates. -/
theorem ext2 {A B : ℕ} {f g : (⟨2, ![A, B]⟩ : Shape).Idx → EReal}
    (h : ∀ (a : Fin A) (b : Fin B), f (ix2 a b) = g (ix2 a b)) : f = g := by
  funext x
  obtain ⟨a, b, rfl⟩ : ∃ (a : Fin A) (b : Fin B), x = ix2 a b := ⟨x 0, x 1, eq_ix2 x⟩
  exact h a b

theorem lift2_ix2 {A B : ℕ} (f : Fin A → Fin B → ℝ) (a : Fin A) (b : Fin B) :
    lift2 f (ix2 a b) = ((f a b : ℝ) : EReal) := rfl

section Point
variable (Qb : Fin 8 → Fin 512 → Fin 640 → ℝ) (Kb : Fin 8 → Fin 256 → Fin 640 → ℝ)
    (QQb : Fin 8 → Fin 512 → ℝ) (KKb : Fin 8 → Fin 256 → ℝ)

/-- The largest logit of a row of the point's tile. -/
def tmax0 (b : Fin 8) (r : Fin 512) : ℝ :=
  Finset.univ.sup' Finset.univ_nonempty (fun j : Fin 256 => scoreTile Qb Kb QQb KKb b r j)

/-- The update of a pair of real arrays: the streaming softmax step. -/
theorem upd0_lift (mr lr : Fin 8 → Fin 512 → ℝ) :
    upd0 (F := Ideal) (lift3 Qb) (lift3 Kb) (lift2 QQb) (lift2 KKb) (lift2 mr, lift2 lr)
      = (lift2 (fun b r => max (mr b r) (tmax0 Qb Kb QQb KKb b r)),
         lift2 (fun b r => Real.exp (mr b r - max (mr b r) (tmax0 Qb Kb QQb KKb b r)) * lr b r
           + ∑ j, Real.exp (scoreTile Qb Kb QQb KKb b r j - max (mr b r) (tmax0 Qb Kb QQb KKb b r)))) := by
  have h7 : ∀ (b : Fin 8) (r : Fin 512),
      k0_pay7 (F := Ideal) (lift3 Qb) (lift3 Kb) (lift2 QQb) (lift2 KKb) (lift2 mr) (ix2 b r)
        = ((max (mr b r) (tmax0 Qb Kb QQb KKb b r) : ℝ) : EReal) := by
    intro b r
    rw [k0_pay7_apply, lift2_ix2, max_coe_coe]; rfl
  have hupd : upd0 (F := Ideal) (lift3 Qb) (lift3 Kb) (lift2 QQb) (lift2 KKb) (lift2 mr, lift2 lr)
      = (k0_pay2 (F := Ideal) (k0_pay7 (F := Ideal) (lift3 Qb) (lift3 Kb) (lift2 QQb) (lift2 KKb) (lift2 mr)),
         k0_pay1 (F := Ideal) (k0_pay8 (F := Ideal) (lift3 Qb) (lift3 Kb) (lift2 QQb) (lift2 KKb) (lift2 mr))
           (k0_pay9 (F := Ideal) (lift3 Qb) (lift3 Kb) (lift2 QQb) (lift2 KKb) (lift2 mr) (lift2 mr) (lift2 lr))) := rfl
  rw [hupd, k0_pay2_eq]
  refine congrArg₂ Prod.mk (ext2 fun b r => ?_) (ext2 fun b r => ?_)
  · rw [h7, lift2_ix2]
  · have h8 : ∀ j : Fin 256,
        k0_pay8 (F := Ideal) (lift3 Qb) (lift3 Kb) (lift2 QQb) (lift2 KKb) (lift2 mr) (ix3 b r j)
          = ((Real.exp (scoreTile Qb Kb QQb KKb b r j - max (mr b r) (tmax0 Qb Kb QQb KKb b r)) : ℝ) : EReal) := by
      intro j
      rw [k0_pay8_apply, h7, sub_coe_coe, Alg.exp_coe]
    rw [k0_pay1_apply, k0_pay9_apply, h7, lift2_ix2, lift2_ix2, lift2_ix2, sub_coe_coe, Alg.exp_coe, mul_coe_coe,
      Finset.sum_congr rfl (fun j _ => h8 j), sum_coe, add_coe_coe]

/-- The update of the reset pair (`-∞`, `0`): the first tile's maximum and shifted exponential sum. -/
theorem upd0_init :
    upd0 (F := Ideal) (lift3 Qb) (lift3 Kb) (lift2 QQb) (lift2 KKb) (init0 (F := Ideal))
      = (lift2 (fun b r => tmax0 Qb Kb QQb KKb b r),
         lift2 (fun b r => ∑ j, Real.exp (scoreTile Qb Kb QQb KKb b r j - tmax0 Qb Kb QQb KKb b r))) := by
  have h7 : ∀ (b : Fin 8) (r : Fin 512),
      k0_pay7 (F := Ideal) (lift3 Qb) (lift3 Kb) (lift2 QQb) (lift2 KKb) (k0_pay4 (F := Ideal)) (ix2 b r)
        = ((tmax0 Qb Kb QQb KKb b r : ℝ) : EReal) := by
    intro b r
    rw [k0_pay7_apply, k0_pay4_eq, max_bot_coe]; rfl
  have hupd : upd0 (F := Ideal) (lift3 Qb) (lift3 Kb) (lift2 QQb) (lift2 KKb) (init0 (F := Ideal))
      = (k0_pay2 (F := Ideal) (k0_pay7 (F := Ideal) (lift3 Qb) (lift3 Kb) (lift2 QQb) (lift2 KKb) (k0_pay4 (F := Ideal))),
         k0_pay1 (F := Ideal) (k0_pay8 (F := Ideal) (lift3 Qb) (lift3 Kb) (lift2 QQb) (lift2 KKb) (k0_pay4 (F := Ideal)))
           (k0_pay9 (F := Ideal) (lift3 Qb) (lift3 Kb) (lift2 QQb) (lift2 KKb) (k0_pay4 (F := Ideal))
             (k0_pay4 (F := Ideal)) (k0_pay5 (F := Ideal)))) := rfl
  rw [hupd, k0_pay2_eq]
  refine congrArg₂ Prod.mk (ext2 fun b r => ?_) (ext2 fun b r => ?_)
  · rw [h7, lift2_ix2]
  · have h8 : ∀ j : Fin 256,
        k0_pay8 (F := Ideal) (lift3 Qb) (lift3 Kb) (lift2 QQb) (lift2 KKb) (k0_pay4 (F := Ideal)) (ix3 b r j)
          = ((Real.exp (scoreTile Qb Kb QQb KKb b r j - tmax0 Qb Kb QQb KKb b r) : ℝ) : EReal) := by
      intro j
      rw [k0_pay8_apply, h7, sub_coe_coe, Alg.exp_coe]
    have h5 : k0_pay5 (F := Ideal) (ix2 b r) = (0 : EReal) := by rw [k0_pay5_eq]
    rw [k0_pay1_apply, k0_pay9_apply, h5, mul_zero, zero_add, Finset.sum_congr rfl (fun j _ => h8 j), sum_coe, lift2_ix2]

/-- The block written at the last key block, on real data with a positive sum. -/
theorem pay3_lift (mr lr : Fin 8 → Fin 512 → ℝ) (hl : ∀ b r, 0 < lr b r) :
    k0_pay3 (F := Ideal) (lift2 mr) (lift2 lr) = lift2 (fun b r => mr b r + Real.log (lr b r)) := by
  refine ext2 (fun b r => ?_)
  rw [k0_pay3_apply, lift2_ix2, lift2_ix2, lift2_ix2, log_coe_pos (hl b r), add_coe_coe]

end Point

/-! ### The eight key blocks of a row block -/

section Region
variable (q k : Fin 8 → Fin 2048 → Fin 640 → ℝ)

/-- The logits of query row `i` of batch `b` against the key rows of key block `t`. -/
def tileA (b : Fin 8) (i : Fin 2048) : ℕ → Fin 256 → ℝ := fun t j => score q k b i (colk t j)

theorem colk_mod (n : ℕ) (j : Fin 256) : colk n j = colk (n % 8) j :=
  Fin.ext (by rw [colk_val, colk_val, Nat.mod_mod])

/-- For the eight key blocks, `colk` lists the row's columns tile by tile. -/
theorem colk_col (t : ℕ) (ht : t < 8) (j : Fin 256) : ((colk t j : Fin 2048) : ℕ) = t * 256 + j := by
  rw [colk_val, Nat.mod_eq_of_lt ht, Nat.mul_comm]

/-- Within a row block the query rows do not change from one position to the next. -/
theorem rowq_succ (n : ℕ) (h : ¬(n + 1) % 8 = 0) : rowq (n + 1) = rowq n := by
  funext r
  apply Fin.ext
  rw [rowq_val, rowq_val]
  omega

/-- The point's tile of logits, from the blocks of the real arrays at position `n`, is the
    specification's logit of the rows the block rows stand for. -/
theorem scoreTile_blocks (n : ℕ) (b : Fin 8) (r : Fin 512) (j : Fin 256) :
    scoreTile (fun b r d => q b (rowq n r) d) (fun b j d => k b (colk n j) d)
        (fun b r => sqn q b (rowq n r)) (fun b j => sqn k b (colk n j)) b r j
      = tileA q k b (rowq n r) (n % 8) j := by
  show _ = score q k b (rowq n r) (colk (n % 8) j)
  rw [← colk_mod]; rfl

theorem tmax0_blocks (n : ℕ) (b : Fin 8) (r : Fin 512) :
    tmax0 (fun b r d => q b (rowq n r) d) (fun b j d => k b (colk n j) d)
        (fun b r => sqn q b (rowq n r)) (fun b j => sqn k b (colk n j)) b r
      = tileMax (tileA q k b (rowq n r)) (n % 8) :=
  Finset.sup'_congr _ rfl (fun j _ => scoreTile_blocks q k n b r j)

/-- One streaming step, on the reals: the pair after tile `e + 1` from the pair after tile `e`. -/
theorem run_step (a : ℕ → Fin 256 → ℝ) (e : ℕ) (S : Fin 256 → ℝ) (hS : ∀ j, S j = a (e + 1) j) :
    max (runMax a e) (Finset.univ.sup' Finset.univ_nonempty S) = runMax a (e + 1)
    ∧ Real.exp (runMax a e - max (runMax a e) (Finset.univ.sup' Finset.univ_nonempty S)) * runSum a e
        + ∑ j, Real.exp (S j - max (runMax a e) (Finset.univ.sup' Finset.univ_nonempty S))
      = runSum a (e + 1) := by
  have hS' : S = a (e + 1) := funext hS
  subst hS'
  exact ⟨rfl, rfl⟩

/-- The opening step, on the reals: the pair after tile `0`. -/
theorem run_first (a : ℕ → Fin 256 → ℝ) (S : Fin 256 → ℝ) (hS : ∀ j, S j = a 0 j) :
    Finset.univ.sup' Finset.univ_nonempty S = runMax a 0
    ∧ ∑ j, Real.exp (S j - Finset.univ.sup' Finset.univ_nonempty S) = runSum a 0 := by
  have hS' : S = a 0 := funext hS
  subst hS'
  exact ⟨rfl, rfl⟩

/-- The carried pair after position `n`: the running maximum and running sum over the key blocks
    `0, …, n % 8` of the position's row block. -/
theorem region0_pair (s : (n : ℕ) → n ≤ 32 → (FVec Ideal S8x512 .f32 × FVec Ideal S8x512 .f32))
    (hs : ∀ (n : ℕ) (hn : n < 32), s (n + 1) hn
      = upd0 (F := Ideal) (lift3 (fun b r d => q b (rowq n r) d)) (lift3 (fun b j d => k b (colk n j) d))
          (lift2 (fun b r => sqn q b (rowq n r))) (lift2 (fun b j => sqn k b (colk n j)))
          (if n % 8 = 0 then init0 (F := Ideal) else s n (Nat.le_of_lt hn))) :
    ∀ (n : ℕ) (hn : n < 32), s (n + 1) hn
      = (lift2 (fun b r => runMax (tileA q k b (rowq n r)) (n % 8)),
         lift2 (fun b r => runSum (tileA q k b (rowq n r)) (n % 8))) := by
  have first : ∀ (n : ℕ) (hn : n < 32), n % 8 = 0 → s (n + 1) hn
      = (lift2 (fun b r => runMax (tileA q k b (rowq n r)) (n % 8)),
         lift2 (fun b r => runSum (tileA q k b (rowq n r)) (n % 8))) := by
    intro n hn h
    rw [hs n hn, if_pos h, upd0_init, h]
    refine congrArg₂ Prod.mk (congrArg lift2 ?_) (congrArg lift2 ?_)
    · funext b r
      exact (run_first (tileA q k b (rowq n r)) _
        (fun j => (scoreTile_blocks q k n b r j).trans (by rw [h]))).1
    · funext b r
      exact (run_first (tileA q k b (rowq n r)) _
        (fun j => (scoreTile_blocks q k n b r j).trans (by rw [h]))).2
  intro n
  induction n with
  | zero => intro hn; exact first 0 hn (Nat.zero_mod 8)
  | succ m ih =>
    intro hn
    by_cases h : (m + 1) % 8 = 0
    · exact first (m + 1) hn h
    · have he : (m + 1) % 8 = m % 8 + 1 := by omega
      rw [hs (m + 1) hn, if_neg h, ih (Nat.lt_of_succ_lt hn), upd0_lift, he, rowq_succ m h]
      refine congrArg₂ Prod.mk (congrArg lift2 ?_) (congrArg lift2 ?_)
      · funext b r
        exact (run_step (tileA q k b (rowq m r)) (m % 8) _ (fun j => by
          have h1 := scoreTile_blocks q k (m + 1) b r j
          rw [he, rowq_succ m h] at h1
          exact h1)).1
      · funext b r
        exact (run_step (tileA q k b (rowq m r)) (m % 8) _ (fun j => by
          have h1 := scoreTile_blocks q k (m + 1) b r j
          rw [he, rowq_succ m h] at h1
          exact h1)).2

/-- The block written at the last key block of a row block is the row-wise log-sum-exp. -/
theorem region0_out (s : (n : ℕ) → n ≤ 32 → (FVec Ideal S8x512 .f32 × FVec Ideal S8x512 .f32))
    (hs : ∀ (n : ℕ) (hn : n < 32), s (n + 1) hn
      = upd0 (F := Ideal) (lift3 (fun b r d => q b (rowq n r) d)) (lift3 (fun b j d => k b (colk n j) d))
          (lift2 (fun b r => sqn q b (rowq n r))) (lift2 (fun b j => sqn k b (colk n j)))
          (if n % 8 = 0 then init0 (F := Ideal) else s n (Nat.le_of_lt hn)))
    (n : ℕ) (hn : n < 32) (h7 : n % 8 = 7) :
    k0_pay3 (F := Ideal) (s (n + 1) hn).1 (s (n + 1) hn).2
      = lift2 (fun b r => rowMax q k b (rowq n r) + Real.log (rowSum q k b (rowq n r))) := by
  rw [region0_pair q k s hs n hn, h7]
  dsimp only
  rw [pay3_lift _ _ (fun b r => runSum_pos _ _)]
  refine congrArg lift2 ?_
  funext b r
  have hM : rowMax q k b (rowq n r) = runMax (tileA q k b (rowq n r)) 7 :=
    rowMax_eq_runMax (T := 8) (W := 256) (by norm_num) q k b (rowq n r) colk
      (fun t ht j => colk_col t ht j) (tileA q k b (rowq n r)) (fun _ _ _ => rfl)
  have hS : rowSum q k b (rowq n r) = runSum (tileA q k b (rowq n r)) 7 :=
    rowSum_eq_runSum (T := 8) (W := 256) (by norm_num) q k b (rowq n r) colk
      (fun t ht j => colk_col t ht j) (tileA q k b (rowq n r)) (fun _ _ _ => rfl)
  rw [hM, hS]

end Region

end Cert.Attn.Step

end
-- ==== Proof.Value0.lean ====
/-
  Region 0's final array. The statistics pass writes, at the last key block of each row block, the block
  maximum + log sum of the carried pair; iterating the streaming softmax step over the row block's key blocks makes that
  block the row-wise log-sum-exp of the logits, and the written blocks cover the array: the statistics array ends
  holding rowMax + log rowSum.
-/
import proofs.«101240_j549755814005_2_alg».proof.Proof.Frame0Defs
import proofs.«101240_j549755814005_2_alg».proof.Proof.Blocks0
import proofs.«101240_j549755814005_2_alg».proof.Proof.Step0

set_option maxRecDepth 16384

noncomputable section

namespace Cert.KernelIdeal.Value0

open Cert.KernelIdeal Cert.KernelIdeal.Gen Idealize.ShloMosaic Idealize.ShloMosaic.TcCoe Idealize.SL.Sem
open Cert.Attn Cert.Attn.Step

variable (V : (c : Dev nD) → Valuation τ sig (Elt Ideal)) (c : Dev nD) (q k : Fin 8 → Fin 2048 → Fin 640 → ℝ)

/-- The carried pair after each position is the streaming softmax step of the position's real blocks. -/
theorem scr0_step (hq : (V c main_v0 : S8x2048x640.Idx → EReal) = lift3 q)
    (hk : (V c main_v1 : S8x2048x640.Idx → EReal) = lift3 k)
    (hqq : (V c main_v4 : S8x2048.Idx → EReal) = lift2 (sqn q))
    (hkk : (V c main_v6 : S8x2048.Idx → EReal) = lift2 (sqn k)) (n : ℕ) (hn : n < 32) :
    Hand0.scr0 V c (n + 1) (lt_of_lt_of_eq hn N_0.symm)
      = Hand0.upd0 (F := Ideal) (lift3 (fun b r d => q b (rowq n r) d)) (lift3 (fun b j d => k b (colk n j) d))
          (lift2 (fun b r => sqn q b (rowq n r))) (lift2 (fun b j => sqn k b (colk n j)))
          (if n % 8 = 0 then Hand0.init0 (F := Ideal) else Hand0.scr0 V c n (le_of_le_of_eq (Nat.le_of_lt hn) N_0.symm)) := by
  have hn' : n < cfg0.N := lt_of_lt_of_eq hn N_0.symm
  have b0 : Hand0.iblk0 V c 0 ⟨n, hn'⟩ = lift3 (fun b r d => q b (rowq n r) d) := Blocks0.read0_0 c _ q hq ⟨n, hn'⟩
  have b1 : Hand0.iblk0 V c 1 ⟨n, hn'⟩ = lift3 (fun b j d => k b (colk n j) d) := Blocks0.read0_1 c _ k hk ⟨n, hn'⟩
  have b2 : Hand0.iblk0 V c 2 ⟨n, hn'⟩ = lift2 (fun b r => sqn q b (rowq n r)) := Blocks0.read0_2 c _ (sqn q) hqq ⟨n, hn'⟩
  have b3 : Hand0.iblk0 V c 3 ⟨n, hn'⟩ = lift2 (fun b j => sqn k b (colk n j)) := Blocks0.read0_3 c _ (sqn k) hkk ⟨n, hn'⟩
  show Hand0.upd0 (Hand0.iblk0 V c 0 ⟨n, hn'⟩) (Hand0.iblk0 V c 1 ⟨n, hn'⟩) (Hand0.iblk0 V c 2 ⟨n, hn'⟩)
      (Hand0.iblk0 V c 3 ⟨n, hn'⟩) (if n % 8 = 0 then Hand0.init0 else Hand0.scr0 V c n (Nat.le_of_lt hn')) = _
  rw [b0, b1, b2, b3]

/-- THE STATISTICS ARRAY after region 0: the row maximum plus the logarithm of the row's shifted exponential sum. -/
theorem final0 (hq : (V c main_v0 : S8x2048x640.Idx → EReal) = lift3 q)
    (hk : (V c main_v1 : S8x2048x640.Idx → EReal) = lift3 k)
    (hqq : (V c main_v4 : S8x2048.Idx → EReal) = lift2 (sqn q))
    (hkk : (V c main_v6 : S8x2048.Idx → EReal) = lift2 (sqn k)) :
    ((Hand0.dat0 V c).arrAt 4 cfg0.N : S8x2048.Idx → EReal)
      = lift2 (fun b i => rowMax q k b i + Real.log (rowSum q k b i)) := by
  refine (Hand0.dat0 V c).arrAt_eq_of_cover 4 (lift2 (fun b i => rowMax q k b i + Real.log (rowSum q k b i)))
    (fun t hflush => ?_) Blocks0.cover4
  show (cfg0.win 4).cut (grid0.coords t) ((Hand0.dat0 V c).after 4 t) = _
  rw [Hand0.after0_4]
  refine Eq.trans ?_ (Blocks0.read0_4 c _ (fun b i => rowMax q k b i + Real.log (rowSum q k b i)) rfl t).symm
  have h7 : t.val % 8 = 7 := (flush0_4 t).mp hflush
  have ht : t.val < 32 := lt_of_lt_of_eq t.isLt N_0
  exact region0_out q k (fun n hn => Hand0.scr0 V c n (le_of_le_of_eq hn N_0.symm))
    (fun n hn => scr0_step V c q k hq hk hqq hkk n hn) t.val ht h7

end Cert.KernelIdeal.Value0

end
-- ==== Proof.Blocks1.lean ====
/-
  Region 1's windows read on real arrays. At grid position `t` (row block `t / 16` of 256 query rows, key block
  `t % 16` of 128 key rows) each input window's block is the corresponding rows of its array, the two tile outputs'
  blocks are the (row block, key block) tiles of the [8, 2048, 2048] arrays, and the accumulated output's block is
  the row block of the [8, 2048, 640] array; a block of a lifted real array is the lifted real block. The tile
  outputs are written back at every position and the accumulated output at the last key block of each row block;
  in both cases the written blocks cover the array.
-/
import proofs.«101240_j549755814005_2_alg».proof.Proof.Gen.KernelIdeal.Launch
import proofs.«101240_j549755814005_2_alg».proof.Proof.Gen.KernelIdeal.Points
import proofs.«101240_j549755814005_2_alg».proof.Proof.Spec
import proofs.«101240_j549755814005_2_alg».proof.Proof.Tiles
import Idealize.ShloMosaic.Lib.Pipeline.Value

set_option maxRecDepth 16384
noncomputable section
namespace Cert.KernelIdeal.Blocks1
open Cert.KernelIdeal Cert.KernelIdeal.Gen Idealize.ShloMosaic Idealize.ShloMosaic.TcCoe Idealize.SL.Sem
open Cert.Attn

/-! ## The index maps over the grid -/

theorem idx1_0 : ∀ t : Fin cfg1.N, win1_0.index t (0 : Fin 3) = 0 ∧ win1_0.index t (1 : Fin 3) = t.val / 16 % 8 ∧ win1_0.index t (2 : Fin 3) = 0 :=
  (by decide +kernel : ∀ t : Fin grid1.N, win1_0.index t (0 : Fin 3) = 0 ∧ win1_0.index t (1 : Fin 3) = t.val / 16 % 8 ∧ win1_0.index t (2 : Fin 3) = 0)
theorem idx1_1 : ∀ t : Fin cfg1.N, win1_1.index t (0 : Fin 3) = 0 ∧ win1_1.index t (1 : Fin 3) = t.val % 16 ∧ win1_1.index t (2 : Fin 3) = 0 :=
  (by decide +kernel : ∀ t : Fin grid1.N, win1_1.index t (0 : Fin 3) = 0 ∧ win1_1.index t (1 : Fin 3) = t.val % 16 ∧ win1_1.index t (2 : Fin 3) = 0)
theorem idx1_2 : ∀ t : Fin cfg1.N, win1_2.index t (0 : Fin 3) = 0 ∧ win1_2.index t (1 : Fin 3) = t.val % 16 ∧ win1_2.index t (2 : Fin 3) = 0 :=
  (by decide +kernel : ∀ t : Fin grid1.N, win1_2.index t (0 : Fin 3) = 0 ∧ win1_2.index t (1 : Fin 3) = t.val % 16 ∧ win1_2.index t (2 : Fin 3) = 0)
theorem idx1_3 : ∀ t : Fin cfg1.N, win1_3.index t (0 : Fin 2) = 0 ∧ win1_3.index t (1 : Fin 2) = t.val / 16 % 8 :=
  (by decide +kernel : ∀ t : Fin grid1.N, win1_3.index t (0 : Fin 2) = 0 ∧ win1_3.index t (1 : Fin 2) = t.val / 16 % 8)
theorem idx1_4 : ∀ t : Fin cfg1.N, win1_4.index t (0 : Fin 2) = 0 ∧ win1_4.index t (1 : Fin 2) = t.val % 16 :=
  (by decide +kernel : ∀ t : Fin grid1.N, win1_4.index t (0 : Fin 2) = 0 ∧ win1_4.index t (1 : Fin 2) = t.val % 16)
theorem idx1_5 : ∀ t : Fin cfg1.N, win1_5.index t (0 : Fin 2) = 0 ∧ win1_5.index t (1 : Fin 2) = t.val / 16 % 8 :=
  (by decide +kernel : ∀ t : Fin grid1.N, win1_5.index t (0 : Fin 2) = 0 ∧ win1_5.index t (1 : Fin 2) = t.val / 16 % 8)
theorem idx1_6 : ∀ t : Fin cfg1.N, win1_6.index t (0 : Fin 3) = 0 ∧ win1_6.index t (1 : Fin 3) = t.val / 16 % 8 ∧ win1_6.index t (2 : Fin 3) = t.val % 16 :=
  (by decide +kernel : ∀ t : Fin grid1.N, win1_6.index t (0 : Fin 3) = 0 ∧ win1_6.index t (1 : Fin 3) = t.val / 16 % 8 ∧ win1_6.index t (2 : Fin 3) = t.val % 16)
theorem idx1_7 : ∀ t : Fin cfg1.N, win1_7.index t (0 : Fin 3) = 0 ∧ win1_7.index t (1 : Fin 3) = t.val / 16 % 8 ∧ win1_7.index t (2 : Fin 3) = t.val % 16 :=
  (by decide +kernel : ∀ t : Fin grid1.N, win1_7.index t (0 : Fin 3) = 0 ∧ win1_7.index t (1 : Fin 3) = t.val / 16 % 8 ∧ win1_7.index t (2 : Fin 3) = t.val % 16)
theorem idx1_8 : ∀ t : Fin cfg1.N, win1_8.index t (0 : Fin 3) = 0 ∧ win1_8.index t (1 : Fin 3) = t.val / 16 % 8 ∧ win1_8.index t (2 : Fin 3) = 0 :=
  (by decide +kernel : ∀ t : Fin grid1.N, win1_8.index t (0 : Fin 3) = 0 ∧ win1_8.index t (1 : Fin 3) = t.val / 16 % 8 ∧ win1_8.index t (2 : Fin 3) = 0)

variable (c : Dev nD)

/-! ## A block of a lifted array is the lifted block -/

theorem read1_0 (A : Buf (Elt Ideal) ((cfg1.win 0).arr.view.loc (c.tc : Thread nD τ))) (q : Fin 8 → Fin 2048 → Fin 640 → ℝ)
    (h : (A : S8x2048x640.Idx → EReal) = lift3 q) (t : Fin cfg1.N) :
    (((cfg1.win 0).blk t).view.read (Elt Ideal) A : S8x256x640.Idx → EReal) = lift3 (fun b r d => q b (rowq1 t.val r) d) := by
  funext y
  show (A : S8x2048x640.Idx → EReal) (((cfg1.win 0).blk t).view.emb y) = _
  rw [h]
  obtain ⟨h0, h1, h2⟩ := idx1_0 t
  have e0 : ((((cfg1.win 0).blk t).view.emb y) 0 : Fin 8) = y 0 :=
    Fin.ext (by show win1_0.index t (0 : Fin 3) * 8 + 1 * (y 0).val = (y 0).val; rw [h0]; omega)
  have e1 : ((((cfg1.win 0).blk t).view.emb y) 1 : Fin 2048) = rowq1 t.val (y 1) :=
    Fin.ext (by show win1_0.index t (1 : Fin 3) * 256 + 1 * (y 1).val = 256 * (t.val / 16 % 8) + (y 1).val; rw [h1]; omega)
  have e2 : ((((cfg1.win 0).blk t).view.emb y) 2 : Fin 640) = y 2 :=
    Fin.ext (by show win1_0.index t (2 : Fin 3) * 640 + 1 * (y 2).val = (y 2).val; rw [h2]; omega)
  show ((q _ _ _ : ℝ) : EReal) = ((q _ _ _ : ℝ) : EReal)
  rw [e0, e1, e2]

theorem read1_1 (A : Buf (Elt Ideal) ((cfg1.win 1).arr.view.loc (c.tc : Thread nD τ))) (k : Fin 8 → Fin 2048 → Fin 640 → ℝ)
    (h : (A : S8x2048x640.Idx → EReal) = lift3 k) (t : Fin cfg1.N) :
    (((cfg1.win 1).blk t).view.read (Elt Ideal) A : S8x128x640.Idx → EReal) = lift3 (fun b r d => k b (colk1 t.val r) d) := by
  funext y
  show (A : S8x2048x640.Idx → EReal) (((cfg1.win 1).blk t).view.emb y) = _
  rw [h]
  obtain ⟨h0, h1, h2⟩ := idx1_1 t
  have e0 : ((((cfg1.win 1).blk t).view.emb y) 0 : Fin 8) = y 0 :=
    Fin.ext (by show win1_1.index t (0 : Fin 3) * 8 + 1 * (y 0).val = (y 0).val; rw [h0]; omega)
  have e1 : ((((cfg1.win 1).blk t).view.emb y) 1 : Fin 2048) = colk1 t.val (y 1) :=
    Fin.ext (by show win1_1.index t (1 : Fin 3) * 128 + 1 * (y 1).val = 128 * (t.val % 16) + (y 1).val; rw [h1]; omega)
  have e2 : ((((cfg1.win 1).blk t).view.emb y) 2 : Fin 640) = y 2 :=
    Fin.ext (by show win1_1.index t (2 : Fin 3) * 640 + 1 * (y 2).val = (y 2).val; rw [h2]; omega)
  show ((k _ _ _ : ℝ) : EReal) = ((k _ _ _ : ℝ) : EReal)
  rw [e0, e1, e2]

theorem read1_2 (A : Buf (Elt Ideal) ((cfg1.win 2).arr.view.loc (c.tc : Thread nD τ))) (v : Fin 8 → Fin 2048 → Fin 640 → ℝ)
    (h : (A : S8x2048x640.Idx → EReal) = lift3 v) (t : Fin cfg1.N) :
    (((cfg1.win 2).blk t).view.read (Elt Ideal) A : S8x128x640.Idx → EReal) = lift3 (fun b r d => v b (colk1 t.val r) d) := by
  funext y
  show (A : S8x2048x640.Idx → EReal) (((cfg1.win 2).blk t).view.emb y) = _
  rw [h]
  obtain ⟨h0, h1, h2⟩ := idx1_2 t
  have e0 : ((((cfg1.win 2).blk t).view.emb y) 0 : Fin 8) = y 0 :=
    Fin.ext (by show win1_2.index t (0 : Fin 3) * 8 + 1 * (y 0).val = (y 0).val; rw [h0]; omega)
  have e1 : ((((cfg1.win 2).blk t).view.emb y) 1 : Fin 2048) = colk1 t.val (y 1) :=
    Fin.ext (by show win1_2.index t (1 : Fin 3) * 128 + 1 * (y 1).val = 128 * (t.val % 16) + (y 1).val; rw [h1]; omega)
  have e2 : ((((cfg1.win 2).blk t).view.emb y) 2 : Fin 640) = y 2 :=
    Fin.ext (by show win1_2.index t (2 : Fin 3) * 640 + 1 * (y 2).val = (y 2).val; rw [h2]; omega)
  show ((v _ _ _ : ℝ) : EReal) = ((v _ _ _ : ℝ) : EReal)
  rw [e0, e1, e2]

theorem read1_3 (A : Buf (Elt Ideal) ((cfg1.win 3).arr.view.loc (c.tc : Thread nD τ))) (g : Fin 8 → Fin 2048 → ℝ)
    (h : (A : S8x2048.Idx → EReal) = lift2 g) (t : Fin cfg1.N) :
    (((cfg1.win 3).blk t).view.read (Elt Ideal) A : S8x256.Idx → EReal) = lift2 (fun b r => g b (rowq1 t.val r)) := by
  funext y
  show (A : S8x2048.Idx → EReal) (((cfg1.win 3).blk t).view.emb y) = _
  rw [h]
  obtain ⟨h0, h1⟩ := idx1_3 t
  have e0 : ((((cfg1.win 3).blk t).view.emb y) 0 : Fin 8) = y 0 :=
    Fin.ext (by show win1_3.index t (0 : Fin 2) * 8 + 1 * (y 0).val = (y 0).val; rw [h0]; omega)
  have e1 : ((((cfg1.win 3).blk t).view.emb y) 1 : Fin 2048) = rowq1 t.val (y 1) :=
    Fin.ext (by show win1_3.index t (1 : Fin 2) * 256 + 1 * (y 1).val = 256 * (t.val / 16 % 8) + (y 1).val; rw [h1]; omega)
  show ((g _ _ : ℝ) : EReal) = ((g _ _ : ℝ) : EReal)
  rw [e0, e1]

theorem read1_4 (A : Buf (Elt Ideal) ((cfg1.win 4).arr.view.loc (c.tc : Thread nD τ))) (g : Fin 8 → Fin 2048 → ℝ)
    (h : (A : S8x2048.Idx → EReal) = lift2 g) (t : Fin cfg1.N) :
    (((cfg1.win 4).blk t).view.read (Elt Ideal) A : S8x128.Idx → EReal) = lift2 (fun b r => g b (colk1 t.val r)) := by
  funext y
  show (A : S8x2048.Idx → EReal) (((cfg1.win 4).blk t).view.emb y) = _
  rw [h]
  obtain ⟨h0, h1⟩ := idx1_4 t
  have e0 : ((((cfg1.win 4).blk t).view.emb y) 0 : Fin 8) = y 0 :=
    Fin.ext (by show win1_4.index t (0 : Fin 2) * 8 + 1 * (y 0).val = (y 0).val; rw [h0]; omega)
  have e1 : ((((cfg1.win 4).blk t).view.emb y) 1 : Fin 2048) = colk1 t.val (y 1) :=
    Fin.ext (by show win1_4.index t (1 : Fin 2) * 128 + 1 * (y 1).val = 128 * (t.val % 16) + (y 1).val; rw [h1]; omega)
  show ((g _ _ : ℝ) : EReal) = ((g _ _ : ℝ) : EReal)
  rw [e0, e1]

theorem read1_5 (A : Buf (Elt Ideal) ((cfg1.win 5).arr.view.loc (c.tc : Thread nD τ))) (g : Fin 8 → Fin 2048 → ℝ)
    (h : (A : S8x2048.Idx → EReal) = lift2 g) (t : Fin cfg1.N) :
    (((cfg1.win 5).blk t).view.read (Elt Ideal) A : S8x256.Idx → EReal) = lift2 (fun b r => g b (rowq1 t.val r)) := by
  funext y
  show (A : S8x2048.Idx → EReal) (((cfg1.win 5).blk t).view.emb y) = _
  rw [h]
  obtain ⟨h0, h1⟩ := idx1_5 t
  have e0 : ((((cfg1.win 5).blk t).view.emb y) 0 : Fin 8) = y 0 :=
    Fin.ext (by show win1_5.index t (0 : Fin 2) * 8 + 1 * (y 0).val = (y 0).val; rw [h0]; omega)
  have e1 : ((((cfg1.win 5).blk t).view.emb y) 1 : Fin 2048) = rowq1 t.val (y 1) :=
    Fin.ext (by show win1_5.index t (1 : Fin 2) * 256 + 1 * (y 1).val = 256 * (t.val / 16 % 8) + (y 1).val; rw [h1]; omega)
  show ((g _ _ : ℝ) : EReal) = ((g _ _ : ℝ) : EReal)
  rw [e0, e1]

theorem read1_6 (A : Buf (Elt Ideal) ((cfg1.win 6).arr.view.loc (c.tc : Thread nD τ))) (g : Fin 8 → Fin 2048 → Fin 2048 → ℝ)
    (h : (A : S8x2048x2048.Idx → EReal) = lift3 g) (t : Fin cfg1.N) :
    (((cfg1.win 6).blk t).view.read (Elt Ideal) A : S8x256x128.Idx → EReal) = lift3 (fun b r d => g b (rowq1 t.val r) (colk1 t.val d)) := by
  funext y
  show (A : S8x2048x2048.Idx → EReal) (((cfg1.win 6).blk t).view.emb y) = _
  rw [h]
  obtain ⟨h0, h1, h2⟩ := idx1_6 t
  have e0 : ((((cfg1.win 6).blk t).view.emb y) 0 : Fin 8) = y 0 :=
    Fin.ext (by show win1_6.index t (0 : Fin 3) * 8 + 1 * (y 0).val = (y 0).val; rw [h0]; omega)
  have e1 : ((((cfg1.win 6).blk t).view.emb y) 1 : Fin 2048) = rowq1 t.val (y 1) :=
    Fin.ext (by show win1_6.index t (1 : Fin 3) * 256 + 1 * (y 1).val = 256 * (t.val / 16 % 8) + (y 1).val; rw [h1]; omega)
  have e2 : ((((cfg1.win 6).blk t).view.emb y) 2 : Fin 2048) = colk1 t.val (y 2) :=
    Fin.ext (by show win1_6.index t (2 : Fin 3) * 128 + 1 * (y 2).val = 128 * (t.val % 16) + (y 2).val; rw [h2]; omega)
  show ((g _ _ _ : ℝ) : EReal) = ((g _ _ _ : ℝ) : EReal)
  rw [e0, e1, e2]

theorem read1_7 (A : Buf (Elt Ideal) ((cfg1.win 7).arr.view.loc (c.tc : Thread nD τ))) (g : Fin 8 → Fin 2048 → Fin 2048 → ℝ)
    (h : (A : S8x2048x2048.Idx → EReal) = lift3 g) (t : Fin cfg1.N) :
    (((cfg1.win 7).blk t).view.read (Elt Ideal) A : S8x256x128.Idx → EReal) = lift3 (fun b r d => g b (rowq1 t.val r) (colk1 t.val d)) := by
  funext y
  show (A : S8x2048x2048.Idx → EReal) (((cfg1.win 7).blk t).view.emb y) = _
  rw [h]
  obtain ⟨h0, h1, h2⟩ := idx1_7 t
  have e0 : ((((cfg1.win 7).blk t).view.emb y) 0 : Fin 8) = y 0 :=
    Fin.ext (by show win1_7.index t (0 : Fin 3) * 8 + 1 * (y 0).val = (y 0).val; rw [h0]; omega)
  have e1 : ((((cfg1.win 7).blk t).view.emb y) 1 : Fin 2048) = rowq1 t.val (y 1) :=
    Fin.ext (by show win1_7.index t (1 : Fin 3) * 256 + 1 * (y 1).val = 256 * (t.val / 16 % 8) + (y 1).val; rw [h1]; omega)
  have e2 : ((((cfg1.win 7).blk t).view.emb y) 2 : Fin 2048) = colk1 t.val (y 2) :=
    Fin.ext (by show win1_7.index t (2 : Fin 3) * 128 + 1 * (y 2).val = 128 * (t.val % 16) + (y 2).val; rw [h2]; omega)
  show ((g _ _ _ : ℝ) : EReal) = ((g _ _ _ : ℝ) : EReal)
  rw [e0, e1, e2]

theorem read1_8 (A : Buf (Elt Ideal) ((cfg1.win 8).arr.view.loc (c.tc : Thread nD τ))) (g : Fin 8 → Fin 2048 → Fin 640 → ℝ)
    (h : (A : S8x2048x640.Idx → EReal) = lift3 g) (t : Fin cfg1.N) :
    (((cfg1.win 8).blk t).view.read (Elt Ideal) A : S8x256x640.Idx → EReal) = lift3 (fun b r d => g b (rowq1 t.val r) d) := by
  funext y
  show (A : S8x2048x640.Idx → EReal) (((cfg1.win 8).blk t).view.emb y) = _
  rw [h]
  obtain ⟨h0, h1, h2⟩ := idx1_8 t
  have e0 : ((((cfg1.win 8).blk t).view.emb y) 0 : Fin 8) = y 0 :=
    Fin.ext (by show win1_8.index t (0 : Fin 3) * 8 + 1 * (y 0).val = (y 0).val; rw [h0]; omega)
  have e1 : ((((cfg1.win 8).blk t).view.emb y) 1 : Fin 2048) = rowq1 t.val (y 1) :=
    Fin.ext (by show win1_8.index t (1 : Fin 3) * 256 + 1 * (y 1).val = 256 * (t.val / 16 % 8) + (y 1).val; rw [h1]; omega)
  have e2 : ((((cfg1.win 8).blk t).view.emb y) 2 : Fin 640) = y 2 :=
    Fin.ext (by show win1_8.index t (2 : Fin 3) * 640 + 1 * (y 2).val = (y 2).val; rw [h2]; omega)
  show ((g _ _ _ : ℝ) : EReal) = ((g _ _ _ : ℝ) : EReal)
  rw [e0, e1, e2]

/-! ## The outputs' blocks cover their arrays -/

theorem mem_blk6 (t : Fin cfg1.N) (i : S8x2048x2048.Idx) :
    i ∈ ((cfg1.win 6).blk t).view.set ↔ ∀ a : Fin 3, win1_6.index t a * S8x256x128.size a ≤ (i a).val ∧ (i a).val < win1_6.index t a * S8x256x128.size a + S8x256x128.size a := by
  show i ∈ ((View.whole main_v8_0).slice (win1_6.rect t)).set ↔ _
  rw [View.set_slice_whole, Rect.mem_set_unit]
  exact Iff.rfl

theorem mem_blk7 (t : Fin cfg1.N) (i : S8x2048x2048.Idx) :
    i ∈ ((cfg1.win 7).blk t).view.set ↔ ∀ a : Fin 3, win1_7.index t a * S8x256x128.size a ≤ (i a).val ∧ (i a).val < win1_7.index t a * S8x256x128.size a + S8x256x128.size a := by
  show i ∈ ((View.whole main_v8_1).slice (win1_7.rect t)).set ↔ _
  rw [View.set_slice_whole, Rect.mem_set_unit]
  exact Iff.rfl

theorem mem_blk8 (t : Fin cfg1.N) (i : S8x2048x640.Idx) :
    i ∈ ((cfg1.win 8).blk t).view.set ↔ ∀ a : Fin 3, win1_8.index t a * S8x256x640.size a ≤ (i a).val ∧ (i a).val < win1_8.index t a * S8x256x640.size a + S8x256x640.size a := by
  show i ∈ ((View.whole main_v8_2).slice (win1_8.rect t)).set ↔ _
  rw [View.set_slice_whole, Rect.mem_set_unit]
  exact Iff.rfl

/-- Every index of a tile output lies in the block of the position of its row block and key block. -/
theorem cover6 (i : S8x2048x2048.Idx) : ∃ t : Fin cfg1.N, (cfg1.win 6).flush t = true ∧ i ∈ ((cfg1.win 6).blk t).view.set := by
  have hi0 : (i 0).val < 8 := (i 0).isLt
  have hi1 : (i 1).val < 2048 := (i 1).isLt
  have hi2 : (i 2).val < 2048 := (i 2).isLt
  have hN : cfg1.N = 128 := N_1
  refine ⟨⟨16 * ((i 1).val / 256) + (i 2).val / 128, by rw [hN]; omega⟩, flush1_6 _, ?_⟩
  rw [mem_blk6]
  obtain ⟨h0, h1, h2⟩ := idx1_6 ⟨16 * ((i 1).val / 256) + (i 2).val / 128, by rw [hN]; omega⟩
  intro a
  match a with
  | ⟨0, _⟩ => show win1_6.index _ (0 : Fin 3) * 8 ≤ (i 0).val ∧ (i 0).val < win1_6.index _ (0 : Fin 3) * 8 + 8; rw [h0]; omega
  | ⟨1, _⟩ =>
    show win1_6.index _ (1 : Fin 3) * 256 ≤ (i 1).val ∧ (i 1).val < win1_6.index _ (1 : Fin 3) * 256 + 256
    rw [h1]; show (16 * ((i 1).val / 256) + (i 2).val / 128) / 16 % 8 * 256 ≤ (i 1).val ∧ (i 1).val < (16 * ((i 1).val / 256) + (i 2).val / 128) / 16 % 8 * 256 + 256; omega
  | ⟨2, _⟩ =>
    show win1_6.index _ (2 : Fin 3) * 128 ≤ (i 2).val ∧ (i 2).val < win1_6.index _ (2 : Fin 3) * 128 + 128
    rw [h2]; show (16 * ((i 1).val / 256) + (i 2).val / 128) % 16 * 128 ≤ (i 2).val ∧ (i 2).val < (16 * ((i 1).val / 256) + (i 2).val / 128) % 16 * 128 + 128; omega

theorem cover7 (i : S8x2048x2048.Idx) : ∃ t : Fin cfg1.N, (cfg1.win 7).flush t = true ∧ i ∈ ((cfg1.win 7).blk t).view.set := by
  have hi0 : (i 0).val < 8 := (i 0).isLt
  have hi1 : (i 1).val < 2048 := (i 1).isLt
  have hi2 : (i 2).val < 2048 := (i 2).isLt
  have hN : cfg1.N = 128 := N_1
  refine ⟨⟨16 * ((i 1).val / 256) + (i 2).val / 128, by rw [hN]; omega⟩, flush1_7 _, ?_⟩
  rw [mem_blk7]
  obtain ⟨h0, h1, h2⟩ := idx1_7 ⟨16 * ((i 1).val / 256) + (i 2).val / 128, by rw [hN]; omega⟩
  intro a
  match a with
  | ⟨0, _⟩ => show win1_7.index _ (0 : Fin 3) * 8 ≤ (i 0).val ∧ (i 0).val < win1_7.index _ (0 : Fin 3) * 8 + 8; rw [h0]; omega
  | ⟨1, _⟩ =>
    show win1_7.index _ (1 : Fin 3) * 256 ≤ (i 1).val ∧ (i 1).val < win1_7.index _ (1 : Fin 3) * 256 + 256
    rw [h1]; show (16 * ((i 1).val / 256) + (i 2).val / 128) / 16 % 8 * 256 ≤ (i 1).val ∧ (i 1).val < (16 * ((i 1).val / 256) + (i 2).val / 128) / 16 % 8 * 256 + 256; omega
  | ⟨2, _⟩ =>
    show win1_7.index _ (2 : Fin 3) * 128 ≤ (i 2).val ∧ (i 2).val < win1_7.index _ (2 : Fin 3) * 128 + 128
    rw [h2]; show (16 * ((i 1).val / 256) + (i 2).val / 128) % 16 * 128 ≤ (i 2).val ∧ (i 2).val < (16 * ((i 1).val / 256) + (i 2).val / 128) % 16 * 128 + 128; omega

/-- Every index of the accumulated output lies in the block of the last key block of its row block. -/
theorem cover8 (i : S8x2048x640.Idx) : ∃ t : Fin cfg1.N, (cfg1.win 8).flush t = true ∧ i ∈ ((cfg1.win 8).blk t).view.set := by
  have hi0 : (i 0).val < 8 := (i 0).isLt
  have hi1 : (i 1).val < 2048 := (i 1).isLt
  have hi2 : (i 2).val < 640 := (i 2).isLt
  have hN : cfg1.N = 128 := N_1
  refine ⟨⟨16 * ((i 1).val / 256) + 15, by rw [hN]; omega⟩, (flush1_8 _).mpr (by show (16 * ((i 1).val / 256) + 15) % 16 = 15; omega), ?_⟩
  rw [mem_blk8]
  obtain ⟨h0, h1, h2⟩ := idx1_8 ⟨16 * ((i 1).val / 256) + 15, by rw [hN]; omega⟩
  intro a
  match a with
  | ⟨0, _⟩ => show win1_8.index _ (0 : Fin 3) * 8 ≤ (i 0).val ∧ (i 0).val < win1_8.index _ (0 : Fin 3) * 8 + 8; rw [h0]; omega
  | ⟨1, _⟩ =>
    show win1_8.index _ (1 : Fin 3) * 256 ≤ (i 1).val ∧ (i 1).val < win1_8.index _ (1 : Fin 3) * 256 + 256
    rw [h1]; show (16 * ((i 1).val / 256) + 15) / 16 % 8 * 256 ≤ (i 1).val ∧ (i 1).val < (16 * ((i 1).val / 256) + 15) / 16 % 8 * 256 + 256; omega
  | ⟨2, _⟩ => show win1_8.index _ (2 : Fin 3) * 640 ≤ (i 2).val ∧ (i 2).val < win1_8.index _ (2 : Fin 3) * 640 + 640; rw [h2]; omega

end Cert.KernelIdeal.Blocks1
end
-- ==== Proof.Pay1.lean ====
/-
  The pure values the second pass's body stores, read at an index at the extended reals on real-valued blocks.
  With S(b, r, j) the logit of query row r and key row j of batch b inside the blocks and LSE(b, r) the first pass's
  statistic of the row: the stored log-weights are S − LSE, the stored weights their exponentials, the output block gains
  Σ_j P(b, r, j) · V(b, j, d), and at the first key block the output starts at 0.
-/
import proofs.«101240_j549755814005_2_alg».proof.Proof.Gen.KernelIdeal.Skeleton
import proofs.«101240_j549755814005_2_alg».proof.Proof.Spec
import proofs.«101240_j549755814005_2_alg».proof.Proof.LibBatchLayout

noncomputable section

namespace Cert.Attn.Pay

open Idealize.ShloMosaic Idealize.ShloMosaic.ValueIdx Cert.KernelIdeal Cert.KernelIdeal.Gen Cert.LibBatchLayout

variable [Cert.KernelIdeal.Facts]

/-- At the first key block the output accumulator starts at 0. -/
theorem k1_pay2_eq : k1_pay2 (F := Ideal) = fun _ => (0 : EReal) := by
  unfold k1_pay2
  dsimp only
  rw [shapeCast_self]
  funext i
  exact Ideal.ofBits_zero_f32

/-- The output block gains the weights' block times the value block, batch by batch. -/
theorem k1_pay1_apply (v27 : FVec Ideal S8x256x128 .f32) (v30 : Vec Ideal S8x256x640 .f32) (v32 : Vec Ideal S8x128x640 .bf16)
    (b : Fin 8) (r : Fin 256) (d : Fin 640) :
    k1_pay1 v27 v30 v32 (ix3 b r d) = v30 (ix3 b r d) + ∑ j : Fin 128, v27 (ix3 b r j) * v32 (ix3 b j d) := by
  unfold k1_pay1
  rw [shapeCast_self, shapeCast_self, addf_apply]
  exact congrArg (v30 (ix3 b r d) + ·)
    (matmul_batch_nn_apply Facts₀.dot_S8x256x128_S8x128x640_S8x256x640_2_1_1_2_0_0_wf none
      (truncf .bf16 v27 Facts₀.bitsLt_bf16_f32) v32 b r d)

/-- The log-weights' block at (b, r, j), on any blocks: the logit less the row's statistic. -/
theorem k1_pay3_apply (v3 : Vec Ideal S8x256x640 .bf16) (v5 : Vec Ideal S8x128x640 .bf16) (v8 : Vec Ideal S8x256 .f32)
    (v10 : Vec Ideal S8x128 .f32) (v22 : Vec Ideal S8x256 .f32) (b : Fin 8) (r : Fin 256) (j : Fin 128) :
    k1_pay3 v3 v5 v8 v10 v22 (ix3 b r j)
      = Ideal.div (Ideal.ofBits .f32 0x40000000#32 * (∑ d : Fin 640, v3 (ix3 b r d) * v5 (ix3 b j d))
          - v8 (ix2 b r) - v10 (ix2 b j)) (Ideal.ofBits .f32 0x41500000#32) - v22 (ix2 b r) := by
  unfold k1_pay3
  rw [shapeCast_self, shapeCast_self, shapeCast_self, shapeCast_self, shapeCast_self]
  rw [subf_apply, divf_apply, subf_apply, subf_apply, mulf_apply, broadcast_apply, broadcast_apply, keepLast_apply,
    keepMid_apply, keepLast_apply]
  exact congrArg (fun t : EReal => Ideal.div (Ideal.ofBits .f32 0x40000000#32 * t - v8 (ix2 b r) - v10 (ix2 b j))
      (Ideal.ofBits .f32 0x41500000#32) - v22 (ix2 b r))
    (matmul_batch_nt_apply Facts₀.dot_S8x256x640_S8x128x640_S8x256x128_2_2_1_1_0_0_wf none
      (v3 : FVec Ideal S8x256x640 .bf16) (v5 : FVec Ideal S8x128x640 .bf16) b r j)

variable (Qb : Fin 8 → Fin 256 → Fin 640 → ℝ) (Kb : Fin 8 → Fin 128 → Fin 640 → ℝ) (QQb : Fin 8 → Fin 256 → ℝ)
  (KKb : Fin 8 → Fin 128 → ℝ) (LSEb : Fin 8 → Fin 256 → ℝ)

/-- On real-valued blocks the stored log-weights are the logits less the rows' statistics. -/
theorem k1_pay3_eq :
    k1_pay3 (F := Ideal) (lift3 Qb) (lift3 Kb) (lift2 QQb) (lift2 KKb) (lift2 LSEb)
      = lift3 (fun b r j => scoreTile Qb Kb QQb KKb b r j - LSEb b r) := by
  funext x
  obtain ⟨b, r, j, rfl⟩ : ∃ (b : Fin 8) (r : Fin 256) (j : Fin 128), x = ix3 b r j := ⟨x 0, x 1, x 2, eq_ix3 x⟩
  rw [k1_pay3_apply]
  show Ideal.div (Ideal.ofBits .f32 0x40000000#32 * (∑ d : Fin 640, ((Qb b r d : ℝ) : EReal) * ((Kb b j d : ℝ) : EReal))
      - ((QQb b r : ℝ) : EReal) - ((KKb b j : ℝ) : EReal)) (Ideal.ofBits .f32 0x41500000#32) - ((LSEb b r : ℝ) : EReal)
    = ((scoreTile Qb Kb QQb KKb b r j - LSEb b r : ℝ) : EReal)
  rw [ofBits_two, ofBits_thirteen]
  simp only [← EReal.coe_mul]
  rw [sum_coe, logit_coe, ← EReal.coe_sub]
  rfl

/-- On real-valued blocks the stored weights are the exponentials of the log-weights. -/
theorem k1_pay4_eq :
    k1_pay4 (F := Ideal) (lift3 Qb) (lift3 Kb) (lift2 QQb) (lift2 KKb) (lift2 LSEb)
      = lift3 (fun b r j => Real.exp (scoreTile Qb Kb QQb KKb b r j - LSEb b r)) := by
  funext x
  unfold k1_pay4
  rw [exp_apply, k1_pay3_eq]
  rfl

end Cert.Attn.Pay

end
-- ==== Proof.Step1.lean ====
/-
  Region 1 (the attention pass) on real data. With the row-wise log-sum-exp of the specification as
  the shift, a grid point's tile of shifted logits is the specification's log-softmax tile and its
  exponential the softmax tile; the accumulator, which adds at every key block the softmax tile times
  the value block, holds after the last key block of a row block the attention output.
-/
import proofs.«101240_j549755814005_2_alg».proof.Proof.Frame1Defs
import proofs.«101240_j549755814005_2_alg».proof.Proof.Algebra
import proofs.«101240_j549755814005_2_alg».proof.Proof.Tiles
import proofs.«101240_j549755814005_2_alg».proof.Proof.Pay1

set_option maxRecDepth 16384

noncomputable section

namespace Cert.Attn.Step

open Idealize.ShloMosaic Idealize.ShloMosaic.ValueIdx
open Cert.KernelIdeal Cert.KernelIdeal.Gen Cert.KernelIdeal.Hand1
open Cert.Attn Cert.Attn.Alg Cert.Attn.Pay

/-- Two arrays over a rank-3 shape are equal when they agree at every triple of coordinates. -/
theorem ext3 {A B C : ℕ} {f g : (⟨3, ![A, B, C]⟩ : Shape).Idx → EReal}
    (h : ∀ (a : Fin A) (b : Fin B) (c : Fin C), f (ix3 a b c) = g (ix3 a b c)) : f = g := by
  funext x
  obtain ⟨a, b, c, rfl⟩ : ∃ (a : Fin A) (b : Fin B) (c : Fin C), x = ix3 a b c := ⟨x 0, x 1, x 2, eq_ix3 x⟩
  exact h a b c

theorem lift3_ix3 {A B C : ℕ} (f : Fin A → Fin B → Fin C → ℝ) (a : Fin A) (b : Fin B) (c : Fin C) :
    lift3 f (ix3 a b c) = ((f a b c : ℝ) : EReal) := rfl

section Region
variable (q k v : Fin 8 → Fin 2048 → Fin 640 → ℝ) (LSE : Fin 8 → Fin 2048 → ℝ)

theorem colk1_mod (n : ℕ) (j : Fin 128) : colk1 n j = colk1 (n % 16) j :=
  Fin.ext (by rw [colk1_val, colk1_val, Nat.mod_mod])

/-- For the sixteen key blocks, `colk1` lists the row's columns tile by tile. -/
theorem colk1_col (t : ℕ) (ht : t < 16) (j : Fin 128) : ((colk1 t j : Fin 2048) : ℕ) = t * 128 + j := by
  rw [colk1_val, Nat.mod_eq_of_lt ht, Nat.mul_comm]

/-- Within a row block the query rows do not change from one position to the next. -/
theorem rowq1_succ (n : ℕ) (h : ¬(n + 1) % 16 = 0) : rowq1 (n + 1) = rowq1 n := by
  funext r
  apply Fin.ext
  rw [rowq1_val, rowq1_val]
  omega

/-- The point's tile of logits, from the blocks of the real arrays at position `n`, is the
    specification's logit of the rows the block rows stand for. -/
theorem scoreTile_blocks1 (n : ℕ) (b : Fin 8) (r : Fin 256) (j : Fin 128) :
    scoreTile (fun b r d => q b (rowq1 n r) d) (fun b j d => k b (colk1 n j) d)
        (fun b r => sqn q b (rowq1 n r)) (fun b j => sqn k b (colk1 n j)) b r j
      = score q k b (rowq1 n r) (colk1 n j) := rfl

/-- The log-softmax tile of a point. -/
theorem logAttn_tile (hLSE : ∀ b i, LSE b i = rowMax q k b i + Real.log (rowSum q k b i)) (n : ℕ) :
    k1_pay3 (F := Ideal) (lift3 (fun b r d => q b (rowq1 n r) d)) (lift3 (fun b j d => k b (colk1 n j) d))
        (lift2 (fun b r => sqn q b (rowq1 n r))) (lift2 (fun b j => sqn k b (colk1 n j)))
        (lift2 (fun b r => LSE b (rowq1 n r)))
      = lift3 (fun b r j => logAttn q k b (rowq1 n r) (colk1 n j)) := by
  rw [k1_pay3_eq]
  refine congrArg lift3 ?_
  funext b r j
  rw [scoreTile_blocks1, hLSE, score_sub_lse]

/-- The softmax tile of a point. -/
theorem attn_tile (hLSE : ∀ b i, LSE b i = rowMax q k b i + Real.log (rowSum q k b i)) (n : ℕ) :
    k1_pay4 (F := Ideal) (lift3 (fun b r d => q b (rowq1 n r) d)) (lift3 (fun b j d => k b (colk1 n j) d))
        (lift2 (fun b r => sqn q b (rowq1 n r))) (lift2 (fun b j => sqn k b (colk1 n j)))
        (lift2 (fun b r => LSE b (rowq1 n r)))
      = lift3 (fun b r j => attn q k b (rowq1 n r) (colk1 n j)) := by
  rw [k1_pay4_eq]
  refine congrArg lift3 ?_
  funext b r j
  rw [scoreTile_blocks1, hLSE, score_sub_lse]; rfl

/-- Key block `t`'s term of the attention output of query row `i`. -/
def outTile (b : Fin 8) (i : Fin 2048) (d : Fin 640) (t : ℕ) : ℝ :=
  ∑ j : Fin 128, attn q k b i (colk1 t j) * v b (colk1 t j) d

/-- One accumulation step from zero, on real data. -/
theorem acc_step_first (At : Fin 8 → Fin 256 → Fin 128 → ℝ) (Vt : Fin 8 → Fin 128 → Fin 640 → ℝ) :
    k1_pay1 (F := Ideal) (lift3 At) (k1_pay2 (F := Ideal)) (lift3 Vt)
      = lift3 (fun b r d => ∑ j : Fin 128, At b r j * Vt b j d) := by
  refine ext3 (fun b r d => ?_)
  have h2 : k1_pay2 (F := Ideal) (ix3 b r d) = (0 : EReal) := by rw [k1_pay2_eq]
  rw [k1_pay1_apply, h2, zero_add, lift3_ix3]
  have h : ∀ j : Fin 128, lift3 At (ix3 b r j) * lift3 Vt (ix3 b j d) = ((At b r j * Vt b j d : ℝ) : EReal) :=
    fun j => by rw [lift3_ix3, lift3_ix3, mul_coe_coe]
  rw [Finset.sum_congr rfl (fun j _ => h j), sum_coe]

/-- One accumulation step from a real array, on real data. -/
theorem acc_step_next (At : Fin 8 → Fin 256 → Fin 128 → ℝ) (G : Fin 8 → Fin 256 → Fin 640 → ℝ)
    (Vt : Fin 8 → Fin 128 → Fin 640 → ℝ) :
    k1_pay1 (F := Ideal) (lift3 At) (lift3 G) (lift3 Vt)
      = lift3 (fun b r d => G b r d + ∑ j : Fin 128, At b r j * Vt b j d) := by
  refine ext3 (fun b r d => ?_)
  rw [k1_pay1_apply, lift3_ix3, lift3_ix3]
  have h : ∀ j : Fin 128, lift3 At (ix3 b r j) * lift3 Vt (ix3 b j d) = ((At b r j * Vt b j d : ℝ) : EReal) :=
    fun j => by rw [lift3_ix3, lift3_ix3, mul_coe_coe]
  rw [Finset.sum_congr rfl (fun j _ => h j), sum_coe, add_coe_coe]

/-- The accumulator after position `n`: the attention output's terms of the key blocks
    `0, …, n % 16` of the position's row block. -/
theorem region1_acc (hLSE : ∀ b i, LSE b i = rowMax q k b i + Real.log (rowSum q k b i))
    (acc : (n : ℕ) → n ≤ 128 → FVec Ideal S8x256x640 .f32)
    (hacc : ∀ (n : ℕ) (hn : n < 128), acc (n + 1) hn
      = if n % 16 = 0 then
          k1_pay1 (F := Ideal)
            (k1_pay4 (F := Ideal) (lift3 (fun b r d => q b (rowq1 n r) d)) (lift3 (fun b j d => k b (colk1 n j) d))
              (lift2 (fun b r => sqn q b (rowq1 n r))) (lift2 (fun b j => sqn k b (colk1 n j)))
              (lift2 (fun b r => LSE b (rowq1 n r))))
            (k1_pay2 (F := Ideal)) (lift3 (fun b j d => v b (colk1 n j) d))
        else
          k1_pay1 (F := Ideal)
            (k1_pay4 (F := Ideal) (lift3 (fun b r d => q b (rowq1 n r) d)) (lift3 (fun b j d => k b (colk1 n j) d))
              (lift2 (fun b r => sqn q b (rowq1 n r))) (lift2 (fun b j => sqn k b (colk1 n j)))
              (lift2 (fun b r => LSE b (rowq1 n r))))
            (acc n (Nat.le_of_lt hn)) (lift3 (fun b j d => v b (colk1 n j) d))) :
    ∀ (n : ℕ) (hn : n < 128), acc (n + 1) hn
      = lift3 (fun b r d => ∑ t ∈ Finset.range (n % 16 + 1), outTile q k v b (rowq1 n r) d t) := by
  have first : ∀ (n : ℕ) (hn : n < 128), n % 16 = 0 → acc (n + 1) hn
      = lift3 (fun b r d => ∑ t ∈ Finset.range (n % 16 + 1), outTile q k v b (rowq1 n r) d t) := by
    intro n hn h
    rw [hacc n hn, if_pos h, attn_tile q k LSE hLSE, acc_step_first, h]
    refine congrArg lift3 ?_
    funext b r d
    rw [Finset.range_one, Finset.sum_singleton]
    exact Finset.sum_congr rfl (fun j _ => by rw [colk1_mod n j, h])
  intro n
  induction n with
  | zero => intro hn; exact first 0 hn (Nat.zero_mod 16)
  | succ m ih =>
    intro hn
    by_cases h : (m + 1) % 16 = 0
    · exact first (m + 1) hn h
    · have he : (m + 1) % 16 = m % 16 + 1 := by omega
      rw [hacc (m + 1) hn, if_neg h, ih (Nat.lt_of_succ_lt hn), attn_tile q k LSE hLSE, acc_step_next, he,
        rowq1_succ m h]
      refine congrArg lift3 ?_
      funext b r d
      rw [Finset.sum_range_succ _ (m % 16 + 1)]
      congr 1
      exact Finset.sum_congr rfl (fun j _ => by rw [colk1_mod (m + 1) j, he])

/-- After the last key block of a row block the accumulator is the attention output. -/
theorem region1_out (hLSE : ∀ b i, LSE b i = rowMax q k b i + Real.log (rowSum q k b i))
    (acc : (n : ℕ) → n ≤ 128 → FVec Ideal S8x256x640 .f32)
    (hacc : ∀ (n : ℕ) (hn : n < 128), acc (n + 1) hn
      = if n % 16 = 0 then
          k1_pay1 (F := Ideal)
            (k1_pay4 (F := Ideal) (lift3 (fun b r d => q b (rowq1 n r) d)) (lift3 (fun b j d => k b (colk1 n j) d))
              (lift2 (fun b r => sqn q b (rowq1 n r))) (lift2 (fun b j => sqn k b (colk1 n j)))
              (lift2 (fun b r => LSE b (rowq1 n r))))
            (k1_pay2 (F := Ideal)) (lift3 (fun b j d => v b (colk1 n j) d))
        else
          k1_pay1 (F := Ideal)
            (k1_pay4 (F := Ideal) (lift3 (fun b r d => q b (rowq1 n r) d)) (lift3 (fun b j d => k b (colk1 n j) d))
              (lift2 (fun b r => sqn q b (rowq1 n r))) (lift2 (fun b j => sqn k b (colk1 n j)))
              (lift2 (fun b r => LSE b (rowq1 n r))))
            (acc n (Nat.le_of_lt hn)) (lift3 (fun b j d => v b (colk1 n j) d)))
    (n : ℕ) (hn : n < 128) (h15 : n % 16 = 15) :
    acc (n + 1) hn = lift3 (fun b r d => out q k v b (rowq1 n r) d) := by
  rw [region1_acc q k v LSE hLSE acc hacc n hn, h15]
  refine congrArg lift3 ?_
  funext b r d
  exact (out_regroup (T := 16) (W := 128) (by norm_num) q k v b (rowq1 n r) d colk1
    (fun t ht j => colk1_col t ht j)).symm

end Region

end Cert.Attn.Step

end
-- ==== Proof.Value1.lean ====
/-
  Region 1's final arrays. With the first pass's statistic rowMax + log rowSum as the shift, every position writes its
  tile of softmax weights and of log-weights, and the tiles cover the two [8, 2048, 2048] arrays; the accumulator adds
  the weights' tile times the value block at every key block and is written at the last key block of each row block,
  and those blocks cover the output array: the three arrays end holding the softmax, its logarithm, and the
  attention output.
-/
import proofs.«101240_j549755814005_2_alg».proof.Proof.Frame1Defs
import proofs.«101240_j549755814005_2_alg».proof.Proof.Blocks1
import proofs.«101240_j549755814005_2_alg».proof.Proof.Step1

set_option maxRecDepth 16384

noncomputable section

namespace Cert.KernelIdeal.Value1

open Cert.KernelIdeal Cert.KernelIdeal.Gen Idealize.ShloMosaic Idealize.ShloMosaic.TcCoe Idealize.SL.Sem
open Cert.Attn Cert.Attn.Step

variable (V : (c : Dev nD) → Valuation τ sig (Elt Ideal)) (c : Dev nD) (q k : Fin 8 → Fin 2048 → Fin 640 → ℝ)

/-- The first pass's statistic of a query row. -/
abbrev lse (b : Fin 8) (i : Fin 2048) : ℝ := rowMax q k b i + Real.log (rowSum q k b i)

section Tiles
variable (hq : (V c main_v0 : S8x2048x640.Idx → EReal) = lift3 q)
  (hk : (V c main_v1 : S8x2048x640.Idx → EReal) = lift3 k)
  (hqq : (V c main_v4 : S8x2048.Idx → EReal) = lift2 (sqn q))
  (hkk : (V c main_v6 : S8x2048.Idx → EReal) = lift2 (sqn k))
  (hlse : (V c main_v7 : S8x2048.Idx → EReal) = lift2 (fun b i => rowMax q k b i + Real.log (rowSum q k b i)))
include hq hk hqq hkk hlse

/-- A position's tile of softmax weights. -/
theorem attn_at (t : Fin cfg1.N) :
    k1_pay4 (F := Ideal) (Hand1.iblk1 V c 0 t) (Hand1.iblk1 V c 1 t) (Hand1.iblk1 V c 3 t) (Hand1.iblk1 V c 4 t)
        (Hand1.iblk1 V c 5 t)
      = lift3 (fun b r j => attn q k b (rowq1 t.val r) (colk1 t.val j)) := by
  have b0 : Hand1.iblk1 V c 0 t = lift3 (fun b r d => q b (rowq1 t.val r) d) := Blocks1.read1_0 c _ q hq t
  have b1 : Hand1.iblk1 V c 1 t = lift3 (fun b j d => k b (colk1 t.val j) d) := Blocks1.read1_1 c _ k hk t
  have b3 : Hand1.iblk1 V c 3 t = lift2 (fun b r => sqn q b (rowq1 t.val r)) := Blocks1.read1_3 c _ (sqn q) hqq t
  have b4 : Hand1.iblk1 V c 4 t = lift2 (fun b j => sqn k b (colk1 t.val j)) := Blocks1.read1_4 c _ (sqn k) hkk t
  have b5 : Hand1.iblk1 V c 5 t = lift2 (fun b r => lse q k b (rowq1 t.val r)) := Blocks1.read1_5 c _ (lse q k) hlse t
  rw [b0, b1, b3, b4, b5]
  exact attn_tile q k (lse q k) (fun _ _ => rfl) t.val

/-- A position's tile of log-weights. -/
theorem logAttn_at (t : Fin cfg1.N) :
    k1_pay3 (F := Ideal) (Hand1.iblk1 V c 0 t) (Hand1.iblk1 V c 1 t) (Hand1.iblk1 V c 3 t) (Hand1.iblk1 V c 4 t)
        (Hand1.iblk1 V c 5 t)
      = lift3 (fun b r j => logAttn q k b (rowq1 t.val r) (colk1 t.val j)) := by
  have b0 : Hand1.iblk1 V c 0 t = lift3 (fun b r d => q b (rowq1 t.val r) d) := Blocks1.read1_0 c _ q hq t
  have b1 : Hand1.iblk1 V c 1 t = lift3 (fun b j d => k b (colk1 t.val j) d) := Blocks1.read1_1 c _ k hk t
  have b3 : Hand1.iblk1 V c 3 t = lift2 (fun b r => sqn q b (rowq1 t.val r)) := Blocks1.read1_3 c _ (sqn q) hqq t
  have b4 : Hand1.iblk1 V c 4 t = lift2 (fun b j => sqn k b (colk1 t.val j)) := Blocks1.read1_4 c _ (sqn k) hkk t
  have b5 : Hand1.iblk1 V c 5 t = lift2 (fun b r => lse q k b (rowq1 t.val r)) := Blocks1.read1_5 c _ (lse q k) hlse t
  rw [b0, b1, b3, b4, b5]
  exact logAttn_tile q k (lse q k) (fun _ _ => rfl) t.val

/-- THE WEIGHTS' ARRAY after region 1: the softmax of the logits. -/
theorem final6 : ((Hand1.dat1 V c).arrAt 6 cfg1.N : S8x2048x2048.Idx → EReal) = lift3 (attn q k) := by
  refine (Hand1.dat1 V c).arrAt_eq_of_cover 6 (lift3 (attn q k)) (fun t _ => ?_) Blocks1.cover6
  show (cfg1.win 6).cut (grid1.coords t) ((Hand1.dat1 V c).after 6 t) = _
  rw [Hand1.after1_6]
  refine Eq.trans ?_ (Blocks1.read1_6 c _ (attn q k) rfl t).symm
  exact attn_at V c q k hq hk hqq hkk hlse t

/-- THE LOG-WEIGHTS' ARRAY after region 1: the log-softmax of the logits. -/
theorem final7 : ((Hand1.dat1 V c).arrAt 7 cfg1.N : S8x2048x2048.Idx → EReal) = lift3 (logAttn q k) := by
  refine (Hand1.dat1 V c).arrAt_eq_of_cover 7 (lift3 (logAttn q k)) (fun t _ => ?_) Blocks1.cover7
  show (cfg1.win 7).cut (grid1.coords t) ((Hand1.dat1 V c).after 7 t) = _
  rw [Hand1.after1_7]
  refine Eq.trans ?_ (Blocks1.read1_7 c _ (logAttn q k) rfl t).symm
  exact logAttn_at V c q k hq hk hqq hkk hlse t

variable (v : Fin 8 → Fin 2048 → Fin 640 → ℝ) (hv : (V c main_v2 : S8x2048x640.Idx → EReal) = lift3 v)
include hv

/-- The accumulator after each position adds the position's weights' tile times its value block. -/
theorem acc1_step (n : ℕ) (hn : n < 128) :
    Hand1.acc1 V c (n + 1) (lt_of_lt_of_eq hn N_1.symm)
      = if n % 16 = 0 then
          k1_pay1 (F := Ideal)
            (k1_pay4 (F := Ideal) (lift3 (fun b r d => q b (rowq1 n r) d)) (lift3 (fun b j d => k b (colk1 n j) d))
              (lift2 (fun b r => sqn q b (rowq1 n r))) (lift2 (fun b j => sqn k b (colk1 n j)))
              (lift2 (fun b r => lse q k b (rowq1 n r))))
            (k1_pay2 (F := Ideal)) (lift3 (fun b j d => v b (colk1 n j) d))
        else
          k1_pay1 (F := Ideal)
            (k1_pay4 (F := Ideal) (lift3 (fun b r d => q b (rowq1 n r) d)) (lift3 (fun b j d => k b (colk1 n j) d))
              (lift2 (fun b r => sqn q b (rowq1 n r))) (lift2 (fun b j => sqn k b (colk1 n j)))
              (lift2 (fun b r => lse q k b (rowq1 n r))))
            (Hand1.acc1 V c n (le_of_le_of_eq (Nat.le_of_lt hn) N_1.symm)) (lift3 (fun b j d => v b (colk1 n j) d)) := by
  have hn' : n < cfg1.N := lt_of_lt_of_eq hn N_1.symm
  have b0 : Hand1.iblk1 V c 0 ⟨n, hn'⟩ = lift3 (fun b r d => q b (rowq1 n r) d) := Blocks1.read1_0 c _ q hq ⟨n, hn'⟩
  have b1 : Hand1.iblk1 V c 1 ⟨n, hn'⟩ = lift3 (fun b j d => k b (colk1 n j) d) := Blocks1.read1_1 c _ k hk ⟨n, hn'⟩
  have b2 : Hand1.iblk1 V c 2 ⟨n, hn'⟩ = lift3 (fun b j d => v b (colk1 n j) d) := Blocks1.read1_2 c _ v hv ⟨n, hn'⟩
  have b3 : Hand1.iblk1 V c 3 ⟨n, hn'⟩ = lift2 (fun b r => sqn q b (rowq1 n r)) := Blocks1.read1_3 c _ (sqn q) hqq ⟨n, hn'⟩
  have b4 : Hand1.iblk1 V c 4 ⟨n, hn'⟩ = lift2 (fun b j => sqn k b (colk1 n j)) := Blocks1.read1_4 c _ (sqn k) hkk ⟨n, hn'⟩
  have b5 : Hand1.iblk1 V c 5 ⟨n, hn'⟩ = lift2 (fun b r => lse q k b (rowq1 n r)) := Blocks1.read1_5 c _ (lse q k) hlse ⟨n, hn'⟩
  show (if n % 16 = 0 then
        k1_pay1 (F := Ideal) (k1_pay4 (F := Ideal) (Hand1.iblk1 V c 0 ⟨n, hn'⟩) (Hand1.iblk1 V c 1 ⟨n, hn'⟩)
          (Hand1.iblk1 V c 3 ⟨n, hn'⟩) (Hand1.iblk1 V c 4 ⟨n, hn'⟩) (Hand1.iblk1 V c 5 ⟨n, hn'⟩))
          (k1_pay2 (F := Ideal)) (Hand1.iblk1 V c 2 ⟨n, hn'⟩)
      else
        k1_pay1 (F := Ideal) (k1_pay4 (F := Ideal) (Hand1.iblk1 V c 0 ⟨n, hn'⟩) (Hand1.iblk1 V c 1 ⟨n, hn'⟩)
          (Hand1.iblk1 V c 3 ⟨n, hn'⟩) (Hand1.iblk1 V c 4 ⟨n, hn'⟩) (Hand1.iblk1 V c 5 ⟨n, hn'⟩))
          (Hand1.acc1 V c n (Nat.le_of_lt hn')) (Hand1.iblk1 V c 2 ⟨n, hn'⟩)) = _
  rw [b0, b1, b2, b3, b4, b5]

/-- THE OUTPUT ARRAY after region 1: the attention-weighted sum of the value rows. -/
theorem final8 : ((Hand1.dat1 V c).arrAt 8 cfg1.N : S8x2048x640.Idx → EReal) = lift3 (out q k v) := by
  refine (Hand1.dat1 V c).arrAt_eq_of_cover 8 (lift3 (out q k v)) (fun t hflush => ?_) Blocks1.cover8
  show (cfg1.win 8).cut (grid1.coords t) ((Hand1.dat1 V c).after 8 t) = _
  rw [Hand1.after1_8]
  refine Eq.trans ?_ (Blocks1.read1_8 c _ (out q k v) rfl t).symm
  have h15 : t.val % 16 = 15 := (flush1_8 t).mp hflush
  have ht : t.val < 128 := lt_of_lt_of_eq t.isLt N_1
  exact region1_out q k v (lse q k) (fun _ _ => rfl) (fun n hn => Hand1.acc1 V c n (le_of_le_of_eq hn N_1.symm))
    (fun n hn => acc1_step V c q k hq hk hqq hkk hlse v hv n hn) t.val ht h15

end Tiles

end Cert.KernelIdeal.Value1

end
-- ==== Proof.KernelValues.lean ====
/-
  The kernel side's result arrays at the last boundary, on real inputs. The host operations hand the
  first pass the inputs and their squared row norms; the first pass leaves the row-wise log-sum-exp;
  the second pass, entered at that, leaves the softmax, the log-softmax and the attention output of
  the specification.
-/
import proofs.«101240_j549755814005_2_alg».proof.Proof.RegsDefs
import proofs.«101240_j549755814005_2_alg».proof.Proof.HostPre
import proofs.«101240_j549755814005_2_alg».proof.Proof.Spec
import proofs.«101240_j549755814005_2_alg».proof.Proof.Value0
import proofs.«101240_j549755814005_2_alg».proof.Proof.Value1

set_option maxRecDepth 16384

noncomputable section

namespace Cert.KernelIdeal.Values

open Cert.KernelIdeal Cert.KernelIdeal.Gen Cert.KernelIdeal.Regs
open Idealize.ShloMosaic Idealize.ShloMosaic.TcCoe Idealize.SL.Sem
open Cert.Attn

variable (m : (ℓ : Loc nD τ sig) → Buf (Elt Ideal) ℓ) (c : Dev nD)
  (q k v : Fin 8 → Fin 2048 → Fin 640 → ℝ)

/-- The first pass leaves the row-wise log-sum-exp in its result array. -/
theorem lse
    (h0 : (m ((c.tc : Thread nD τ).loc main_arg0) : S8x2048x640.Idx → EReal) = lift3 q)
    (h1 : (m ((c.tc : Thread nD τ).loc main_arg1) : S8x2048x640.Idx → EReal) = lift3 k) :
    (VV2 (F := Ideal) m c main_v7 : S8x2048.Idx → EReal)
      = lift2 (fun b i => rowMax q k b i + Real.log (rowSum q k b i)) := by
  rw [VV2_v7]
  exact Value0.final0 (VV1 (F := Ideal) m) c q k ((HostPre.V1_v0 m c).trans h0) ((HostPre.V1_v1 m c).trans h1)
    (HostPre.V1_v4_lift m c q h0) (HostPre.V1_v6_lift m c k h1)

/-- The three result arrays at the last boundary are the attention output, the softmax and the
    log-softmax of the specification. -/
theorem results
    (h0 : (m ((c.tc : Thread nD τ).loc main_arg0) : S8x2048x640.Idx → EReal) = lift3 q)
    (h1 : (m ((c.tc : Thread nD τ).loc main_arg1) : S8x2048x640.Idx → EReal) = lift3 k)
    (h2 : (m ((c.tc : Thread nD τ).loc main_arg2) : S8x2048x640.Idx → EReal) = lift3 v) :
    (VV3 (F := Ideal) m c main_v8_2 : S8x2048x640.Idx → EReal) = lift3 (out q k v)
    ∧ (VV3 (F := Ideal) m c main_v8_0 : S8x2048x2048.Idx → EReal) = lift3 (attn q k)
    ∧ (VV3 (F := Ideal) m c main_v8_1 : S8x2048x2048.Idx → EReal) = lift3 (logAttn q k) := by
  have hq : (VV2 (F := Ideal) m c main_v0 : S8x2048x640.Idx → EReal) = lift3 q := by
    rw [VV2_of_ne m c main_v0 (by decide)]; exact (HostPre.V1_v0 m c).trans h0
  have hk : (VV2 (F := Ideal) m c main_v1 : S8x2048x640.Idx → EReal) = lift3 k := by
    rw [VV2_of_ne m c main_v1 (by decide)]; exact (HostPre.V1_v1 m c).trans h1
  have hv : (VV2 (F := Ideal) m c main_v2 : S8x2048x640.Idx → EReal) = lift3 v := by
    rw [VV2_of_ne m c main_v2 (by decide)]; exact (HostPre.V1_v2 m c).trans h2
  have hqq : (VV2 (F := Ideal) m c main_v4 : S8x2048.Idx → EReal) = lift2 (sqn q) := by
    rw [VV2_of_ne m c main_v4 (by decide)]; exact HostPre.V1_v4_lift m c q h0
  have hkk : (VV2 (F := Ideal) m c main_v6 : S8x2048.Idx → EReal) = lift2 (sqn k) := by
    rw [VV2_of_ne m c main_v6 (by decide)]; exact HostPre.V1_v6_lift m c k h1
  have hlse := lse m c q k h0 h1
  refine ⟨?_, ?_, ?_⟩
  · rw [VV3_v8_2]; exact Value1.final8 (VV2 (F := Ideal) m) c q k hq hk hqq hkk hlse v hv
  · rw [VV3_v8_0]; exact Value1.final6 (VV2 (F := Ideal) m) c q k hq hk hqq hkk hlse
  · rw [VV3_v8_1]; exact Value1.final7 (VV2 (F := Ideal) m) c q k hq hk hqq hkk hlse

end Cert.KernelIdeal.Values

end
-- ==== Proof.RefRead.lean ====
/-
  The reference program read on real inputs. On arrays that are coercions of real arrays `q k v`, each stage of the
  reference (the generated stage functions `val_main_vN`, read at an index by their `_apply` lemmas) is the coercion
  of the specification's real function: the squared norms, the inner products, the logit
  `-((|q|² - 2 q·k) + |k|²) / 13 = (2 q·k - |q|² - |k|²) / 13`, the row maximum (the host's maximum-reduce from `-∞`,
  read as a fold of `max` over the key axis, then `max ⊥ x = x`), the shifted exponentials and their sum (positive, so
  its logarithm is the real one), the log-softmax, the softmax and the weighted sum of the value rows. No infinite
  value occurs: every intermediate is the coercion of a real.
-/
import proofs.«101240_j549755814005_2_alg».proof.Proof.Spec
import proofs.«101240_j549755814005_2_alg».proof.Proof.RefReadGen

noncomputable section

namespace Cert.Attn.Ref

open Cert.ReferenceIdeal Cert.ReferenceIdeal.Gen Cert.ReferenceIdeal.Read Idealize.ShloMosaic Idealize.ShloMosaic.ValueIdx

/-! ## General facts about coerced reals -/
/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_two : Ideal.ofBits .f32 0x40000000#32 = ((2 : ℝ) : EReal) := by
  simp [Ideal.ofBits, Ideal.ieee, -EReal.coe_mul]; norm_num

theorem ofBits_thirteen : Ideal.ofBits .f32 0x41500000#32 = ((13 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The fold of `max` from `⊥` over coerced reals is the coerced finite supremum. -/
theorem fold_max_coe {ι : Type*} (s : Finset ι) (hs : s.Nonempty) (f : ι → ℝ) :
    s.fold max (⊥ : EReal) (fun k => ((f k : ℝ) : EReal)) = ((s.sup' hs f : ℝ) : EReal) := by
  have h1 : s.fold max (⊥ : EReal) (fun k => ((f k : ℝ) : EReal)) = s.sup (fun k => ((f k : ℝ) : EReal)) := rfl
  rw [h1, ← Finset.sup'_eq_sup hs]
  exact (Finset.comp_sup'_eq_sup'_comp hs (fun r : ℝ => (r : EReal)) (fun a b => EReal.coe_strictMono.monotone.map_max)).symm

/-- The logit's arithmetic on coerced reals. -/
theorem score_alg (a b c : ℝ) :
    Ideal.div (-((((a : ℝ) : EReal) - ((2 : ℝ) : EReal) * ((c : ℝ) : EReal)) + ((b : ℝ) : EReal))) ((13 : ℝ) : EReal)
      = (((2 * c - a - b) / 13 : ℝ) : EReal) := by
  rw [Ideal.div_coe (by norm_num : (13 : ℝ) ≠ 0), ← EReal.coe_mul, ← EReal.coe_sub, ← EReal.coe_add, ← EReal.coe_neg,
    ← EReal.coe_mul]
  congr 1
  ring

theorem bot_max (x : EReal) : max (⊥ : EReal) x = x := by simp

/-! ## The stages at an index -/

section
variable (q k v : Fin 8 → Fin 2048 → Fin 640 → ℝ)

/-- The squared norms of the query rows. -/
theorem sqn_q_eq (b : Fin 8) (i : Fin 2048) :
    val_main_v1 (F := Ideal) (lift3 q) (ix2 b i) = ((sqn q b i : ℝ) : EReal) := by
  rw [val_main_v1_apply, val_main_cst_apply, Ideal.ofBits_def, Ideal.ofBits_zero_f32, zero_add]
  exact (Finset.sum_congr rfl fun d _ => (EReal.coe_mul (q b i d) (q b i d)).symm).trans
    (coe_sum Finset.univ fun d => q b i d * q b i d)

/-- The squared norms of the key rows. -/
theorem sqn_k_eq (b : Fin 8) (j : Fin 2048) :
    val_main_v3 (F := Ideal) (lift3 k) (ix2 b j) = ((sqn k b j : ℝ) : EReal) := by
  rw [val_main_v3_apply, val_main_cst_0_apply, Ideal.ofBits_def, Ideal.ofBits_zero_f32, zero_add]
  exact (Finset.sum_congr rfl fun d _ => (EReal.coe_mul (k b j d) (k b j d)).symm).trans
    (coe_sum Finset.univ fun d => k b j d * k b j d)

/-- The inner products of query and key rows. -/
theorem dot_eq (b : Fin 8) (i j : Fin 2048) :
    val_main_v4 (F := Ideal) (lift3 q) (lift3 k) (ix3 b i j) = ((dotqk q k b i j : ℝ) : EReal) := by
  rw [val_main_v4_apply]
  exact (Finset.sum_congr rfl fun d _ => (EReal.coe_mul (q b i d) (k b j d)).symm).trans
    (coe_sum Finset.univ fun d => q b i d * k b j d)

/-- The logits. -/
theorem score_eq (b : Fin 8) (i j : Fin 2048) :
    val_main_v15 (F := Ideal) (lift3 q) (lift3 k) (ix3 b i j) = ((score q k b i j : ℝ) : EReal) := by
  have e8 : idx_main_v5 (idx_main_v8 (ix3 b i j)) = ix2 b i :=
    funext fun a => by match a with | ⟨0, _⟩ => rfl | ⟨1, _⟩ => rfl
  have e11 : idx_main_v10 (idx_main_v11 (ix3 b i j)) = ix2 b j :=
    funext fun a => by match a with | ⟨0, _⟩ => rfl | ⟨1, _⟩ => rfl
  rw [val_main_v15_apply, val_main_v13_apply, val_main_v12_apply, val_main_v9_apply, val_main_v8_apply, val_main_v5_apply, e8,
    val_main_v7_apply, val_main_v6_apply, val_main_cst_1_apply, val_main_v11_apply, val_main_v10_apply, e11,
    val_main_v14_apply, val_main_cst_2_apply, sqn_q_eq, sqn_k_eq, dot_eq]
  simp only [Ideal.hostDivf_def, Ideal.hostNegf_def, Ideal.negf_def, Ideal.addf_def, Ideal.subf_def, Ideal.mulf_def,
    Ideal.ofBits_def, ofBits_two, ofBits_thirteen]
  exact score_alg _ _ _

/-- The key axis of the logits reduces away. -/
theorem reduces_key : S8x2048x2048.Reduces [2] S8x2048 := by decide

/-- A row index with a key coordinate put back. -/
theorem lift_key (b : Fin 8) (i j : Fin 2048) : reduces_key.lift (ix2 b i) j = ix3 b i j := by
  funext c; apply Fin.ext; fin_cases c <;> rfl

/-- The row maxima: the maximum-reduce from `-∞`, then the maximum with `-∞`. -/
theorem rowmax_eq (b : Fin 8) (i : Fin 2048) :
    val_main_call0_v2 (F := Ideal) (lift3 q) (lift3 k) (ix2 b i) = ((rowMax q k b i : ℝ) : EReal) := by
  rw [val_main_call0_v2_apply, val_main_call0_v1_apply, val_main_call0_cst_0_apply, Ideal.ofBits_def, ofBits_neg_inf,
    Ideal.maximumf_def, bot_max]
  unfold val_main_call0_v0
  rw [Host.reduce_eq_fold_single (FloatOps.maximumf (F := Ideal) (φ := .f32)) _ _ _ reduces_key _,
    val_main_call0_cst_apply, Ideal.ofBits_def, ofBits_neg_inf]
  have hf : (val_main_v15 (F := Ideal) (lift3 q) (lift3 k) ∘ reduces_key.lift (ix2 b i))
      = fun j : Fin 2048 => ((score q k b i j : ℝ) : EReal) :=
    funext fun j => (congrArg (val_main_v15 (F := Ideal) (lift3 q) (lift3 k)) (lift_key b i j)).trans (score_eq q k b i j)
  exact (congrArg (fun f => Finset.fold max (⊥ : EReal) f (Finset.univ : Finset (Fin 2048))) hf).trans
    (fold_max_coe Finset.univ Finset.univ_nonempty fun j => score q k b i j)

/-- The logits shifted by their row maximum. -/
theorem shift_eq (b : Fin 8) (i j : Fin 2048) :
    val_main_call0_v5 (F := Ideal) (lift3 q) (lift3 k) (ix3 b i j) = ((score q k b i j - rowMax q k b i : ℝ) : EReal) := by
  have e4 : idx_main_call0_v3 (idx_main_call0_v4 (ix3 b i j)) = ix2 b i :=
    funext fun a => by match a with | ⟨0, _⟩ => rfl | ⟨1, _⟩ => rfl
  rw [val_main_call0_v5_apply, val_main_call0_v4_apply, val_main_call0_v3_apply, e4, score_eq, rowmax_eq, Ideal.subf_def]
  exact (EReal.coe_sub _ _).symm

/-- The sums of the shifted exponentials. -/
theorem rowsum_eq (b : Fin 8) (i : Fin 2048) :
    val_main_call0_v7 (F := Ideal) (lift3 q) (lift3 k) (ix2 b i) = ((rowSum q k b i : ℝ) : EReal) := by
  rw [val_main_call0_v7_apply, val_main_call0_cst_1_apply, Ideal.ofBits_def, Ideal.ofBits_zero_f32, zero_add]
  have hx : ∀ j : Fin 2048, val_main_call0_v6 (F := Ideal) (lift3 q) (lift3 k) (idx_main_call0_v7 (ix2 b i) j)
      = ((Real.exp (score q k b i j - rowMax q k b i) : ℝ) : EReal) := by
    intro j
    have ej : idx_main_call0_v7 (ix2 b i) j = ix3 b i j :=
      funext fun a => by match a with | ⟨0, _⟩ => rfl | ⟨1, _⟩ => rfl | ⟨2, _⟩ => rfl
    rw [ej, val_main_call0_v6_apply, shift_eq, Ideal.hostUnary_exp_def, Ideal.exp_coe]
  exact (Finset.sum_congr rfl fun j _ => hx j).trans
    (coe_sum Finset.univ fun j => Real.exp (score q k b i j - rowMax q k b i))

/-- A sum of exponentials over a nonempty axis is positive. -/
theorem rowSum_pos (b : Fin 8) (i : Fin 2048) : 0 < rowSum q k b i :=
  Finset.sum_pos (fun _ _ => Real.exp_pos _) Finset.univ_nonempty

/-- The log-softmax. -/
theorem logAttn_eq (b : Fin 8) (i j : Fin 2048) :
    val_main_v16 (F := Ideal) (lift3 q) (lift3 k) (ix3 b i j) = ((logAttn q k b i j : ℝ) : EReal) := by
  have e10 : idx_main_call0_v8 (idx_main_call0_v10 (ix3 b i j)) = ix2 b i :=
    funext fun a => by match a with | ⟨0, _⟩ => rfl | ⟨1, _⟩ => rfl
  rw [val_main_v16_apply, shift_eq, val_main_call0_v10_apply, val_main_call0_v9_apply, val_main_call0_v8_apply, e10, rowsum_eq,
    Ideal.hostUnary_log_def, Ideal.log_coe, if_neg (not_le.mpr (rowSum_pos q k b i)), Ideal.subf_def]
  exact (EReal.coe_sub _ _).symm

/-- The softmax. -/
theorem attn_eq (b : Fin 8) (i j : Fin 2048) :
    val_main_v17 (F := Ideal) (lift3 q) (lift3 k) (ix3 b i j) = ((attn q k b i j : ℝ) : EReal) := by
  rw [val_main_v17_apply, logAttn_eq, Ideal.hostUnary_exp_def, Ideal.exp_coe]
  rfl

/-- The attention output. -/
theorem out_eq (b : Fin 8) (i : Fin 2048) (d : Fin 640) :
    val_main_v18 (F := Ideal) (lift3 q) (lift3 k) (lift3 v) (ix3 b i d) = ((out q k v b i d : ℝ) : EReal) := by
  rw [val_main_v18_apply]
  have hx : ∀ j : Fin 2048, val_main_v17 (F := Ideal) (lift3 q) (lift3 k) (lidx_main_v18 (ix3 b i d) j)
        * lift3 v (ridx_main_v18 (ix3 b i d) j) = ((attn q k b i j * v b j d : ℝ) : EReal) := by
    intro j
    have ej : lidx_main_v18 (ix3 b i d) j = ix3 b i j :=
      funext fun a => by match a with | ⟨0, _⟩ => rfl | ⟨1, _⟩ => rfl | ⟨2, _⟩ => rfl
    rw [ej, attn_eq, EReal.coe_mul]
    rfl
  exact (Finset.sum_congr rfl fun j _ => hx j).trans (coe_sum Finset.univ fun j => attn q k b i j * v b j d)

/-! ## The three results as arrays -/

/-- The reference's log-softmax array is the specification's. -/
theorem v16_lift : val_main_v16 (F := Ideal) (lift3 q) (lift3 k) = lift3 (logAttn q k) := by
  funext x
  obtain ⟨b, i, j, rfl⟩ : ∃ (b : Fin 8) (i j : Fin 2048), x = ix3 b i j := ⟨x 0, x 1, x 2, eq_ix3 x⟩
  exact logAttn_eq q k b i j

/-- The reference's softmax array is the specification's. -/
theorem v17_lift : val_main_v17 (F := Ideal) (lift3 q) (lift3 k) = lift3 (attn q k) := by
  funext x
  obtain ⟨b, i, j, rfl⟩ : ∃ (b : Fin 8) (i j : Fin 2048), x = ix3 b i j := ⟨x 0, x 1, x 2, eq_ix3 x⟩
  exact attn_eq q k b i j

/-- The reference's output array is the specification's. -/
theorem v18_lift : val_main_v18 (F := Ideal) (lift3 q) (lift3 k) (lift3 v) = lift3 (out q k v) := by
  funext x
  obtain ⟨b, i, d, rfl⟩ : ∃ (b : Fin 8) (i : Fin 2048) (d : Fin 640), x = ix3 b i d := ⟨x 0, x 1, x 2, eq_ix3 x⟩
  exact out_eq q k v b i d

end

end Cert.Attn.Ref

end
-- ==== Proof.RefRun.lean ====
/-
  The reference's run on real inputs. From a memory whose three argument arrays are coercions of real arrays
  `q c`, `k c`, `v c` on every device `c`, every weakly fair execution of the reference terminates with its three
  results at the coercions of the specification's `out`, `attn` and `logAttn`, the arguments unchanged: the generated
  run gives each result as the composed term of the arguments, that term is the last stage function, and the stage
  functions on coerced reals are the specification's. The frame of the reference is that run with the results dropped.
-/
import proofs.«101240_j549755814005_2_alg».proof.Defs
import proofs.«101240_j549755814005_2_alg».proof.Proof.Gen.Pre_finite_inputs
import proofs.«101240_j549755814005_2_alg».proof.Proof.RefRead

noncomputable section

namespace Cert.Attn.Ref

open Idealize.ShloMosaic Idealize.ShloMosaic.TcCoe Idealize.SL.Sem

/-- The reference terminates without a fault and leaves its arguments unchanged. -/
theorem frame : Cert.frame_ReferenceIdeal := fun m ρ _ =>
  (θ_run Cert.ReferenceIdeal.defs _ _).mono (fun _ h c => (h c).2.2.2) (Cert.ReferenceIdeal.Value.run (F := Ideal) m ρ)

/-- On real inputs the reference ends with the specification's three arrays. -/
theorem run (m' : (ℓ : Loc Cert.ReferenceIdeal.nD Cert.ReferenceIdeal.τ Cert.ReferenceIdeal.sig) → Buf (Elt Ideal) ℓ)
    (ρ' : Dev Cert.ReferenceIdeal.nD → PrngReg) (q k v : Dev Cert.ReferenceIdeal.nD → Fin 8 → Fin 2048 → Fin 640 → ℝ)
    (h0 : ∀ c : Dev Cert.ReferenceIdeal.nD,
      m' ((c.tc : Thread Cert.ReferenceIdeal.nD Cert.ReferenceIdeal.τ).loc Cert.ReferenceIdeal.main_arg0) = Cert.Attn.lift3 (q c))
    (h1 : ∀ c : Dev Cert.ReferenceIdeal.nD,
      m' ((c.tc : Thread Cert.ReferenceIdeal.nD Cert.ReferenceIdeal.τ).loc Cert.ReferenceIdeal.main_arg1) = Cert.Attn.lift3 (k c))
    (h2 : ∀ c : Dev Cert.ReferenceIdeal.nD,
      m' ((c.tc : Thread Cert.ReferenceIdeal.nD Cert.ReferenceIdeal.τ).loc Cert.ReferenceIdeal.main_arg2) = Cert.Attn.lift3 (v c)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v18) = Cert.Attn.lift3 (Cert.Attn.out (q c) (k c) (v c))
          ∧ r.2.mem ((c.tc : Thread Cert.ReferenceIdeal.nD Cert.ReferenceIdeal.τ).loc Cert.ReferenceIdeal.main_v17) = Cert.Attn.lift3 (Cert.Attn.attn (q c) (k c))
          ∧ r.2.mem ((c.tc : Thread Cert.ReferenceIdeal.nD Cert.ReferenceIdeal.τ).loc Cert.ReferenceIdeal.main_v16) = Cert.Attn.lift3 (Cert.Attn.logAttn (q c) (k c))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun _ h c => by
    obtain ⟨r18, r17, r16, a0, a1, a2⟩ := h c
    refine ⟨r18.trans ?_, r17.trans ?_, r16.trans ?_, a0, a1, a2⟩
    · rw [Cert.ReferenceIdeal.Read.val_main_v18_eq, h0 c, h1 c, h2 c]
      exact v18_lift (q c) (k c) (v c)
    · rw [Cert.ReferenceIdeal.Read.val_main_v17_eq, h0 c, h1 c]
      exact v17_lift (q c) (k c)
    · rw [Cert.ReferenceIdeal.Read.val_main_v16_eq, h0 c, h1 c]
      exact v16_lift (q c) (k c))
    (Cert.ReferenceIdeal.Value.run (F := Ideal) m' ρ')

end Cert.Attn.Ref

end
-- ==== Proof.Finite.lean ====
/-
  From the precondition to real arrays. The precondition evaluates
  `all (|a0| < +∞) ∧ all (|a1| < +∞) ∧ all (|a2| < +∞)` to one; read at the exact instance this says
  that every entry of the three arrays is an extended real other than `+∞` and `-∞`, that is, a
  real number, so each array is the embedding of the real array of its entries.
-/
import proofs.«101240_j549755814005_2_alg».proof.Pre_finite_inputs
import proofs.«101240_j549755814005_2_alg».proof.Proof.Spec
import Idealize.ShloMosaic.Lib.ReduceAll
import Idealize.ShloMosaic.Lib.ValueIdx

noncomputable section

namespace Cert.Attn.Fin

open Idealize.ShloMosaic Cert.Pre_finite_inputs

variable [Cert.Pre_finite_inputs.Facts]

/-- The scalar shape has one index. -/
instance subsingleton_scalar_idx : Subsingleton S_.Idx := ⟨fun a b => funext fun d => d.elim0⟩

/-- The bit pattern `0x7F800000` of the 32-bit format denotes `+∞`. -/
theorem ofBits_inf : Ideal.ofBits .f32 0x7F800000#32 = (⊤ : EReal) := by
  simp [Ideal.ofBits, Ideal.ieee]

/-- An extended real whose absolute value is below `+∞` is neither infinity. -/
theorem ne_top_ne_bot_of_abs_lt (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

/-- The precondition's test of one array: `all (|a| < +∞)`, as one bit. -/
def allFinite (a : FVec Ideal S8x2048x640 .f32) : BitVec 1 :=
  Host.reduce IntOp.andi
    (cmpf .olt (Host.absf a)
      (broadcastInDim S8x2048x640 ![] Facts.bcast_S_S8x2048x640 (constant (F := Ideal) S_ .f32 0x7F800000#32)))
    (constantI S_ 1 1#1) Facts.reducesTo_S8x2048x640_S_d0_1_2 Facts.h_S_ ValueIdx.ix0

/-- The precondition is the conjunction of the three tests. -/
theorem fn_eq (a0 a1 a2 : FVec Ideal S8x2048x640 .f32) :
    Cert.Pre_finite_inputs.fn (F := Ideal) a0 a1 a2 ValueIdx.ix0
      = IntOp.andi (IntOp.andi (allFinite a0) (allFinite a1)) (allFinite a2) := rfl

/-- An array that passes the test has only real entries. -/
theorem entries_finite (a : FVec Ideal S8x2048x640 .f32) (h : allFinite a = 1#1)
    (i : S8x2048x640.Idx) : a i ≠ ⊤ ∧ a i ≠ ⊥ := by
  have h1 := Host.reduce_andi_all _ _ _ _ _ h i
  exact ne_top_ne_bot_of_abs_lt (a i) h1

/-- An array with only real entries is the embedding of the real array of its entries. -/
theorem eq_lift3 (a : FVec Ideal S8x2048x640 .f32) (hfin : ∀ i, a i ≠ ⊤ ∧ a i ≠ ⊥) :
    a = lift3 (fun (b : Fin 8) (i : Fin 2048) (d : Fin 640) => (a (ValueIdx.ix3 b i d)).toReal) := by
  funext x
  have hx : ValueIdx.ix3 (x 0) (x 1) (x 2) = x := (ValueIdx.eq_ix3 x).symm
  have h1 : (((a x).toReal : ℝ) : EReal) = a x := EReal.coe_toReal (hfin x).1 (hfin x).2
  exact h1.symm.trans (congrArg (fun y => (((a y).toReal : ℝ) : EReal)) hx.symm)

/-- Under the precondition the three argument arrays are embeddings of real arrays. -/
theorem exists_real (a0 a1 a2 : FVec Ideal S8x2048x640 .f32)
    (h : Cert.Pre_finite_inputs.fn (F := Ideal) a0 a1 a2 = fun _ => 1#1) :
    ∃ q k v : Fin 8 → Fin 2048 → Fin 640 → ℝ, a0 = lift3 q ∧ a1 = lift3 k ∧ a2 = lift3 v := by
  have h0 := congrFun h ValueIdx.ix0
  rw [fn_eq] at h0
  obtain ⟨h01, h2⟩ := IntOp.andi_eq_one.1 h0
  obtain ⟨h0', h1⟩ := IntOp.andi_eq_one.1 h01
  exact ⟨_, _, _, eq_lift3 a0 (entries_finite a0 h0'), eq_lift3 a1 (entries_finite a1 h1),
    eq_lift3 a2 (entries_finite a2 h2)⟩

end Cert.Attn.Fin

end
-- ==== Proof.lean ====
/-
  Two-pass attention over squared Euclidean distances against its one-pass reference.

  The kernel computes, for query rows `q`, key rows `k` and value rows `v` of eight batches, the logits
  `s = (2 q·k − |q|² − |k|²) / 13`, in a first pass the row-wise log-sum-exp `m + log l` by streaming over blocks of
  keys — a running maximum `m` and a running sum `l` of exponentials shifted by it, the sum rescaled by `exp (m − m')`
  whenever the maximum grows —, and in a second pass the tiles `s − (m + log l)` and their exponentials, accumulating
  the products of the latter with the value rows over the key blocks. The reference computes the same logits as
  `−((|q|² − 2 q·k) + |k|²) / 13`, their row maximum `M`, `(s − M) − log Σ exp (s − M)`, its exponential, and one whole
  contraction with `v`. On finite inputs every quantity is a real number, and over the reals the streaming pair ends at
  `(M, Σ exp (s − M))`, so both programs hold the row-wise log-softmax, the softmax and the softmax-weighted sum of the
  value rows (module Spec). Finiteness is used: the rescaling identity and the regrouping of the sums are identities of
  real numbers, and the extended reals' conventions at ±∞ play no part once every entry is a real.

  The frames of the two kernel programs come from the two regions' records over the conditional frame of the program's
  items; the reference's frame from its run. The ideal pass rewrote nothing, so the preservation claim is trivial.
-/
import proofs.«101240_j549755814005_2_alg».proof.Defs
import proofs.«101240_j549755814005_2_alg».proof.Proof.Gen.Kernel
import proofs.«101240_j549755814005_2_alg».proof.Proof.Gen.KernelIdeal
import proofs.«101240_j549755814005_2_alg».proof.Proof.Gen.ReferenceIdeal
import proofs.«101240_j549755814005_2_alg».proof.Proof.Gen.Pre_finite_inputs
import proofs.«101240_j549755814005_2_alg».proof.Proof.KRun
import proofs.«101240_j549755814005_2_alg».proof.Proof.KernelRun
import proofs.«101240_j549755814005_2_alg».proof.Proof.KernelValues
import proofs.«101240_j549755814005_2_alg».proof.Proof.RefRun
import proofs.«101240_j549755814005_2_alg».proof.Proof.Finite
import Idealize.ShloMosaic.Adequacy
import Idealize.ShloMosaic.Init

noncomputable section

namespace Cert.Proof

open Idealize.ShloMosaic Idealize.ShloMosaic.TcCoe Idealize.SL.Sem Cert.Attn

/-- The word-level kernel program runs to the end and leaves its arguments as launched. -/
theorem frame_p : Cert.frame_Kernel := fun m ρ _ => Cert.Kernel.Regs.frame (F := Bits) m ρ

/-- So does the idealized kernel program. -/
theorem frame_pi : Cert.frame_KernelIdeal := fun m ρ _ => Cert.KernelIdeal.Regs.frame m ρ

/-- And the reference. -/
theorem frame_ri : Cert.frame_ReferenceIdeal := Cert.Attn.Ref.frame

/-- On finite inputs both idealized programs end with the softmax-weighted sum, the softmax and the log-softmax of
    the distance logits in their three result arrays. -/
theorem algebraic : Cert.algebraic_KernelIdeal_ReferenceIdeal := by
  intro m ρ m' ρ' hpre hagree
  have hex : ∀ c : Dev Cert.KernelIdeal.nD, ∃ q k v : Fin 8 → Fin 2048 → Fin 640 → ℝ,
      m ((c.tc : Thread Cert.KernelIdeal.nD Cert.KernelIdeal.τ).loc Cert.KernelIdeal.main_arg0) = lift3 q
      ∧ m ((c.tc : Thread Cert.KernelIdeal.nD Cert.KernelIdeal.τ).loc Cert.KernelIdeal.main_arg1) = lift3 k
      ∧ m ((c.tc : Thread Cert.KernelIdeal.nD Cert.KernelIdeal.τ).loc Cert.KernelIdeal.main_arg2) = lift3 v :=
    fun c => Cert.Attn.Fin.exists_real _ _ _ (hpre c)
  choose q k v h0 h1 h2 using hex
  refine ⟨fun c => lift3 (out (q c) (k c) (v c)), fun c => lift3 (attn (q c) (k c)), fun c => lift3 (logAttn (q c) (k c)), ?_, ?_⟩
  · refine (θ_run Cert.KernelIdeal.defs _ _).mono (fun r h c => ?_) (Cert.KernelIdeal.Regs.run (F := Ideal) m ρ)
    obtain ⟨r0, r1, r2⟩ := Cert.KernelIdeal.Values.results m c (q c) (k c) (v c) (h0 c) (h1 c) (h2 c)
    have mem : ∀ b : Ref Cert.KernelIdeal.sig .tc, ¬ (Proc.devRef .tc b : DevRef Cert.KernelIdeal.τ Cert.KernelIdeal.sig).isScoped →
        Proc.devRef .tc b ∈ Pipeline.ucRefs Cert.KernelIdeal.τ Cert.KernelIdeal.sig :=
      fun b hb => Finset.mem_filter.mpr ⟨StableHlo.devRef_mem_tcRefs b, hb⟩
    have kept : ∀ b : Ref Cert.KernelIdeal.sig .tc, Cert.KernelIdeal.Gen.V3 m (Cert.KernelIdeal.Regs.outs m) c b = Cert.KernelIdeal.Regs.VV3 m c b :=
      fun b => congrFun (Cert.KernelIdeal.Regs.V3_eq m c) _
    exact ⟨(h c _ (mem Cert.KernelIdeal.main_v8_2 (by decide))).trans r0,
      (h c _ (mem Cert.KernelIdeal.main_v8_0 (by decide))).trans r1,
      (h c _ (mem Cert.KernelIdeal.main_v8_1 (by decide))).trans r2,
      (h c _ (mem Cert.KernelIdeal.main_arg0 (by decide))).trans ((kept _).symm.trans (Cert.KernelIdeal.Gen.V3_main_arg0 m _ c)),
      (h c _ (mem Cert.KernelIdeal.main_arg1 (by decide))).trans ((kept _).symm.trans (Cert.KernelIdeal.Gen.V3_main_arg1 m _ c)),
      (h c _ (mem Cert.KernelIdeal.main_arg2 (by decide))).trans ((kept _).symm.trans (Cert.KernelIdeal.Gen.V3_main_arg2 m _ c))⟩
  · exact Cert.Attn.Ref.run m' ρ' q k v (fun c => ((hagree c).1).trans (h0 c)) (fun c => ((hagree c).2.1).trans (h1 c))
      (fun c => ((hagree c).2.2).trans (h2 c))

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
